-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x1536 : Shape := ⟨2, ![512, 1536]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x512 .f32) (main_arg1 : FVec F S512x1536 .f32) (main_arg2 : FVec F S512x512 .f32) (main_arg3 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x512 : Shape := ⟨3, ![8, 2048, 512]⟩
abbrev S512x1536 : Shape := ⟨2, ![512, 1536]⟩
abbrev S512x512 : Shape := ⟨2, ![512, 512]⟩
abbrev S512 : Shape := ⟨1, ![512]⟩
abbrev S16384x512 : Shape := ⟨2, ![16384, 512]⟩
abbrev S16384x1536 : Shape := ⟨2, ![16384, 1536]⟩
abbrev S8x2048x1536 : Shape := ⟨3, ![8, 2048, 1536]⟩
abbrev S1x512 : Shape := ⟨2, ![1, 512]⟩
abbrev S1x512x512 : Shape := ⟨3, ![1, 512, 512]⟩
abbrev S1x1024x512 : Shape := ⟨3, ![1, 1024, 512]⟩
abbrev S512x1 : Shape := ⟨2, ![512, 1]⟩
abbrev S1024x512 : Shape := ⟨2, ![1024, 512]⟩
abbrev S512x1024 : Shape := ⟨2, ![512, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8x2048x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S16384x512, .f32⟩
  | .hbm, ⟨5, _⟩ => ⟨S16384x1536, .bf16⟩
  | .hbm, ⟨6, _⟩ => ⟨S8x2048x1536, .bf16⟩
  | .hbm, ⟨7, _⟩ => ⟨S1x512, .f32⟩
  | .hbm, ⟨8, _⟩ => ⟨S8x2048x512, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S512x1536, .bf16⟩
  | .local _ .vmem, ⟨4, _⟩ => ⟨S512x1536, .bf16⟩
  | .local _ .vmem, ⟨5, _⟩ => ⟨S1x512x512, .bf16⟩
  | .local _ .vmem, ⟨6, _⟩ => ⟨S1x512x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x512, .f32⟩
  | .local _ .vmem, ⟨12, _⟩ => ⟨S1x512x512, .f32⟩
  | .local _ .vmem, ⟨13, _⟩ => ⟨S512x512, .f32⟩
  | .local _ .vmem, ⟨14, _⟩ => ⟨S1x512, .f32⟩
  | .local _ .vmem, ⟨15, _⟩ => ⟨S1x512x512, .f32⟩
  | .local _ .vmem, ⟨16, _⟩ => ⟨S1x512x512, .f32⟩
  | .local _ .vmem, ⟨17, _⟩ => ⟨S512x1, .f32⟩
  | .local _ .vmem, ⟨18, _⟩ => ⟨S512x1, .f32⟩
  | .local _ .vmem, ⟨19, _⟩ => ⟨S512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v43 : BitVec 1 := Scalar.cmpi .eq arg2 c1_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S8x2048x512_S16384x512 : S8x2048x512.ShapeCasts S16384x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  packedbf16_S512x1536_S512x1536_0_0 : (Rect.unit (s := S512x1536) ![0, 0] S512x1536.size inb_S512x1536_S512x1536_0_0).PackedRows (EltTy.packing .bf16)
  shapeCasts_S16384x1536_S8x2048x1536 : S16384x1536.ShapeCasts S8x2048x1536
  shapeCasts_S512_S1x512 : S512.ShapeCasts S1x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x512_p1_0_S512x1024 : S1024x512.Transposes [1, 0] S512x1024
  reduces_S512x1024_S512 : S512x1024.Reduces [1] S512
  shapeCasts_S512_S512x1 : S512.ShapeCasts S512x1
  broadcasts_S512x1_S512x1024 : S512x1.Broadcasts S512x1024
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  dot_S512x512_S512x1536_S512x1536_1_0_0_1_n_n_wf : DotDims.WF S512x512 S512x1536 S512x1536 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S16384x1536.size a
  hwx0_2 : ∀ i : grid0.Coords, EltTy.bits .bf16 = 32 ∨ (Rect.block (s := S16384x1536) S512x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x1536.size a
  hwx1_0 : ∀ i : grid1.Coords, EltTy.bits .bf16 = 32 ∨ (Rect.block (s := S8x2048x1536) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S8x2048x1536.size a
  hwx1_1 : ∀ i : grid1.Coords, EltTy.bits .bf16 = 32 ∨ (Rect.block (s := S8x2048x1536) S1x1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S8x2048x1536.size a
  hwx1_2 : ∀ i : grid1.Coords, EltTy.bits .bf16 = 32 ∨ (Rect.block (s := S8x2048x1536) S1x1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x512.size a
  hwx1_3 : ∀ i : grid1.Coords, EltTy.bits .f32 = 32 ∨ (Rect.block (s := S8x2048x512) S1x512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x512.size a ≤ S8x2048x512.size a
  hwx1_6 : ∀ i : grid1.Coords, EltTy.bits .f32 = 32 ∨ (Rect.block (s := S8x2048x512) S1x512x512.size (cc1_transform_6 i) (hinb1_6 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x1536 : Shape := ⟨2, ![512, 1536]⟩
abbrev S512x512 : Shape := ⟨2, ![512, 512]⟩
abbrev S512 : Shape := ⟨1, ![512]⟩
abbrev S8x2048x1536 : Shape := ⟨3, ![8, 2048, 1536]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S8x2048x1536, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S_, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S8x2048x512, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S1x1x512, .f32⟩
  | .hbm, ⟨33, _⟩ => ⟨S8x2048x512, .f32⟩
  | .hbm, ⟨34, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  slices_S8x2048x1536_S8x2048x512_0_0_0 : S8x2048x1536.Slices ![0, 0, 0] S8x2048x512
  slices_S8x2048x1536_S8x2048x512_0_0_512 : S8x2048x1536.Slices ![0, 0, 512] S8x2048x512
  slices_S8x2048x1536_S8x2048x512_0_0_1024 : S8x2048x1536.Slices ![0, 0, 1024] S8x2048x512
  bcast_S_S8x2048x512 : S_.BroadcastsInDim S8x2048x512 (![] : Fin 0 → Fin S8x2048x512.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x512_S512x1536_S8x2048x1536_2_0_01_1_n_n_wf : DotDims.WF S8x2048x512 S512x1536 S8x2048x1536 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x512_S512x512_S8x2048x512_2_0_01_1_n_n_wf : DotDims.WF S8x2048x512 S512x512 S8x2048x512 [2] [0] [0, 1] [1] [] []

variable [Facts₀]

def dot_S8x2048x512_S512x1536_S8x2048x1536_2_0_01_1_n_n : DotDims S8x2048x512 S512x1536 S8x2048x1536 where
  lhsContracting := [2]
  rhsContracting := [0]
  lhsNonContracting := [0, 1]
  rhsNonContracting := [1]
  lhsBatch := []
  rhsBatch := []
  wf := dot_S8x2048x512_S512x1536_S8x2048x1536_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf

class Facts : Prop extends Facts₀ where

variable [Facts]
-- ==== Proof.Kernel.ProjRegion.lean ====
/- REGION 0 of the program: the projection pallas_call `cc0__matmul_kernel` (a [16384,512] array times a
   [512,1536] array, in 32 row blocks of 512), at a PARAMETER `V` — the TensorCore's buffer contents when the region is
   entered. Each window's block at a point, what the body leaves in the result window's buffer, the body's triple, the
   pipeline's proof data and its body obligation, at any float model `F`. -/
import proofs.«103585_j80161269612898_2_alg».proof.Proof.Gen.Kernel.Launch
import proofs.«103585_j80161269612898_2_alg».proof.Proof.Gen.Kernel.Skeleton
import proofs.«103585_j80161269612898_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle, and it is fetched at every
    point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 — the whole second factor, fetched at the first point only — holds its block at every point
    all the same: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole first-factor block, -/
abbrev r0_0 : Rect S512x512 := Rect.unit (s := S512x512) ![0, 0] S512x512.size inb_S512x512_S512x512_0_0
/-- the whole second factor, -/
abbrev r0_1 : Rect S512x1536 := Rect.unit (s := S512x1536) ![0, 0] S512x1536.size inb_S512x1536_S512x1536_0_0
/-- and the whole result block. -/
abbrev r0_2 : Rect S512x1536 := Rect.unit (s := S512x1536) ![0, 0] S512x1536.size inb_S512x1536_S512x1536_0_0

/-! ## What the body leaves in the result window's buffer -/

/-- Window 2's staging buffer after the body, from the input windows' blocks: its one store as a piece. -/
def out0_2 (x0 : Vec F S512x512 .f32) (x1 : Vec F S512x1536 .f32) : Vec F S512x1536 .bf16 :=
  View.canon [⟨r0_2, k0_pay1 (View.ld x0 r0_0) (View.ld x1 r0_1)⟩]

/-- The store tiles the buffer (checked by evaluation), so it covers it. -/
theorem cover0_2 (p0 : Vec F S512x1536 .bf16) (y : S512x1536.Idx) :
    ∃ pc ∈ ([⟨r0_2, p0⟩] : List (View.Piece (Elt F) S512x1536 .bf16)), y ∈ pc.1.set :=
  View.cover_of_tiled [⟨r0_2, p0⟩] S512x1536.size (by rfl) y

/-! ## The body's triple -/

set_option maxHeartbeats 1000000 in
/-- The kernel body on whole staging memrefs, the inputs' at read contents `x0`, `x1` and the result's at anything,
    runs to the continuation holding the inputs' as they were and the result's at `out0_2` of the inputs'. The body
    also loads the result buffer before storing to it; the value is not used. -/
theorem sound_kernel0 (c : Dev nD) (E : Set ℕ) (i : grid0.Coords) (arg1 : Memref sig .tc .vmem S512x512 .f32) (harg1 : arg1.IsWhole) (arg2 : Memref sig .tc .vmem S512x1536 .f32) (harg2 : arg2.IsWhole) (arg3 : Memref sig .tc .vmem S512x1536 .bf16) (harg3 : arg3.IsWhole)
    (x0 : Vec F S512x512 .f32) (x1 : Vec F S512x1536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the projection pipeline on core `c`: the arrays as the region finds them (`V`); after the
    body at point `t` each input's buffer at its block and the result's at `out0_2` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.AttnRuns.lean ====
/-
  The attention kernel (the second pallas_call) at one grid point (b, qi, ki): which of its two branches run, in closed
  form over the grid — the reset of the running maximum, denominator and accumulator at ki = 0, the normalisation and
  output projection at ki = 1 —, where its output window is idle, and the names the two case runs share.
-/
import proofs.«103585_j80161269612898_2_alg».proof.Proof.Gen.Kernel.Launch
import proofs.«103585_j80161269612898_2_alg».proof.Proof.Gen.Kernel.Skeleton
import proofs.«103585_j80161269612898_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branches -/

/-- The reset branch is taken where the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The epilogue branch is taken where the key-block coordinate is 1, the last. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the epilogue does not run nothing is stored into the output window, and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it runs the window is live. -/
theorem liveAt1_6 : ∀ t : Fin cfg1.N, cond1_1 (grid1.coords t) → cfg1.idle 6 (grid1.coords t) = false := by decide +kernel

/-! ## The staging memrefs and the scratch -/

abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x512 .f32 := win1_6.stage (cfg1.slots t 6)
abbrev hs1_6 (t : Fin cfg1.N) : (ms1_6 t).IsWhole := hstage1_6 ((cfg1.slots t 6).cast nbuf1_6)
/-- The running row maximum, the running denominator and the running accumulator: the kernel's own scratch. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
abbrev VS1_0 : View sig .tc .vmem S512x1 .f32 := scM1_0.view
abbrev VS1_1 : View sig .tc .vmem S512x1 .f32 := scM1_1.view
abbrev VS1_2 : View sig .tc .vmem S512x512 .f32 := scM1_2.view
abbrev VO1_6 : View sig .tc .vmem S1x512x512 .f32 := (Memref.whole cc1_stg6_0 : Memref sig .tc .vmem S1x512x512 .f32).view

/-- The other kernel's staging buffers, which this kernel never touches, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant between two query blocks: the three scratch buffers at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.Kernel.AttnRunA.lean ====
/-
  The attention kernel at a point with key-block coordinate 0: the running maximum, denominator and accumulator are
  reset (to −∞, 0, 0) and then updated with the first key block; the output window is left untouched.
-/
import proofs.«103585_j80161269612898_2_alg».proof.Proof.Kernel.AttnRuns

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each scratch buffer at a point where only the reset branch runs, as pieces (last
    first), with the proof that the body — the inputs' buffers at their contents, the scratch at anything; the output's
    buffer is neither touched nor needed — runs to the continuation holding the inputs as they were and each scratch with
    its pieces written. The pieces are the witness the run finds. -/
noncomputable def kernelRun1_A (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : cond1_0 i) (hc1 : ¬cond1_1 i)
    (x0 : Vec F S1x512x512 .bf16) (x1 : Vec F S1x1024x512 .bf16) (x2 : Vec F S1x1024x512 .bf16) (x3 : Vec F S1x512x512 .f32) (x4 : Vec F S512x512 .f32) (x5 : Vec F S1x512 .f32) :
    Σ' (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %fs0, -, HS0⟩, ⟨%d11, %fs1, -, HS1⟩, ⟨%d12, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.Kernel.AttnRunB.lean ====
/-
  The attention kernel at a point with key-block coordinate 1, the last: the running maximum, denominator and
  accumulator, found as the point before left them, are updated with the second key block, and the epilogue stores
  (accumulator / denominator + residual) · Wout + bias into the output window.
-/
import proofs.«103585_j80161269612898_2_alg».proof.Proof.Kernel.AttnRuns

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output window's buffer and in each scratch buffer at a point where only the
    epilogue branch runs, as pieces (last first), with the proof that the body — the inputs' buffers at their
    contents, the output's at anything, the scratch at `xs0`, `xs1`, `xs2` — runs to the continuation holding the
    inputs as they were and the output and each scratch with its pieces written. -/
noncomputable def kernelRun1_B (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : ¬cond1_0 i) (hc1 : cond1_1 i)
    (x0 : Vec F S1x512x512 .bf16) (x1 : Vec F S1x1024x512 .bf16) (x2 : Vec F S1x1024x512 .bf16) (x3 : Vec F S1x512x512 .f32) (x4 : Vec F S512x512 .f32) (x5 : Vec F S1x512 .f32) (xs0 : Vec F S512x1 .f32) (xs1 : Vec F S512x1 .f32) (xs2 : Vec F S512x512 .f32) :
    Σ' (L6 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.Hand

end
-- ==== Proof.Kernel.AttnFrame.lean ====
/-
  The attention kernel over its grid (batch b, query block qi, key block ki ∈ {0, 1}; point t = (b·4 + qi)·2 + ki):
  what each point leaves behind. An even point (ki = 0) leaves the running maximum, denominator and accumulator of the
  first key block in the scratch; the odd point after it (ki = 1) folds in the second key block and stores the finished
  output block. So between an even point and the next the scratch holds named contents, and between an odd point and
  the next it may hold anything. The three windows that read the fused projection hold a third of that array's share each.
-/
import proofs.«103585_j80161269612898_2_alg».proof.Proof.Kernel.AttnRunA
import proofs.«103585_j80161269612898_2_alg».proof.Proof.Kernel.AttnRunB

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An even point: the scratch after the first key block -/

/-- The run of an even point `n` on the blocks the windows hold there. -/
abbrev runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    ((hcond1_0 t).mpr h0) (fun hh => by have := (hcond1_1 t).mp hh; omega) (iblk1 V c 0 t) (iblk1 V c 1 t) (iblk1 V c 2 t) (iblk1 V c 3 t) (iblk1 V c 4 t) (iblk1 V c 5 t)

theorem scoverA0 (c : Dev nD) (t : Fin cfg1.N) (h0 : t.val % 2 = 0) (y : S512x1.Idx) : ∃ pc ∈ (runA V c t h0).1, y ∈ pc.1.set :=
  View.cover_of_tiledL (runA V c t h0).1 S512x1.size (by sl_kernel_rfl) y
theorem scoverA1 (c : Dev nD) (t : Fin cfg1.N) (h0 : t.val % 2 = 0) (y : S512x1.Idx) : ∃ pc ∈ (runA V c t h0).2.1, y ∈ pc.1.set :=
  View.cover_of_tiledL (runA V c t h0).2.1 S512x1.size (by sl_kernel_rfl) y
theorem scoverA2 (c : Dev nD) (t : Fin cfg1.N) (h0 : t.val % 2 = 0) (y : S512x512.Idx) : ∃ pc ∈ (runA V c t h0).2.2.1, y ∈ pc.1.set :=
  View.cover_of_tiledL (runA V c t h0).2.2.1 S512x512.size (by sl_kernel_rfl) y

/-- The running row maximum after the first key block. -/
def sA0 (c : Dev nD) (t : Fin cfg1.N) (h0 : t.val % 2 = 0) : Vec F S512x1 .f32 :=
  VS1_0.read (Elt F) (VS1_0.writes (Elt F) VS1_0.junk (runA V c t h0).1)
/-- The running denominator after the first key block. -/
def sA1 (c : Dev nD) (t : Fin cfg1.N) (h0 : t.val % 2 = 0) : Vec F S512x1 .f32 :=
  VS1_1.read (Elt F) (VS1_1.writes (Elt F) VS1_1.junk (runA V c t h0).2.1)
/-- The running accumulator after the first key block. -/
def sA2 (c : Dev nD) (t : Fin cfg1.N) (h0 : t.val % 2 = 0) : Vec F S512x512 .f32 :=
  VS1_2.read (Elt F) (VS1_2.writes (Elt F) VS1_2.junk (runA V c t h0).2.2.1)

/-! ## An odd point: the output block -/

/-- The run of an odd point `n`, the scratch as the even point before it left it. -/
abbrev runB (c : Dev nD) (t : Fin cfg1.N) (h1 : t.val % 2 = 1) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (fun hh => by have := (hcond1_0 t).mp hh; omega) ((hcond1_1 t).mpr h1) (iblk1 V c 0 t) (iblk1 V c 1 t) (iblk1 V c 2 t) (iblk1 V c 3 t) (iblk1 V c 4 t) (iblk1 V c 5 t)
    (sA0 V c ⟨t.val - 1, by have := t.isLt; omega⟩ (by show (t.val - 1) % 2 = 0; omega)) (sA1 V c ⟨t.val - 1, by have := t.isLt; omega⟩ (by show (t.val - 1) % 2 = 0; omega)) (sA2 V c ⟨t.val - 1, by have := t.isLt; omega⟩ (by show (t.val - 1) % 2 = 0; omega))

theorem coverB6 (c : Dev nD) (t : Fin cfg1.N) (h1 : t.val % 2 = 1) (y : S1x512x512.Idx) : ∃ pc ∈ (runB V c t h1).1, y ∈ pc.1.set :=
  View.cover_of_tiledL (runB V c t h1).1 S1x512x512.size (by sl_kernel_rfl) y

/-- The finished output block of an odd point. -/
def outB6 (c : Dev nD) (t : Fin cfg1.N) (h1 : t.val % 2 = 1) : Vec F S1x512x512 .f32 :=
  VO1_6.read (Elt F) (VO1_6.writes (Elt F) VO1_6.junk (runB V c t h1).1)

/-- What the output window's buffer is said to hold after point `t`: the finished block at an odd point; at an even
    point the window is idle and this value is never consulted. -/
def out6 (c : Dev nD) (t : Fin cfg1.N) : Vec F S1x512x512 .f32 :=
  if h1 : t.val % 2 = 1 then outB6 V c t h1 else iblk1 V c 6 t

/-! ## The invariant between points -/

/-- The scoped rest with the three scratch buffers at named contents. -/
def PhiNamed (c : Dev nD) (s0 s1 : Vec F S512x1 .f32) (s2 : Vec F S512x512 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare s0 ∗ owns (c : Thread nD τ) scM1_1 fullShare s1 ∗ owns (c : Thread nD τ) scM1_2 fullShare s2) ∗ (∃ r, prngReg c r))

/-- Before point `n`: after an even point the scratch at what it left; otherwise at anything. -/
def PhiS (c : Dev nD) (n : ℕ) (h : n ≤ cfg1.N) : sProp 𝕄 :=
  if h1 : n % 2 = 1 then PhiNamed c (sA0 V c ⟨n - 1, by omega⟩ (by show (n - 1) % 2 = 0; omega)) (sA1 V c ⟨n - 1, by omega⟩ (by show (n - 1) % 2 = 0; omega)) (sA2 V c ⟨n - 1, by omega⟩ (by show (n - 1) % 2 = 0; omega))
  else Pipeline.ΦA spec1 c

theorem PhiS_even (c : Dev nD) (n : ℕ) (h : n ≤ cfg1.N) (h0 : n % 2 = 0) : PhiS V c n h = Pipeline.ΦA spec1 c := by
  unfold PhiS; rw [dif_neg (by omega)]
theorem PhiS_odd (c : Dev nD) (n : ℕ) (h : n ≤ cfg1.N) (h1 : n % 2 = 1) :
    PhiS V c n h = PhiNamed c (sA0 V c ⟨n - 1, by omega⟩ (by show (n - 1) % 2 = 0; omega)) (sA1 V c ⟨n - 1, by omega⟩ (by show (n - 1) % 2 = 0; omega)) (sA2 V c ⟨n - 1, by omega⟩ (by show (n - 1) % 2 = 0; omega)) := by
  unfold PhiS; rw [dif_pos h1]
theorem PhiS_succ_even (c : Dev nD) (n : ℕ) (hn : n < cfg1.N) (h0 : n % 2 = 0) :
    PhiS V c (n + 1) hn = PhiNamed c (sA0 V c ⟨n, hn⟩ h0) (sA1 V c ⟨n, hn⟩ h0) (sA2 V c ⟨n, hn⟩ h0) := by
  unfold PhiS; rw [dif_pos (by omega)]; rfl

/-! ## The proof data -/

/-- The attention pipeline's proof data on core `c`: the arrays as the region finds them; each input window's buffer at its
    block; the output window's at `out6`; the invariant `PhiS`; nothing owed; the fused projection's array, read by three
    windows, held a third each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6 V c t
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out6 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. At an even point the scratch is found at anything, reset, and left at the first key block's
    running values, the output window untouched; at an odd point the scratch is found as the point before left it and
    the output block is stored. The inputs' buffers hold their blocks throughout; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [PhiS_castSucc V c t, show (dat1 V c).Φ t.succ = PhiS V c (t.val + 1) t.isLt from rfl]
  by_cases h1 : t.val % 2 = 1
  · -- an odd point: the epilogue runs
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6 t hc1], after1_6]
    rw [show out6 V c t = outB6 V c t h1 from by unfold out6; rw [dif_pos h1]]
    unfold outB6
    rw [PhiS_odd V c _ _ h1, PhiS_even V c _ _ (by omega), PhiA1_eq]
    unfold PhiNamed
    iintro ⟨⟨⟨A0, A1, A2, A3, A4, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [A0 A1 A2 A3 A4 HS0 HS1 HS2 Hg]
    · isplitl [A0 A1 A2 A3 A4 HS0 HS1 HS2]
      · isplitl [A0]; · iexact A0
        isplitl [A1]; · iexact A1
        isplitl [A2]; · iexact A2
        isplitl [A3]; · iexact A3
        isplitl [A4]; · iexact A4
        isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB6 V c t h1)
  · -- an even point: the reset runs, the output window is idle
    have h0 : t.val % 2 = 0 := by omega
    have hnc1 : ¬cond1_1 (grid1.coords t) := fun hh => h1 ((hcond1_1 t).mp hh)
    rw [Dat.leavesExact_idle (dat1 V c) 6 t (idleAt1_6 t hnc1) (noFlush1_6 t hnc1)]
    rw [PhiS_even V c _ _ h0, PhiS_succ_even V c t.val t.isLt h0, PhiA1_eq]
    unfold PhiNamed sA0 sA1 sA2
    iintro ⟨⟨⟨A0, A1, A2, A3, A4, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runA V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [A0 A1 A2 A3 A4 HS0 HS1 HS2 Hg]
    · isplitl [A0 A1 A2 A3 A4 HS0 HS1 HS2]
      · isplitl [A0]; · iexact A0
        isplitl [A1]; · iexact A1
        isplitl [A2]; · iexact A2
        isplitl [A3]; · iexact A3
        isplitl [A4]; · iexact A4
        isplitl [HS0]
        · unfold owns; iexists _; isplitr
          swap; · iexact HS0
          ipureintro; exact View.read_writes_of_cover _ _ _ _ _ (scoverA0 V c t h0)
        isplitl [HS1]
        · unfold owns; iexists _; isplitr
          swap; · iexact HS1
          ipureintro; exact View.read_writes_of_cover _ _ _ _ _ (scoverA1 V c t h0)
        unfold owns; iexists _; isplitr
        swap; · iexact HS2
        ipureintro; exact View.read_writes_of_cover _ _ _ _ _ (scoverA2 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_even V c 0 _ rfl]
  try exact Idealize.SL.BI.Entails.refl _

/-- After the last point (an odd one) the invariant is again the scoped rest at anything. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiS_even V c _ _ (by rw [show cfg1.N = 64 from N_1])]
  try exact Idealize.SL.BI.Entails.refl _

end Cert.Kernel.Hand

end
-- ==== Proof.Kernel.AttnShares.lean ====
/-
  The attention kernel reads the fused projection through three windows (queries, keys, values) over ONE array. On entry
  that array's full share is split in three, one part per window; the other arrays go to their windows whole. On exit the
  three parts, which still hold the same contents (the windows only read), are joined again.
-/
import proofs.«103585_j80161269612898_2_alg».proof.Proof.Kernel.AttnRuns

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A proof data of the attention pipeline whose three readers of the fused projection hold a third of its share each and
    whose other input windows hold their arrays whole. -/
structure ThirdShares {c : Dev nD} (dat : Dat τ (Elt F) Unit ℕ (UR sig nD τ) ℕ cfg1 c) : Prop where
  s0 : dat.share 0 = fullShare.left
  s1 : dat.share 1 = fullShare.right.left
  s2 : dat.share 2 = fullShare.right.right
  s3 : dat.share 3 = fullShare
  s4 : dat.share 4 = fullShare
  s5 : dat.share 5 = fullShare
  s6 : dat.share 6 = fullShare

variable {c : Dev nD} (dat : Dat τ (Elt F) Unit ℕ (UR sig nD τ) ℕ cfg1 c) (hq : ThirdShares dat)

/-- The five distinct buffers behind the seven windows' arrays. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_arg0) ↦{fullShare} Vc main_arg0) ∗ (((c : Thread nD τ).loc main_arg2) ↦{fullShare} Vc main_arg2) ∗ (((c : Thread nD τ).loc main_v3) ↦{fullShare} Vc main_v3) ∗ (((c : Thread nD τ).loc main_v4) ↦{fullShare} Vc main_v4)) := by
  unfold Pipeline.arrBufs
  exact bigSep_eq_bigSepL_of_eq [main_v2, main_arg0, main_arg2, main_v3, main_v4] (by decide) (by decide) _

/-- The windows' arrays as points-tos of the buffers behind them, each at its window's share. -/
theorem arrays1_eq' (G : (w : Fin cfg1.W) → Buf (Elt F) ((cfg1.win w).arr.view.loc (c : Thread nD τ))) :
    dat.arrays G = bigSep Finset.univ fun w : Fin cfg1.W => ((((c : Thread nD τ).loc (Pipeline.arrRef spec1 w)) ↦{dat.share w} G w) : sProp 𝕄) := by
  unfold Dat.arrays
  exact bigSep_congr fun w _ => by rw [(arr_whole1 w).set_eq_univ]

include hq in
theorem arrays1_eq (G : (w : Fin cfg1.W) → Buf (Elt F) ((cfg1.win w).arr.view.loc (c : Thread nD τ))) :
    dat.arrays G
      = iprop((((c : Thread nD τ).loc main_v2) ↦{fullShare.left} G 0) ∗ (((c : Thread nD τ).loc main_v2) ↦{fullShare.right.left} G 1) ∗ (((c : Thread nD τ).loc main_v2) ↦{fullShare.right.right} G 2) ∗ (((c : Thread nD τ).loc main_arg0) ↦{fullShare} G 3) ∗ (((c : Thread nD τ).loc main_arg2) ↦{fullShare} G 4) ∗ (((c : Thread nD τ).loc main_v3) ↦{fullShare} G 5) ∗ (((c : Thread nD τ).loc main_v4) ↦{fullShare} G 6)) := by
  rw [arrays1_eq', bigSep_W1, hq.s0, hq.s1, hq.s2, hq.s3, hq.s4, hq.s5, hq.s6]; try rfl

include hq in
/-- ENTRY: the core's unscoped buffers at the region-entry contents are the windows' arrays at those contents, the fused
    projection's array shared out in three, and the unscoped rest. -/
theorem entry1 (Vc : (b : Ref sig .tc) → Buf (Elt F) ((c : Thread nD τ).loc b)) (hA : ∀ w, dat.A w = Vc (Pipeline.arrRef spec1 w)) (W : Valuation τ sig (Elt F)) (hV : ∀ b : Ref sig .tc, Vc b = W b) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec1 c Vc) := by
  have hVc : (fun b : Ref sig .tc => W b) = Vc := funext fun b => (hV b).symm
  rw [← Pipeline.unscopedBufs_held (Ix := Unit) (Name := ℕ) (U := UR sig nD τ) (Lvl := ℕ) c W, hVc]
  have hs : (unscopedBufs c Vc : sProp 𝕄) = iprop(Pipeline.arrBufs spec1 c Vc ∗ Pipeline.unscopedRest spec1 c Vc) :=
    Pipeline.unscopedBufs_split₀ cfgs (1 : Fin 2) winFacts₀1.arr_unscoped c Vc
  rw [hs]
  refine sep_mono ?_ .rfl
  rw [arrBufs1_eq, arrays1_eq dat hq, hA 0, hA 1, hA 2, hA 3, hA 4, hA 5, hA 6]
  iintro ⟨Hv2, Ha0, Ha2, Hv3, Hv4⟩
  ihave H := (pointsTo_share (PosShare.mem_left_op_right fullShare)).1 $$ Hv2
  icases H with ⟨Hl, Hr⟩
  ihave H2 := (pointsTo_share (PosShare.mem_left_op_right fullShare.right)).1 $$ Hr
  icases H2 with ⟨Hrl, Hrr⟩
  isplitl [Hl]; · iexact Hl
  isplitl [Hrl]; · iexact Hrl
  isplitl [Hrr]; · iexact Hrr
  isplitl [Ha0]; · iexact Ha0
  isplitl [Ha2]; · iexact Ha2
  isplitl [Hv3]; · iexact Hv3
  iexact Hv4

include hq in
/-- EXIT: the windows' arrays — the three readers of the fused projection still at its entry contents, the result array
    at what the write-backs left — and the unscoped rest are the core's unscoped buffers at any valuation that has the
    result array at those contents and agrees with the entry contents elsewhere. -/
theorem exit1 (Vc : (b : Ref sig .tc) → Buf (Elt F) ((c : Thread nD τ).loc b)) (W' : Valuation τ sig (Elt F))
    (G : (w : Fin cfg1.W) → Buf (Elt F) ((cfg1.win w).arr.view.loc (c : Thread nD τ)))
    (hG : ∀ w, G w = (fun b : Ref sig .tc => W' b) (Pipeline.arrRef spec1 w))
    (hrest : ∀ b, b ∉ Finset.univ.image (Pipeline.arrRef spec1) → (fun b : Ref sig .tc => W' b) b = Vc b) :
    iprop(dat.arrays G ∗ Pipeline.unscopedRest (Ix := Unit) (Name := ℕ) (U := UR sig nD τ) (Lvl := ℕ) spec1 c Vc)
      ⊢ (StableHlo.held (c : Thread nD τ) (Pipeline.ucRefs τ sig) W' : sProp 𝕄) := by
  rw [← Pipeline.unscopedBufs_held (Ix := Unit) (Name := ℕ) (U := UR sig nD τ) (Lvl := ℕ) c W']
  have hs : (unscopedBufs c (fun b : Ref sig .tc => W' b) : sProp 𝕄) = iprop(Pipeline.arrBufs spec1 c (fun b : Ref sig .tc => W' b) ∗ Pipeline.unscopedRest spec1 c (fun b : Ref sig .tc => W' b)) :=
    Pipeline.unscopedBufs_split₀ cfgs (1 : Fin 2) winFacts₀1.arr_unscoped c _
  rw [hs]
  refine sep_mono ?_ (Entails.of_eq ?_)
  · rw [arrBufs1_eq, arrays1_eq dat hq, hG 0, hG 1, hG 2, hG 3, hG 4, hG 5, hG 6]
    iintro ⟨Hl, Hrl, Hrr, Ha0, Ha2, Hv3, Hv4⟩
    isplitl [Hl Hrl Hrr]
    · iapply (pointsTo_share (PosShare.mem_left_op_right fullShare)).2
      isplitl [Hl]; · iexact Hl
      iapply (pointsTo_share (PosShare.mem_left_op_right fullShare.right)).2
      isplitl [Hrl] <;> iassumption
    isplitl [Ha0]; · iexact Ha0
    isplitl [Ha2]; · iexact Ha2
    isplitl [Hv3]; · iexact Hv3
    iexact Hv4
  · unfold Pipeline.unscopedRest
    exact bigSep_congr fun b hb => by rw [hrest b (Finset.mem_sdiff.mp hb).2]

end Cert.Kernel.Hand

end
-- ==== Proof.Kernel.RunCond.lean ====
/-
  The program's run with the attention kernel's result array named in the post. The program is four items in order — a
  host stretch, the projection region, a host stretch, the attention region —, each entered from the thread state the one
  before it left; given the two regions' records, every weakly fair execution terminates, and the last thread state holds
  every unscoped buffer at the last boundary's contents, from which the result array and the four arguments are read.
-/
import proofs.«103585_j80161269612898_2_alg».proof.Proof.Gen.Kernel.Regions

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)
open Idealize.SL.BI.Laws

variable (m : (ℓ : Loc nD τ sig) → Buf (Elt F) ℓ)

set_option backward.isDefEq.respectTransparency.types false in
/-- The program's run from the regions' records, with the result array in the post: every weakly fair execution from memory
    `m` with zero counters terminates, and every final memory holds the result array at what the attention region leaves
    there (`outs 4 main_v4`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v4) = outs 4 main_v4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v4) = outs 4 main_v4 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v4) (Finset.mem_filter.mpr ⟨StableHlo.devRef_mem_tcRefs main_v4, by decide⟩)).trans (Function.update_self _ _ _),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c)⟩
    · iexact HSI

end Cert.Kernel.Hand

end
-- ==== Proof.Kernel.Frame.lean ====
/-
  The whole program as its four items — reshape, projection kernel, two reshapes, attention kernel — run in order: the
  buffer contents at each boundary, each kernel region entered from the unscoped buffers as the item before left them and
  left with its result array at what its write-backs leave, and the frame: every execution terminates, nothing faults,
  the four argument arrays end as launched. The attention kernel reads the fused projection through three windows; the
  array's full share is split in three on entry and joined again on exit.
-/
import proofs.«103585_j80161269612898_2_alg».proof.Proof.Kernel.ProjRegion
import proofs.«103585_j80161269612898_2_alg».proof.Proof.Kernel.AttnFrame
import proofs.«103585_j80161269612898_2_alg».proof.Proof.Kernel.AttnShares
import proofs.«103585_j80161269612898_2_alg».proof.Proof.Gen.Kernel.Regions
import proofs.«103585_j80161269612898_2_alg».proof.Proof.Kernel.RunCond

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at each boundary -/

/-- The unscoped buffers when the projection kernel is entered, read at a TensorCore reference. -/
abbrev V1r (c : Dev nD) (b : Ref sig .tc) : Buf (Elt F) ((c : Thread nD τ).loc b) := Gen.V1 m c b
/-- What the projection kernel leaves in its result array: its write-backs folded. -/
def X1 (c : Dev nD) : Buf (Elt F) ((c : Thread nD τ).loc main_v1) := (dat0 (V1r m) c).arrAt 2 cfg0.N
/-- After the projection kernel. -/
abbrev W2 (c : Dev nD) : Valuation τ sig (Elt F) := Function.update (Gen.V1 m c) main_v1 (X1 m c)
/-- After the two reshapes: what the attention kernel is entered from. -/
abbrev W3 (c : Dev nD) : Valuation τ sig (Elt F) := StableHlo.after hostOps1 (W2 m c)
abbrev V3r (c : Dev nD) (b : Ref sig .tc) : Buf (Elt F) ((c : Thread nD τ).loc b) := W3 m c b
/-- What the attention kernel leaves in its result array. -/
def X4 (c : Dev nD) : Buf (Elt F) ((c : Thread nD τ).loc main_v4) := (dat1 (V3r m) c).arrAt 6 cfg1.N

/-- What the regions leave in the buffers they may change. -/
def outs : Gen.Outs (F := F) := fun _ r c =>
  Function.update (Function.update (fun b : Ref sig .tc => m ((c : Thread nD τ).loc b)) main_v1 (X1 m c)) main_v4 (X4 m c) r

theorem outs_v1 (c : Dev nD) : outs m 2 main_v1 c = X1 m c := by
  unfold outs; rw [Function.update_of_ne (by decide : (main_v1 : Ref sig .tc) ≠ main_v4), Function.update_self]
theorem outs_v4 (c : Dev nD) : outs m 4 main_v4 c = X4 m c := by
  unfold outs; rw [Function.update_self]

theorem V2_eq (c : Dev nD) : Gen.V2 m (outs m) c = W2 m c := by
  show Function.update (Gen.V1 m c) _ (outs m 2 main_v1 c) = _; rw [outs_v1]
theorem V3_eq (c : Dev nD) : Gen.V3 m (outs m) c = W3 m c := by
  show StableHlo.after hostOps1 (Gen.V2 m (outs m) c) = _; rw [V2_eq]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (V1r m) c
  | ⟨1, _⟩ => fun c => dat1 (V3r m) c

abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)

/-! ## The projection kernel as a region -/

theorem hF0 (c : Dev nD) (w : Fin cfg0.W) : (pdats m 0 c).arrAt w cfg0.N = (fun b : Ref sig .tc => Gen.V2 m (outs m) c b) (Pipeline.arrRef spec0 w) := by
  match w with
  | ⟨0, _⟩ => exact (((dat0 (V1r m) c).arrAt_in 0 rfl _).trans (A_eq0 (V1r m) c 0)).trans (Gen.V2_of m (outs m) c main_v0 (by decide)).symm
  | ⟨1, _⟩ => exact (((dat0 (V1r m) c).arrAt_in 1 rfl _).trans (A_eq0 (V1r m) c 1)).trans (Gen.V2_of m (outs m) c main_arg1 (by decide)).symm
  | ⟨2, _⟩ =>
    show X1 m c = Function.update (Gen.V1 m c) (Proc.devRef .tc main_v1) (outs m 2 main_v1 c) (Proc.devRef .tc main_v1)
    rw [Function.update_self, outs_v1]
theorem hrest0 (c : Dev nD) : ∀ b, b ∉ Finset.univ.image (Pipeline.arrRef spec0) → (fun b : Ref sig .tc => Gen.V2 m (outs m) c b) b = V1r m c b :=
  fun b hb => Gen.V2_of m (outs m) c b (fun h => hb (by
    rw [List.mem_singleton] at h; subst h; exact Finset.mem_image.mpr ⟨2, Finset.mem_univ _, rfl⟩))

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1r m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel as a region -/

/-- The attention pipeline's proof data holds the fused projection's array a third per reading window. -/
theorem thirds1 (V : (c : Dev nD) → (b : Ref sig .tc) → Buf (Elt F) ((c : Thread nD τ).loc b)) (c : Dev nD) : ThirdShares (dat1 V c) :=
  ⟨rfl, rfl, rfl, rfl, rfl, rfl, rfl⟩

theorem V4_of' (c : Dev nD) (r : Ref sig .tc) (h : r ∉ ([main_v4] : List (Ref sig .tc))) : Gen.V4 m (outs m) c r = V3r m c r :=
  (Gen.V4_of m (outs m) c r h).trans (by rw [V3_eq])

theorem hG1 (c : Dev nD) (w : Fin cfg1.W) : (pdats m 1 c).arrAt w cfg1.N = (fun b : Ref sig .tc => Gen.V4 m (outs m) c b) (Pipeline.arrRef spec1 w) := by
  match w with
  | ⟨0, _⟩ => exact (((dat1 (V3r m) c).arrAt_in 0 rfl _).trans (A_eq1 (V3r m) c 0)).trans (V4_of' m c main_v2 (by decide)).symm
  | ⟨1, _⟩ => exact (((dat1 (V3r m) c).arrAt_in 1 rfl _).trans (A_eq1 (V3r m) c 1)).trans (V4_of' m c main_v2 (by decide)).symm
  | ⟨2, _⟩ => exact (((dat1 (V3r m) c).arrAt_in 2 rfl _).trans (A_eq1 (V3r m) c 2)).trans (V4_of' m c main_v2 (by decide)).symm
  | ⟨3, _⟩ => exact (((dat1 (V3r m) c).arrAt_in 3 rfl _).trans (A_eq1 (V3r m) c 3)).trans (V4_of' m c main_arg0 (by decide)).symm
  | ⟨4, _⟩ => exact (((dat1 (V3r m) c).arrAt_in 4 rfl _).trans (A_eq1 (V3r m) c 4)).trans (V4_of' m c main_arg2 (by decide)).symm
  | ⟨5, _⟩ => exact (((dat1 (V3r m) c).arrAt_in 5 rfl _).trans (A_eq1 (V3r m) c 5)).trans (V4_of' m c main_v3 (by decide)).symm
  | ⟨6, _⟩ =>
    show X4 m c = Function.update (Gen.V3 m (outs m) c) (Proc.devRef .tc main_v4) (outs m 4 main_v4 c) (Proc.devRef .tc main_v4)
    rw [Function.update_self, outs_v4]
theorem hrest1 (c : Dev nD) : ∀ b, b ∉ Finset.univ.image (Pipeline.arrRef spec1) → (fun b : Ref sig .tc => Gen.V4 m (outs m) c b) b = V3r m c b :=
  fun b hb => V4_of' m c b (fun h => hb (by
    rw [List.mem_singleton] at h; subst h; exact Finset.mem_image.mpr ⟨6, Finset.mem_univ _, rfl⟩))

set_option backward.isDefEq.respectTransparency.types false in
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := entry1 (pdats m 1 c) (thirds1 (V3r m) c) (V3r m c) (A_eq1 (V3r m) c) (Gen.V3 m (outs m) c) (fun b => by rw [V3_eq])
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3r m) c)
    unfold Pipeline.ΦA
    iintro ⟨Hp, -, Hr⟩
    isplitl [Hr]; · iexact Hr
    iexact Hp
  hout c := by
    rw [Pipeline.ownSems0_none]
    refine (hout1 (V3r m) c).trans ?_
    unfold Pipeline.ΦA
    iintro ⟨Hr, Hp⟩
    isplitl [Hp]; · iexact Hp
    isplitr; · iempintro
    iexact Hr
  hexit c := by
    have hjoin := exit1 (pdats m 1 c) (thirds1 (V3r m) c) (V3r m c) (Gen.V4 m (outs m) c) ((pdats m 1 c).arrAt · cfg1.N) (hG1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- Every weakly fair execution of the program from any memory with zero counters terminates, nothing faulting, and every
    final memory holds the result array at what the attention region's write-backs leave and the four argument arrays as
    launched. -/
theorem run_all : θ_run defs (onTc (τ := τ) (main (F := F))) ⟨m, fun _ => 0, ρ⟩ (fun r => ∀ c : Dev nD,
      r.2.mem ((c.tc : Thread nD τ).loc main_v4) = X4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (outs_v4 m c), (h c).2⟩)
    (run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp))
          ⊢ (bigSep Finset.univ (fun c : Dev nD => R c) : sProp 𝕄) := bigSep_mono fun c _ =>
        (show (iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) : sProp 𝕄) ⊢ R c from by
          iintro ⟨-, HO, -, Hp, -⟩
          isplitl [Hp]; · iexists _; iexact Hp
          iexists ∅; iexact HO)
      iapply hmono
      iexact H)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.Kernel.Hand

end
-- ==== Proof.KernelIdeal.ProjRegion.lean ====
/- REGION 0 of the program: the projection pallas_call `cc0__matmul_kernel` (a [16384,512] array times a
   [512,1536] array, in 32 row blocks of 512), at a PARAMETER `V` — the TensorCore's buffer contents when the region is
   entered. Each window's block at a point, what the body leaves in the result window's buffer, the body's triple, the
   pipeline's proof data and its body obligation, at any float model `F`. -/
import proofs.«103585_j80161269612898_2_alg».proof.Proof.Gen.KernelIdeal.Launch
import proofs.«103585_j80161269612898_2_alg».proof.Proof.Gen.KernelIdeal.Skeleton
import proofs.«103585_j80161269612898_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle, and it is fetched at every
    point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 — the whole second factor, fetched at the first point only — holds its block at every point
    all the same: where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole first-factor block, -/
abbrev r0_0 : Rect S512x512 := Rect.unit (s := S512x512) ![0, 0] S512x512.size inb_S512x512_S512x512_0_0
/-- the whole second factor, -/
abbrev r0_1 : Rect S512x1536 := Rect.unit (s := S512x1536) ![0, 0] S512x1536.size inb_S512x1536_S512x1536_0_0
/-- and the whole result block. -/
abbrev r0_2 : Rect S512x1536 := Rect.unit (s := S512x1536) ![0, 0] S512x1536.size inb_S512x1536_S512x1536_0_0

/-! ## What the body leaves in the result window's buffer -/

/-- Window 2's staging buffer after the body, from the input windows' blocks: its one store as a piece. -/
def out0_2 (x0 : Vec F S512x512 .f32) (x1 : Vec F S512x1536 .f32) : Vec F S512x1536 .bf16 :=
  View.canon [⟨r0_2, k0_pay1 (View.ld x0 r0_0) (View.ld x1 r0_1)⟩]

/-- The store tiles the buffer (checked by evaluation), so it covers it. -/
theorem cover0_2 (p0 : Vec F S512x1536 .bf16) (y : S512x1536.Idx) :
    ∃ pc ∈ ([⟨r0_2, p0⟩] : List (View.Piece (Elt F) S512x1536 .bf16)), y ∈ pc.1.set :=
  View.cover_of_tiled [⟨r0_2, p0⟩] S512x1536.size (by rfl) y

/-! ## The body's triple -/

set_option maxHeartbeats 1000000 in
/-- The kernel body on whole staging memrefs, the inputs' at read contents `x0`, `x1` and the result's at anything,
    runs to the continuation holding the inputs' as they were and the result's at `out0_2` of the inputs'. The body
    also loads the result buffer before storing to it; the value is not used. -/
theorem sound_kernel0 (c : Dev nD) (E : Set ℕ) (i : grid0.Coords) (arg1 : Memref sig .tc .vmem S512x512 .f32) (harg1 : arg1.IsWhole) (arg2 : Memref sig .tc .vmem S512x1536 .f32) (harg2 : arg2.IsWhole) (arg3 : Memref sig .tc .vmem S512x1536 .bf16) (harg3 : arg3.IsWhole)
    (x0 : Vec F S512x512 .f32) (x1 : Vec F S512x1536 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the projection pipeline on core `c`: the arrays as the region finds them (`V`); after the
    body at point `t` each input's buffer at its block and the result's at `out0_2` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.AttnRuns.lean ====
/-
  The attention kernel (the second pallas_call) at one grid point (b, qi, ki): which of its two branches run, in closed
  form over the grid — the reset of the running maximum, denominator and accumulator at ki = 0, the normalisation and
  output projection at ki = 1 —, where its output window is idle, and the names the two case runs share.
-/
import proofs.«103585_j80161269612898_2_alg».proof.Proof.Gen.KernelIdeal.Launch
import proofs.«103585_j80161269612898_2_alg».proof.Proof.Gen.KernelIdeal.Skeleton
import proofs.«103585_j80161269612898_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branches -/

/-- The reset branch is taken where the key-block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The epilogue branch is taken where the key-block coordinate is 1, the last. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Where the epilogue does not run nothing is stored into the output window, and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it runs the window is live. -/
theorem liveAt1_6 : ∀ t : Fin cfg1.N, cond1_1 (grid1.coords t) → cfg1.idle 6 (grid1.coords t) = false := by decide +kernel

/-! ## The staging memrefs and the scratch -/

abbrev ms1_0 (t : Fin cfg1.N) : Memref sig .tc .vmem S1x512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x512 .f32 := win1_6.stage (cfg1.slots t 6)
abbrev hs1_6 (t : Fin cfg1.N) : (ms1_6 t).IsWhole := hstage1_6 ((cfg1.slots t 6).cast nbuf1_6)
/-- The running row maximum, the running denominator and the running accumulator: the kernel's own scratch. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
abbrev VS1_0 : View sig .tc .vmem S512x1 .f32 := scM1_0.view
abbrev VS1_1 : View sig .tc .vmem S512x1 .f32 := scM1_1.view
abbrev VS1_2 : View sig .tc .vmem S512x512 .f32 := scM1_2.view
abbrev VO1_6 : View sig .tc .vmem S1x512x512 .f32 := (Memref.whole cc1_stg6_0 : Memref sig .tc .vmem S1x512x512 .f32).view

/-- The other kernel's staging buffers, which this kernel never touches, each at some contents. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The invariant between two query blocks: the three scratch buffers at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KernelIdeal.AttnRunA.lean ====
/-
  The attention kernel at a point with key-block coordinate 0: the running maximum, denominator and accumulator are
  reset (to −∞, 0, 0) and then updated with the first key block; the output window is left untouched.
-/
import proofs.«103585_j80161269612898_2_alg».proof.Proof.KernelIdeal.AttnRuns

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each scratch buffer at a point where only the reset branch runs, as pieces (last
    first), with the proof that the body — the inputs' buffers at their contents, the scratch at anything; the output's
    buffer is neither touched nor needed — runs to the continuation holding the inputs as they were and each scratch with
    its pieces written. The pieces are the witness the run finds. -/
noncomputable def kernelRun1_A (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : cond1_0 i) (hc1 : ¬cond1_1 i)
    (x0 : Vec F S1x512x512 .bf16) (x1 : Vec F S1x1024x512 .bf16) (x2 : Vec F S1x1024x512 .bf16) (x3 : Vec F S1x512x512 .f32) (x4 : Vec F S512x512 .f32) (x5 : Vec F S1x512 .f32) :
    Σ' (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d10, %fs0, -, HS0⟩, ⟨%d11, %fs1, -, HS1⟩, ⟨%d12, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KernelIdeal.AttnRunB.lean ====
/-
  The attention kernel at a point with key-block coordinate 1, the last: the running maximum, denominator and
  accumulator, found as the point before left them, are updated with the second key block, and the epilogue stores
  (accumulator / denominator + residual) · Wout + bias into the output window.
-/
import proofs.«103585_j80161269612898_2_alg».proof.Proof.KernelIdeal.AttnRuns

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output window's buffer and in each scratch buffer at a point where only the
    epilogue branch runs, as pieces (last first), with the proof that the body — the inputs' buffers at their
    contents, the output's at anything, the scratch at `xs0`, `xs1`, `xs2` — runs to the continuation holding the
    inputs as they were and the output and each scratch with its pieces written. -/
noncomputable def kernelRun1_B (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : ¬cond1_0 i) (hc1 : cond1_1 i)
    (x0 : Vec F S1x512x512 .bf16) (x1 : Vec F S1x1024x512 .bf16) (x2 : Vec F S1x1024x512 .bf16) (x3 : Vec F S1x512x512 .f32) (x4 : Vec F S512x512 .f32) (x5 : Vec F S1x512 .f32) (xs0 : Vec F S512x1 .f32) (xs1 : Vec F S512x1 .f32) (xs2 : Vec F S512x512 .f32) :
    Σ' (L6 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KernelIdeal.AttnFrame.lean ====
/-
  The attention kernel over its grid (batch b, query block qi, key block ki ∈ {0, 1}; point t = (b·4 + qi)·2 + ki):
  what each point leaves behind. An even point (ki = 0) leaves the running maximum, denominator and accumulator of the
  first key block in the scratch; the odd point after it (ki = 1) folds in the second key block and stores the finished
  output block. So between an even point and the next the scratch holds named contents, and between an odd point and
  the next it may hold anything. The three windows that read the fused projection hold a third of that array's share each.
-/
import proofs.«103585_j80161269612898_2_alg».proof.Proof.KernelIdeal.AttnRunA
import proofs.«103585_j80161269612898_2_alg».proof.Proof.KernelIdeal.AttnRunB

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## An even point: the scratch after the first key block -/

/-- The run of an even point `n` on the blocks the windows hold there. -/
abbrev runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    ((hcond1_0 t).mpr h0) (fun hh => by have := (hcond1_1 t).mp hh; omega) (iblk1 V c 0 t) (iblk1 V c 1 t) (iblk1 V c 2 t) (iblk1 V c 3 t) (iblk1 V c 4 t) (iblk1 V c 5 t)

theorem scoverA0 (c : Dev nD) (t : Fin cfg1.N) (h0 : t.val % 2 = 0) (y : S512x1.Idx) : ∃ pc ∈ (runA V c t h0).1, y ∈ pc.1.set :=
  View.cover_of_tiledL (runA V c t h0).1 S512x1.size (by sl_kernel_rfl) y
theorem scoverA1 (c : Dev nD) (t : Fin cfg1.N) (h0 : t.val % 2 = 0) (y : S512x1.Idx) : ∃ pc ∈ (runA V c t h0).2.1, y ∈ pc.1.set :=
  View.cover_of_tiledL (runA V c t h0).2.1 S512x1.size (by sl_kernel_rfl) y
theorem scoverA2 (c : Dev nD) (t : Fin cfg1.N) (h0 : t.val % 2 = 0) (y : S512x512.Idx) : ∃ pc ∈ (runA V c t h0).2.2.1, y ∈ pc.1.set :=
  View.cover_of_tiledL (runA V c t h0).2.2.1 S512x512.size (by sl_kernel_rfl) y

/-- The running row maximum after the first key block. -/
def sA0 (c : Dev nD) (t : Fin cfg1.N) (h0 : t.val % 2 = 0) : Vec F S512x1 .f32 :=
  VS1_0.read (Elt F) (VS1_0.writes (Elt F) VS1_0.junk (runA V c t h0).1)
/-- The running denominator after the first key block. -/
def sA1 (c : Dev nD) (t : Fin cfg1.N) (h0 : t.val % 2 = 0) : Vec F S512x1 .f32 :=
  VS1_1.read (Elt F) (VS1_1.writes (Elt F) VS1_1.junk (runA V c t h0).2.1)
/-- The running accumulator after the first key block. -/
def sA2 (c : Dev nD) (t : Fin cfg1.N) (h0 : t.val % 2 = 0) : Vec F S512x512 .f32 :=
  VS1_2.read (Elt F) (VS1_2.writes (Elt F) VS1_2.junk (runA V c t h0).2.2.1)

/-! ## An odd point: the output block -/

/-- The run of an odd point `n`, the scratch as the even point before it left it. -/
abbrev runB (c : Dev nD) (t : Fin cfg1.N) (h1 : t.val % 2 = 1) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _)
    (fun hh => by have := (hcond1_0 t).mp hh; omega) ((hcond1_1 t).mpr h1) (iblk1 V c 0 t) (iblk1 V c 1 t) (iblk1 V c 2 t) (iblk1 V c 3 t) (iblk1 V c 4 t) (iblk1 V c 5 t)
    (sA0 V c ⟨t.val - 1, by have := t.isLt; omega⟩ (by show (t.val - 1) % 2 = 0; omega)) (sA1 V c ⟨t.val - 1, by have := t.isLt; omega⟩ (by show (t.val - 1) % 2 = 0; omega)) (sA2 V c ⟨t.val - 1, by have := t.isLt; omega⟩ (by show (t.val - 1) % 2 = 0; omega))

theorem coverB6 (c : Dev nD) (t : Fin cfg1.N) (h1 : t.val % 2 = 1) (y : S1x512x512.Idx) : ∃ pc ∈ (runB V c t h1).1, y ∈ pc.1.set :=
  View.cover_of_tiledL (runB V c t h1).1 S1x512x512.size (by sl_kernel_rfl) y

/-- The finished output block of an odd point. -/
def outB6 (c : Dev nD) (t : Fin cfg1.N) (h1 : t.val % 2 = 1) : Vec F S1x512x512 .f32 :=
  VO1_6.read (Elt F) (VO1_6.writes (Elt F) VO1_6.junk (runB V c t h1).1)

/-- What the output window's buffer is said to hold after point `t`: the finished block at an odd point; at an even
    point the window is idle and this value is never consulted. -/
def out6 (c : Dev nD) (t : Fin cfg1.N) : Vec F S1x512x512 .f32 :=
  if h1 : t.val % 2 = 1 then outB6 V c t h1 else iblk1 V c 6 t

/-! ## The invariant between points -/

/-- The scoped rest with the three scratch buffers at named contents. -/
def PhiNamed (c : Dev nD) (s0 s1 : Vec F S512x1 .f32) (s2 : Vec F S512x512 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare s0 ∗ owns (c : Thread nD τ) scM1_1 fullShare s1 ∗ owns (c : Thread nD τ) scM1_2 fullShare s2) ∗ (∃ r, prngReg c r))

/-- Before point `n`: after an even point the scratch at what it left; otherwise at anything. -/
def PhiS (c : Dev nD) (n : ℕ) (h : n ≤ cfg1.N) : sProp 𝕄 :=
  if h1 : n % 2 = 1 then PhiNamed c (sA0 V c ⟨n - 1, by omega⟩ (by show (n - 1) % 2 = 0; omega)) (sA1 V c ⟨n - 1, by omega⟩ (by show (n - 1) % 2 = 0; omega)) (sA2 V c ⟨n - 1, by omega⟩ (by show (n - 1) % 2 = 0; omega))
  else Pipeline.ΦA spec1 c

theorem PhiS_even (c : Dev nD) (n : ℕ) (h : n ≤ cfg1.N) (h0 : n % 2 = 0) : PhiS V c n h = Pipeline.ΦA spec1 c := by
  unfold PhiS; rw [dif_neg (by omega)]
theorem PhiS_odd (c : Dev nD) (n : ℕ) (h : n ≤ cfg1.N) (h1 : n % 2 = 1) :
    PhiS V c n h = PhiNamed c (sA0 V c ⟨n - 1, by omega⟩ (by show (n - 1) % 2 = 0; omega)) (sA1 V c ⟨n - 1, by omega⟩ (by show (n - 1) % 2 = 0; omega)) (sA2 V c ⟨n - 1, by omega⟩ (by show (n - 1) % 2 = 0; omega)) := by
  unfold PhiS; rw [dif_pos h1]
theorem PhiS_succ_even (c : Dev nD) (n : ℕ) (hn : n < cfg1.N) (h0 : n % 2 = 0) :
    PhiS V c (n + 1) hn = PhiNamed c (sA0 V c ⟨n, hn⟩ h0) (sA1 V c ⟨n, hn⟩ h0) (sA2 V c ⟨n, hn⟩ h0) := by
  unfold PhiS; rw [dif_pos (by omega)]; rfl

/-! ## The proof data -/

/-- The attention pipeline's proof data on core `c`: the arrays as the region finds them; each input window's buffer at its
    block; the output window's at `out6`; the invariant `PhiS`; nothing owed; the fused projection's array, read by three
    windows, held a third each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out6 V c t
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out6 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. At an even point the scratch is found at anything, reset, and left at the first key block's
    running values, the output window untouched; at an odd point the scratch is found as the point before left it and
    the output block is stored. The inputs' buffers hold their blocks throughout; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [PhiS_castSucc V c t, show (dat1 V c).Φ t.succ = PhiS V c (t.val + 1) t.isLt from rfl]
  by_cases h1 : t.val % 2 = 1
  · -- an odd point: the epilogue runs
    have hc1 : cond1_1 (grid1.coords t) := (hcond1_1 t).mpr h1
    rw [show (dat1 V c).leavesExact 6 t = owns (c : Thread nD τ) (ms1_6 t) fullShare ((dat1 V c).after 6 t) from by
      unfold Dat.leavesExact; rw [liveAt1_6 t hc1], after1_6]
    rw [show out6 V c t = outB6 V c t h1 from by unfold out6; rw [dif_pos h1]]
    unfold outB6
    rw [PhiS_odd V c _ _ h1, PhiS_even V c _ _ (by omega), PhiA1_eq]
    unfold PhiNamed
    iintro ⟨⟨⟨A0, A1, A2, A3, A4, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [A0 A1 A2 A3 A4 HS0 HS1 HS2 Hg]
    · isplitl [A0 A1 A2 A3 A4 HS0 HS1 HS2]
      · isplitl [A0]; · iexact A0
        isplitl [A1]; · iexact A1
        isplitl [A2]; · iexact A2
        isplitl [A3]; · iexact A3
        isplitl [A4]; · iexact A4
        isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB6 V c t h1)
  · -- an even point: the reset runs, the output window is idle
    have h0 : t.val % 2 = 0 := by omega
    have hnc1 : ¬cond1_1 (grid1.coords t) := fun hh => h1 ((hcond1_1 t).mp hh)
    rw [Dat.leavesExact_idle (dat1 V c) 6 t (idleAt1_6 t hnc1) (noFlush1_6 t hnc1)]
    rw [PhiS_even V c _ _ h0, PhiS_succ_even V c t.val t.isLt h0, PhiA1_eq]
    unfold PhiNamed sA0 sA1 sA2
    iintro ⟨⟨⟨A0, A1, A2, A3, A4, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runA V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [A0 A1 A2 A3 A4 HS0 HS1 HS2 Hg]
    · isplitl [A0 A1 A2 A3 A4 HS0 HS1 HS2]
      · isplitl [A0]; · iexact A0
        isplitl [A1]; · iexact A1
        isplitl [A2]; · iexact A2
        isplitl [A3]; · iexact A3
        isplitl [A4]; · iexact A4
        isplitl [HS0]
        · unfold owns; iexists _; isplitr
          swap; · iexact HS0
          ipureintro; exact View.read_writes_of_cover _ _ _ _ _ (scoverA0 V c t h0)
        isplitl [HS1]
        · unfold owns; iexists _; isplitr
          swap; · iexact HS1
          ipureintro; exact View.read_writes_of_cover _ _ _ _ _ (scoverA1 V c t h0)
        unfold owns; iexists _; isplitr
        swap; · iexact HS2
        ipureintro; exact View.read_writes_of_cover _ _ _ _ _ (scoverA2 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_even V c 0 _ rfl]
  try exact Idealize.SL.BI.Entails.refl _

/-- After the last point (an odd one) the invariant is again the scoped rest at anything. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiS_even V c _ _ (by rw [show cfg1.N = 64 from N_1])]
  try exact Idealize.SL.BI.Entails.refl _

end Cert.KernelIdeal.Hand

end
-- ==== Proof.KernelIdeal.AttnShares.lean ====
/-
  The attention kernel reads the fused projection through three windows (queries, keys, values) over ONE array. On entry
  that array's full share is split in three, one part per window; the other arrays go to their windows whole. On exit the
  three parts, which still hold the same contents (the windows only read), are joined again.
-/
import proofs.«103585_j80161269612898_2_alg».proof.Proof.KernelIdeal.AttnRuns

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A proof data of the attention pipeline whose three readers of the fused projection hold a third of its share each and
    whose other input windows hold their arrays whole. -/
structure ThirdShares {c : Dev nD} (dat : Dat τ (Elt F) Unit ℕ (UR sig nD τ) ℕ cfg1 c) : Prop where
  s0 : dat.share 0 = fullShare.left
  s1 : dat.share 1 = fullShare.right.left
  s2 : dat.share 2 = fullShare.right.right
  s3 : dat.share 3 = fullShare
  s4 : dat.share 4 = fullShare
  s5 : dat.share 5 = fullShare
  s6 : dat.share 6 = fullShare

variable {c : Dev nD} (dat : Dat τ (Elt F) Unit ℕ (UR sig nD τ) ℕ cfg1 c) (hq : ThirdShares dat)

/-- The five distinct buffers behind the seven windows' arrays. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v2) ↦{fullShare} Vc main_v2) ∗ (((c : Thread nD τ).loc main_arg0) ↦{fullShare} Vc main_arg0) ∗ (((c : Thread nD τ).loc main_arg2) ↦{fullShare} Vc main_arg2) ∗ (((c : Thread nD τ).loc main_v3) ↦{fullShare} Vc main_v3) ∗ (((c : Thread nD τ).loc main_v4) ↦{fullShare} Vc main_v4)) := by
  unfold Pipeline.arrBufs
  exact bigSep_eq_bigSepL_of_eq [main_v2, main_arg0, main_arg2, main_v3, main_v4] (by decide) (by decide) _

/-- The windows' arrays as points-tos of the buffers behind them, each at its window's share. -/
theorem arrays1_eq' (G : (w : Fin cfg1.W) → Buf (Elt F) ((cfg1.win w).arr.view.loc (c : Thread nD τ))) :
    dat.arrays G = bigSep Finset.univ fun w : Fin cfg1.W => ((((c : Thread nD τ).loc (Pipeline.arrRef spec1 w)) ↦{dat.share w} G w) : sProp 𝕄) := by
  unfold Dat.arrays
  exact bigSep_congr fun w _ => by rw [(arr_whole1 w).set_eq_univ]

include hq in
theorem arrays1_eq (G : (w : Fin cfg1.W) → Buf (Elt F) ((cfg1.win w).arr.view.loc (c : Thread nD τ))) :
    dat.arrays G
      = iprop((((c : Thread nD τ).loc main_v2) ↦{fullShare.left} G 0) ∗ (((c : Thread nD τ).loc main_v2) ↦{fullShare.right.left} G 1) ∗ (((c : Thread nD τ).loc main_v2) ↦{fullShare.right.right} G 2) ∗ (((c : Thread nD τ).loc main_arg0) ↦{fullShare} G 3) ∗ (((c : Thread nD τ).loc main_arg2) ↦{fullShare} G 4) ∗ (((c : Thread nD τ).loc main_v3) ↦{fullShare} G 5) ∗ (((c : Thread nD τ).loc main_v4) ↦{fullShare} G 6)) := by
  rw [arrays1_eq', bigSep_W1, hq.s0, hq.s1, hq.s2, hq.s3, hq.s4, hq.s5, hq.s6]; try rfl

include hq in
/-- ENTRY: the core's unscoped buffers at the region-entry contents are the windows' arrays at those contents, the fused
    projection's array shared out in three, and the unscoped rest. -/
theorem entry1 (Vc : (b : Ref sig .tc) → Buf (Elt F) ((c : Thread nD τ).loc b)) (hA : ∀ w, dat.A w = Vc (Pipeline.arrRef spec1 w)) (W : Valuation τ sig (Elt F)) (hV : ∀ b : Ref sig .tc, Vc b = W b) :
    (StableHlo.held (c : Thread nD τ) (Pipeline.ucRefs τ sig) W : sProp 𝕄)
      ⊢ iprop(dat.arrays dat.A ∗ Pipeline.unscopedRest (Ix := Unit) (Name := ℕ) (U := UR sig nD τ) (Lvl := ℕ) spec1 c Vc) := by
  have hVc : (fun b : Ref sig .tc => W b) = Vc := funext fun b => (hV b).symm
  rw [← Pipeline.unscopedBufs_held (Ix := Unit) (Name := ℕ) (U := UR sig nD τ) (Lvl := ℕ) c W, hVc]
  have hs : (unscopedBufs c Vc : sProp 𝕄) = iprop(Pipeline.arrBufs spec1 c Vc ∗ Pipeline.unscopedRest spec1 c Vc) :=
    Pipeline.unscopedBufs_split₀ cfgs (1 : Fin 2) winFacts₀1.arr_unscoped c Vc
  rw [hs]
  refine sep_mono ?_ .rfl
  rw [arrBufs1_eq, arrays1_eq dat hq, hA 0, hA 1, hA 2, hA 3, hA 4, hA 5, hA 6]
  iintro ⟨Hv2, Ha0, Ha2, Hv3, Hv4⟩
  ihave H := (pointsTo_share (PosShare.mem_left_op_right fullShare)).1 $$ Hv2
  icases H with ⟨Hl, Hr⟩
  ihave H2 := (pointsTo_share (PosShare.mem_left_op_right fullShare.right)).1 $$ Hr
  icases H2 with ⟨Hrl, Hrr⟩
  isplitl [Hl]; · iexact Hl
  isplitl [Hrl]; · iexact Hrl
  isplitl [Hrr]; · iexact Hrr
  isplitl [Ha0]; · iexact Ha0
  isplitl [Ha2]; · iexact Ha2
  isplitl [Hv3]; · iexact Hv3
  iexact Hv4

include hq in
/-- EXIT: the windows' arrays — the three readers of the fused projection still at its entry contents, the result array
    at what the write-backs left — and the unscoped rest are the core's unscoped buffers at any valuation that has the
    result array at those contents and agrees with the entry contents elsewhere. -/
theorem exit1 (Vc : (b : Ref sig .tc) → Buf (Elt F) ((c : Thread nD τ).loc b)) (W' : Valuation τ sig (Elt F))
    (G : (w : Fin cfg1.W) → Buf (Elt F) ((cfg1.win w).arr.view.loc (c : Thread nD τ)))
    (hG : ∀ w, G w = (fun b : Ref sig .tc => W' b) (Pipeline.arrRef spec1 w))
    (hrest : ∀ b, b ∉ Finset.univ.image (Pipeline.arrRef spec1) → (fun b : Ref sig .tc => W' b) b = Vc b) :
    iprop(dat.arrays G ∗ Pipeline.unscopedRest (Ix := Unit) (Name := ℕ) (U := UR sig nD τ) (Lvl := ℕ) spec1 c Vc)
      ⊢ (StableHlo.held (c : Thread nD τ) (Pipeline.ucRefs τ sig) W' : sProp 𝕄) := by
  rw [← Pipeline.unscopedBufs_held (Ix := Unit) (Name := ℕ) (U := UR sig nD τ) (Lvl := ℕ) c W']
  have hs : (unscopedBufs c (fun b : Ref sig .tc => W' b) : sProp 𝕄) = iprop(Pipeline.arrBufs spec1 c (fun b : Ref sig .tc => W' b) ∗ Pipeline.unscopedRest spec1 c (fun b : Ref sig .tc => W' b)) :=
    Pipeline.unscopedBufs_split₀ cfgs (1 : Fin 2) winFacts₀1.arr_unscoped c _
  rw [hs]
  refine sep_mono ?_ (Entails.of_eq ?_)
  · rw [arrBufs1_eq, arrays1_eq dat hq, hG 0, hG 1, hG 2, hG 3, hG 4, hG 5, hG 6]
    iintro ⟨Hl, Hrl, Hrr, Ha0, Ha2, Hv3, Hv4⟩
    isplitl [Hl Hrl Hrr]
    · iapply (pointsTo_share (PosShare.mem_left_op_right fullShare)).2
      isplitl [Hl]; · iexact Hl
      iapply (pointsTo_share (PosShare.mem_left_op_right fullShare.right)).2
      isplitl [Hrl] <;> iassumption
    isplitl [Ha0]; · iexact Ha0
    isplitl [Ha2]; · iexact Ha2
    isplitl [Hv3]; · iexact Hv3
    iexact Hv4
  · unfold Pipeline.unscopedRest
    exact bigSep_congr fun b hb => by rw [hrest b (Finset.mem_sdiff.mp hb).2]

end Cert.KernelIdeal.Hand

end
-- ==== Proof.KernelIdeal.RunCond.lean ====
/-
  The program's run with the attention kernel's result array named in the post. The program is four items in order — a
  host stretch, the projection region, a host stretch, the attention region —, each entered from the thread state the one
  before it left; given the two regions' records, every weakly fair execution terminates, and the last thread state holds
  every unscoped buffer at the last boundary's contents, from which the result array and the four arguments are read.
-/
import proofs.«103585_j80161269612898_2_alg».proof.Proof.Gen.KernelIdeal.Regions

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)
open Idealize.SL.BI.Laws

variable (m : (ℓ : Loc nD τ sig) → Buf (Elt F) ℓ)

set_option backward.isDefEq.respectTransparency.types false in
/-- The program's run from the regions' records, with the result array in the post: every weakly fair execution from memory
    `m` with zero counters terminates, and every final memory holds the result array at what the attention region leaves
    there (`outs 4 main_v4`) and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v4) = outs 4 main_v4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v4) = outs 4 main_v4 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v4) (Finset.mem_filter.mpr ⟨StableHlo.devRef_mem_tcRefs main_v4, by decide⟩)).trans (Function.update_self _ _ _),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c)⟩
    · iexact HSI

end Cert.KernelIdeal.Hand

end
-- ==== Proof.KernelIdeal.Frame.lean ====
/-
  The whole program as its four items — reshape, projection kernel, two reshapes, attention kernel — run in order: the
  buffer contents at each boundary, each kernel region entered from the unscoped buffers as the item before left them and
  left with its result array at what its write-backs leave, and the frame: every execution terminates, nothing faults,
  the four argument arrays end as launched. The attention kernel reads the fused projection through three windows; the
  array's full share is split in three on entry and joined again on exit.
-/
import proofs.«103585_j80161269612898_2_alg».proof.Proof.KernelIdeal.ProjRegion
import proofs.«103585_j80161269612898_2_alg».proof.Proof.KernelIdeal.AttnFrame
import proofs.«103585_j80161269612898_2_alg».proof.Proof.KernelIdeal.AttnShares
import proofs.«103585_j80161269612898_2_alg».proof.Proof.Gen.KernelIdeal.Regions
import proofs.«103585_j80161269612898_2_alg».proof.Proof.KernelIdeal.RunCond

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents at each boundary -/

/-- The unscoped buffers when the projection kernel is entered, read at a TensorCore reference. -/
abbrev V1r (c : Dev nD) (b : Ref sig .tc) : Buf (Elt F) ((c : Thread nD τ).loc b) := Gen.V1 m c b
/-- What the projection kernel leaves in its result array: its write-backs folded. -/
def X1 (c : Dev nD) : Buf (Elt F) ((c : Thread nD τ).loc main_v1) := (dat0 (V1r m) c).arrAt 2 cfg0.N
/-- After the projection kernel. -/
abbrev W2 (c : Dev nD) : Valuation τ sig (Elt F) := Function.update (Gen.V1 m c) main_v1 (X1 m c)
/-- After the two reshapes: what the attention kernel is entered from. -/
abbrev W3 (c : Dev nD) : Valuation τ sig (Elt F) := StableHlo.after hostOps1 (W2 m c)
abbrev V3r (c : Dev nD) (b : Ref sig .tc) : Buf (Elt F) ((c : Thread nD τ).loc b) := W3 m c b
/-- What the attention kernel leaves in its result array. -/
def X4 (c : Dev nD) : Buf (Elt F) ((c : Thread nD τ).loc main_v4) := (dat1 (V3r m) c).arrAt 6 cfg1.N

/-- What the regions leave in the buffers they may change. -/
def outs : Gen.Outs (F := F) := fun _ r c =>
  Function.update (Function.update (fun b : Ref sig .tc => m ((c : Thread nD τ).loc b)) main_v1 (X1 m c)) main_v4 (X4 m c) r

theorem outs_v1 (c : Dev nD) : outs m 2 main_v1 c = X1 m c := by
  unfold outs; rw [Function.update_of_ne (by decide : (main_v1 : Ref sig .tc) ≠ main_v4), Function.update_self]
theorem outs_v4 (c : Dev nD) : outs m 4 main_v4 c = X4 m c := by
  unfold outs; rw [Function.update_self]

theorem V2_eq (c : Dev nD) : Gen.V2 m (outs m) c = W2 m c := by
  show Function.update (Gen.V1 m c) _ (outs m 2 main_v1 c) = _; rw [outs_v1]
theorem V3_eq (c : Dev nD) : Gen.V3 m (outs m) c = W3 m c := by
  show StableHlo.after hostOps1 (Gen.V2 m (outs m) c) = _; rw [V2_eq]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (V1r m) c
  | ⟨1, _⟩ => fun c => dat1 (V3r m) c

abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)

/-! ## The projection kernel as a region -/

theorem hF0 (c : Dev nD) (w : Fin cfg0.W) : (pdats m 0 c).arrAt w cfg0.N = (fun b : Ref sig .tc => Gen.V2 m (outs m) c b) (Pipeline.arrRef spec0 w) := by
  match w with
  | ⟨0, _⟩ => exact (((dat0 (V1r m) c).arrAt_in 0 rfl _).trans (A_eq0 (V1r m) c 0)).trans (Gen.V2_of m (outs m) c main_v0 (by decide)).symm
  | ⟨1, _⟩ => exact (((dat0 (V1r m) c).arrAt_in 1 rfl _).trans (A_eq0 (V1r m) c 1)).trans (Gen.V2_of m (outs m) c main_arg1 (by decide)).symm
  | ⟨2, _⟩ =>
    show X1 m c = Function.update (Gen.V1 m c) (Proc.devRef .tc main_v1) (outs m 2 main_v1 c) (Proc.devRef .tc main_v1)
    rw [Function.update_self, outs_v1]
theorem hrest0 (c : Dev nD) : ∀ b, b ∉ Finset.univ.image (Pipeline.arrRef spec0) → (fun b : Ref sig .tc => Gen.V2 m (outs m) c b) b = V1r m c b :=
  fun b hb => Gen.V2_of m (outs m) c b (fun h => hb (by
    rw [List.mem_singleton] at h; subst h; exact Finset.mem_image.mpr ⟨2, Finset.mem_univ _, rfl⟩))

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V1r m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel as a region -/

/-- The attention pipeline's proof data holds the fused projection's array a third per reading window. -/
theorem thirds1 (V : (c : Dev nD) → (b : Ref sig .tc) → Buf (Elt F) ((c : Thread nD τ).loc b)) (c : Dev nD) : ThirdShares (dat1 V c) :=
  ⟨rfl, rfl, rfl, rfl, rfl, rfl, rfl⟩

theorem V4_of' (c : Dev nD) (r : Ref sig .tc) (h : r ∉ ([main_v4] : List (Ref sig .tc))) : Gen.V4 m (outs m) c r = V3r m c r :=
  (Gen.V4_of m (outs m) c r h).trans (by rw [V3_eq])

theorem hG1 (c : Dev nD) (w : Fin cfg1.W) : (pdats m 1 c).arrAt w cfg1.N = (fun b : Ref sig .tc => Gen.V4 m (outs m) c b) (Pipeline.arrRef spec1 w) := by
  match w with
  | ⟨0, _⟩ => exact (((dat1 (V3r m) c).arrAt_in 0 rfl _).trans (A_eq1 (V3r m) c 0)).trans (V4_of' m c main_v2 (by decide)).symm
  | ⟨1, _⟩ => exact (((dat1 (V3r m) c).arrAt_in 1 rfl _).trans (A_eq1 (V3r m) c 1)).trans (V4_of' m c main_v2 (by decide)).symm
  | ⟨2, _⟩ => exact (((dat1 (V3r m) c).arrAt_in 2 rfl _).trans (A_eq1 (V3r m) c 2)).trans (V4_of' m c main_v2 (by decide)).symm
  | ⟨3, _⟩ => exact (((dat1 (V3r m) c).arrAt_in 3 rfl _).trans (A_eq1 (V3r m) c 3)).trans (V4_of' m c main_arg0 (by decide)).symm
  | ⟨4, _⟩ => exact (((dat1 (V3r m) c).arrAt_in 4 rfl _).trans (A_eq1 (V3r m) c 4)).trans (V4_of' m c main_arg2 (by decide)).symm
  | ⟨5, _⟩ => exact (((dat1 (V3r m) c).arrAt_in 5 rfl _).trans (A_eq1 (V3r m) c 5)).trans (V4_of' m c main_v3 (by decide)).symm
  | ⟨6, _⟩ =>
    show X4 m c = Function.update (Gen.V3 m (outs m) c) (Proc.devRef .tc main_v4) (outs m 4 main_v4 c) (Proc.devRef .tc main_v4)
    rw [Function.update_self, outs_v4]
theorem hrest1 (c : Dev nD) : ∀ b, b ∉ Finset.univ.image (Pipeline.arrRef spec1) → (fun b : Ref sig .tc => Gen.V4 m (outs m) c b) b = V3r m c b :=
  fun b hb => V4_of' m c b (fun h => hb (by
    rw [List.mem_singleton] at h; subst h; exact Finset.mem_image.mpr ⟨6, Finset.mem_univ _, rfl⟩))

set_option backward.isDefEq.respectTransparency.types false in
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := entry1 (pdats m 1 c) (thirds1 (V3r m) c) (V3r m c) (A_eq1 (V3r m) c) (Gen.V3 m (outs m) c) (fun b => by rw [V3_eq])
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3r m) c)
    unfold Pipeline.ΦA
    iintro ⟨Hp, -, Hr⟩
    isplitl [Hr]; · iexact Hr
    iexact Hp
  hout c := by
    rw [Pipeline.ownSems0_none]
    refine (hout1 (V3r m) c).trans ?_
    unfold Pipeline.ΦA
    iintro ⟨Hr, Hp⟩
    isplitl [Hp]; · iexact Hp
    isplitr; · iempintro
    iexact Hr
  hexit c := by
    have hjoin := exit1 (pdats m 1 c) (thirds1 (V3r m) c) (V3r m c) (Gen.V4 m (outs m) c) ((pdats m 1 c).arrAt · cfg1.N) (hG1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- Every weakly fair execution of the program from any memory with zero counters terminates, nothing faulting, and every
    final memory holds the result array at what the attention region's write-backs leave and the four argument arrays as
    launched. -/
theorem run_all : θ_run defs (onTc (τ := τ) (main (F := F))) ⟨m, fun _ => 0, ρ⟩ (fun r => ∀ c : Dev nD,
      r.2.mem ((c.tc : Thread nD τ).loc main_v4) = X4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (outs_v4 m c), (h c).2⟩)
    (run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp))
          ⊢ (bigSep Finset.univ (fun c : Dev nD => R c) : sProp 𝕄) := bigSep_mono fun c _ =>
        (show (iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) : sProp 𝕄) ⊢ R c from by
          iintro ⟨-, HO, -, Hp, -⟩
          isplitl [Hp]; · iexists _; iexact Hp
          iexists ∅; iexact HO)
      iapply hmono
      iexact H)
    (hE2 := fun c => by iintro ⟨-, H⟩; iexact H)
    (R0 := reg0 m) (hpre0 := fun _ => .rfl) (hpost0 := fun _ => .rfl)
    (R1 := reg1 m) (hpre1 := fun _ => .rfl) (hpost1 := fun _ => .rfl))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ)

end Cert.KernelIdeal.Hand

end
-- ==== Proof.KernelIdeal.ProjValue.lean ====
/- THE VALUE OF REGION 0 at the ideal values: after the projection pallas_call the result array holds, index by
   index, the product of the [16384,512] array by the [512,1536] array as the region finds them. The body's payload at
   an index (the roundings are the identity on ideal values, the accumulator is the zero splat, so it is the sum over
   the contraction axis), each input block as rows of its array, what a point writes back as a block of the product,
   the cover (row `r` lies in the block of point `r / 512`), and the array after the last point. -/
import proofs.«103585_j80161269612898_2_alg».proof.Proof.KernelIdeal.ProjRegion
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl

/-- The left factor's index under the product's dimension numbers: row of the output, contraction index. -/
theorem proj_lhs_0 (i : S512x1536.Idx) (k : dot_S512x512_S512x1536_S512x1536_1_0_0_1_n_n.contr.Idx) :
    (dot_S512x512_S512x1536_S512x1536_1_0_0_1_n_n.lhsIdx i k 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem proj_lhs_1 (i : S512x1536.Idx) (k : dot_S512x512_S512x1536_S512x1536_1_0_0_1_n_n.contr.Idx) :
    (dot_S512x512_S512x1536_S512x1536_1_0_0_1_n_n.lhsIdx i k 1).val = (k ⟨0, by decide⟩).val :=
  dot_S512x512_S512x1536_S512x1536_1_0_0_1_n_n.lhsIdx_val_of_single rfl i k
/-- The right factor's: contraction index, column of the output. -/
theorem proj_rhs_0 (i : S512x1536.Idx) (k : dot_S512x512_S512x1536_S512x1536_1_0_0_1_n_n.contr.Idx) :
    (dot_S512x512_S512x1536_S512x1536_1_0_0_1_n_n.rhsIdx i k 0).val = (k ⟨0, by decide⟩).val :=
  dot_S512x512_S512x1536_S512x1536_1_0_0_1_n_n.rhsIdx_val_of_single rfl i k
theorem proj_rhs_1 (i : S512x1536.Idx) (k : dot_S512x512_S512x1536_S512x1536_1_0_0_1_n_n.contr.Idx) :
    (dot_S512x512_S512x1536_S512x1536_1_0_0_1_n_n.rhsIdx i k 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- THE STORED VALUE AT AN INDEX: the roundings are the identity on the ideal values and the accumulator is the zero
    splat, so entry (p, q) of the body's payload is the sum over the contraction axis of the loaded blocks' products. -/
theorem pay_apply (x0 : Vec Ideal S512x512 .f32) (x1 : Vec Ideal S512x1536 .f32) (p : Fin 512) (q : Fin 1536) :
    k0_pay1 x0 x1 (ix2 p q) = ∑ d : Fin 512, x0 (ix2 p d) * x1 (ix2 d q) := by
  unfold k0_pay1
  rw [truncf_apply]
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p q) ((contrEquiv1 dot_S512x512_S512x1536_S512x1536_1_0_0_1_n_n 512 rfl rfl).symm k) = ix2 p k := funext fun a => Fin.ext (by
    match a with
    | ⟨0, _⟩ => exact proj_lhs_0 _ _
    | ⟨1, _⟩ => exact (proj_lhs_1 _ _).trans hk)
  have er : dot_S512x512_S512x1536_S512x1536_1_0_0_1_n_n.rhsIdx (ix2 p q) ((contrEquiv1 dot_S512x512_S512x1536_S512x1536_1_0_0_1_n_n 512 rfl rfl).symm k) = ix2 k q := funext fun a => Fin.ext (by
    match a with
    | ⟨0, _⟩ => exact (proj_rhs_0 _ _).trans hk
    | ⟨1, _⟩ => exact proj_rhs_1 _ _)
  rw [truncf_apply, truncf_apply, shapeCast_self, el, er]

/-- The same at an index not yet split into its coordinates. -/
theorem pay_apply_idx (x0 : Vec Ideal S512x512 .f32) (x1 : Vec Ideal S512x1536 .f32) (y : S512x1536.Idx) :
    k0_pay1 x0 x1 y = ∑ d : Fin 512, x0 (ix2 (n0 := 512) (y 0) d) * x1 (ix2 (n1 := 1536) d (y 1)) :=
  (congrArg (k0_pay1 x0 x1) (eq_ix2 y)).trans (pay_apply x0 x1 (y 0) (y 1))

variable (V : (c : Dev nD) → (b : Ref sig .tc) → Buf (Elt Ideal) ((c : Thread nD τ).loc b))

/-! ## The product as one function of the two arrays -/

/-- Entry (r, j) of the product of the [16384,512] array by the [512,1536] array. -/
abbrev projG (a0 : S16384x512.Idx → Elt Ideal .f32) (a1 : S512x1536.Idx → Elt Ideal .f32) : S16384x1536.Idx → Elt Ideal .bf16 :=
  fun i => ∑ d : Fin 512, a0 (ix2 (n0 := 16384) (i 0) d) * a1 (ix2 (n1 := 1536) d (i 1))

/-! ## The blocks -/

/-- The printed index maps, decided over the grid: at point `t` the first factor's window and the result's are on
    row block `t`, the second factor's window on its one block. -/
theorem proj_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first factor's block at point `t` is rows `512 t … 512 t + 511` of its array. -/
theorem iblk0_0_apply (c : Dev nD) (t : Fin cfg0.N) (x : S512x512.Idx) (k : S16384x512.Idx)
    (hk0 : (k 0).val = 512 * t.val + (x 0).val) (hk1 : (k 1).val = (x 1).val) :
    (iblk0 V c 0 t : Vec Ideal S512x512 .f32) x = (V c main_v0 : S16384x512.Idx → Elt Ideal .f32) k := by
  obtain ⟨e0, e1, -⟩ := proj_idx t
  unfold iblk0
  rw [View.read_apply]
  show V c main_v0 _ = V c main_v0 _
  refine congrArg _ ?_
  funext a
  apply Fin.ext
  match a with
  | ⟨0, _⟩ => show win0_0.index t (0 : Fin 2) * 512 + 1 * (x 0).val = (k 0).val; rw [e0, hk0]; omega
  | ⟨1, _⟩ => show win0_0.index t (1 : Fin 2) * 512 + 1 * (x 1).val = (k 1).val; rw [e1, hk1]; omega

/-- The second factor's block at any point is its whole array. -/
theorem iblk0_1_apply (c : Dev nD) (t : Fin cfg0.N) (x : S512x1536.Idx) (k : S512x1536.Idx)
    (hk0 : (k 0).val = (x 0).val) (hk1 : (k 1).val = (x 1).val) :
    (iblk0 V c 1 t : Vec Ideal S512x1536 .f32) x = (V c main_arg1 : S512x1536.Idx → Elt Ideal .f32) k := by
  obtain ⟨-, -, e2, e3, -⟩ := proj_idx t
  unfold iblk0
  rw [View.read_apply]
  show V c main_arg1 _ = V c main_arg1 _
  refine congrArg _ ?_
  funext a
  apply Fin.ext
  match a with
  | ⟨0, _⟩ => show win0_1.index t (0 : Fin 2) * 512 + 1 * (x 0).val = (k 0).val; rw [e2, hk0]; omega
  | ⟨1, _⟩ => show win0_1.index t (1 : Fin 2) * 1536 + 1 * (x 1).val = (k 1).val; rw [e3, hk1]; omega

/-- WHAT POINT `t` WRITES BACK is block `t` of the product of the two arrays as the region finds them. -/
theorem proj_flushed (c : Dev nD) (t : Fin cfg0.N) :
    (dat0 V c).flushed 2 t = ((cfg0.win 2).blk t).view.read (Elt Ideal) (projG (V c main_v0) (V c main_arg1)) := by
  show (cfg0.win 2).cut (grid0.coords t) ((dat0 V c).after 2 t) = _
  rw [after0_2]
  unfold out0_2
  rw [View.canon_unit_zero hz2]
  simp only [View.ld_unit_zero (S := S512x512) hz2, View.ld_unit_zero (S := S512x1536) hz2]
  obtain ⟨-, -, -, -, e4, e5⟩ := proj_idx t
  funext y
  show k0_pay1 (iblk0 V c 0 t) (iblk0 V c 1 t) y = projG (V c main_v0) (V c main_arg1) (((cfg0.win 2).blk t).view.emb y)
  refine (pay_apply_idx _ _ y).trans ?_
  refine Finset.sum_congr rfl fun d _ => ?_
  have hy0 : (y 0).val < 512 := (y 0).isLt
  have hA := iblk0_0_apply V c t (ix2 (n0 := 512) (y 0) d) (ix2 (n0 := 16384) ((((cfg0.win 2).blk t).view.emb y) 0) d)
    (by show win0_2.index t (0 : Fin 2) * 512 + 1 * (y 0).val = 512 * t.val + (y 0).val; rw [e4]; omega) rfl
  have hB := iblk0_1_apply V c t (ix2 (n1 := 1536) d (y 1)) (ix2 (n1 := 1536) d ((((cfg0.win 2).blk t).view.emb y) 1))
    rfl (by show win0_2.index t (1 : Fin 2) * 1536 + 1 * (y 1).val = (y 1).val; rw [e5]; omega)
  rw [hA, hB]

/-- An index of the result array is in point `t`'s block iff each coordinate is in the block's range on its axis. -/
theorem proj_mem_blk (t : Fin cfg0.N) (i : S16384x1536.Idx) :
    i ∈ ((cfg0.win 2).blk t).view.set ↔ ∀ a : Fin 2, win0_2.index t a * S512x1536.size a ≤ (i a).val ∧ (i a).val < win0_2.index t a * S512x1536.size a + S512x1536.size a := by
  show i ∈ ((View.whole main_v1).slice (win0_2.rect t)).set ↔ _
  rw [View.set_slice_whole, Rect.mem_set_unit]
  exact Iff.rfl

/-- Every index of the result array is in some point's block: row `r` in that of point `r / 512`. -/
theorem proj_cover (i : S16384x1536.Idx) : ∃ t : Fin cfg0.N, (cfg0.win 2).flush t = true ∧ i ∈ ((cfg0.win 2).blk t).view.set := by
  have hi0 : (i 0).val < 16384 := (i 0).isLt
  have hi1 : (i 1).val < 1536 := (i 1).isLt
  have ht : (i 0).val / 512 < cfg0.N := by rw [show cfg0.N = 32 from N_0]; omega
  obtain ⟨-, -, -, -, e4, e5⟩ := proj_idx ⟨(i 0).val / 512, ht⟩
  refine ⟨⟨(i 0).val / 512, ht⟩, flush0_2 _, ?_⟩
  rw [proj_mem_blk]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1536 ≤ (i 1).val ∧ (i 1).val < win0_2.index ⟨(i 0).val / 512, ht⟩ (1 : Fin 2) * 1536 + 1536
    rw [e5]; omega

/-- THE RESULT ARRAY after the region is the product of the two arrays as the region finds them. -/
theorem proj_final (c : Dev nD) : (dat0 V c).arrAt 2 cfg0.N = projG (V c main_v0) (V c main_arg1) :=
  (dat0 V c).arrAt_eq_of_cover 2 (projG (V c main_v0) (V c main_arg1)) (fun t _ => proj_flushed V c t) proj_cover

/-- `projG` at an index given by its coordinates. -/
theorem projG_apply (a0 : S16384x512.Idx → Elt Ideal .f32) (a1 : S512x1536.Idx → Elt Ideal .f32) (r : Fin 16384) (j : Fin 1536) :
    projG a0 a1 (ix2 r j) = ∑ d : Fin 512, a0 (ix2 r d) * a1 (ix2 d j) := rfl

/-- Index by index: entry (r, j) of the result array is row `r` of the first array against column `j` of the second. -/
theorem proj_arrAt (c : Dev nD) (r : Fin 16384) (j : Fin 1536) :
    ((dat0 (F := Ideal) V c).arrAt 2 cfg0.N : S16384x1536.Idx → Elt Ideal .bf16) (ix2 r j)
      = projG (V c main_v0) (V c main_arg1) (ix2 r j) :=
  congrFun (proj_final V c) (ix2 r j)

/-- The same with the two arrays named: whatever the proof knows them to be (`h0`, `h1`), the entry is the sum of
    their products over the contraction axis. -/
theorem proj_arrAt_of (c : Dev nD) (a0 : S16384x512.Idx → Elt Ideal .f32) (a1 : S512x1536.Idx → Elt Ideal .f32)
    (h0 : V c main_v0 = a0) (h1 : V c main_arg1 = a1) (r : Fin 16384) (j : Fin 1536) :
    ((dat0 (F := Ideal) V c).arrAt 2 cfg0.N : S16384x1536.Idx → Elt Ideal .bf16) (ix2 r j)
      = ∑ d : Fin 512, a0 (ix2 r d) * a1 (ix2 d j) := by
  subst h0 h1
  exact proj_arrAt V c r j

end Cert.KernelIdeal.Hand

end
-- ==== Proof.KernelIdeal.AttnBlocks.lean ====
/- The attention pallas_call's windows read at an index: at grid point `t` — batch `t / 8`, query block `t / 2 % 4`,
   key block `t % 2` — the query block is 512 rows of columns 0 … 511 of the [8,2048,1536] array, the key and value
   blocks 1024 rows of columns 512 … 1023 and 1024 … 1535, the residual block 512 rows of the [8,2048,512] array,
   and the two small windows their whole arrays. The printed index maps are decided once over the 64 points. -/
import proofs.«103585_j80161269612898_2_alg».proof.Proof.KernelIdeal.AttnRuns
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The index maps over the grid -/

/-- The grid has 64 points. -/
theorem N1_eq : cfg1.N = 64 := N_1

/-- The query window is on batch `t / 8`, query block `t / 2 % 4`, column block 0. -/
theorem idx1_0 : ∀ t : Fin cfg1.N, win1_0.index t (0 : Fin 3) = t.val / 8 ∧ win1_0.index t (1 : Fin 3) = t.val / 2 % 4 ∧ win1_0.index t (2 : Fin 3) = 0 :=
  (by decide +kernel : ∀ t : Fin grid1.N, _)
/-- The key window is on batch `t / 8`, key block `t % 2`, column block 1. -/
theorem idx1_1 : ∀ t : Fin cfg1.N, win1_1.index t (0 : Fin 3) = t.val / 8 ∧ win1_1.index t (1 : Fin 3) = t.val % 2 ∧ win1_1.index t (2 : Fin 3) = 1 :=
  (by decide +kernel : ∀ t : Fin grid1.N, _)
/-- The value window is on batch `t / 8`, key block `t % 2`, column block 2. -/
theorem idx1_2 : ∀ t : Fin cfg1.N, win1_2.index t (0 : Fin 3) = t.val / 8 ∧ win1_2.index t (1 : Fin 3) = t.val % 2 ∧ win1_2.index t (2 : Fin 3) = 2 :=
  (by decide +kernel : ∀ t : Fin grid1.N, _)
/-- The residual window is on batch `t / 8`, query block `t / 2 % 4`. -/
theorem idx1_3 : ∀ t : Fin cfg1.N, win1_3.index t (0 : Fin 3) = t.val / 8 ∧ win1_3.index t (1 : Fin 3) = t.val / 2 % 4 ∧ win1_3.index t (2 : Fin 3) = 0 :=
  (by decide +kernel : ∀ t : Fin grid1.N, _)
/-- The output-projection window is on its one block. -/
theorem idx1_4 : ∀ t : Fin cfg1.N, win1_4.index t (0 : Fin 2) = 0 ∧ win1_4.index t (1 : Fin 2) = 0 :=
  (by decide +kernel : ∀ t : Fin grid1.N, _)
/-- The bias window is on its one block. -/
theorem idx1_5 : ∀ t : Fin cfg1.N, win1_5.index t (0 : Fin 2) = 0 ∧ win1_5.index t (1 : Fin 2) = 0 :=
  (by decide +kernel : ∀ t : Fin grid1.N, _)
/-- The result window is on batch `t / 8`, query block `t / 2 % 4`. -/
theorem idx1_6 : ∀ t : Fin cfg1.N, win1_6.index t (0 : Fin 3) = t.val / 8 ∧ win1_6.index t (1 : Fin 3) = t.val / 2 % 4 ∧ win1_6.index t (2 : Fin 3) = 0 :=
  (by decide +kernel : ∀ t : Fin grid1.N, _)

variable (V : (c : Dev nD) → (b : Ref sig .tc) → Buf (Elt F) ((c : Thread nD τ).loc b))

/-! ## Each block read at an index of its array, the index given by its coordinates -/

/-- The query block at point `t`: element `x` is the array's at batch `t / 8`, row `512 (t / 2 % 4) + x 1`, column `x 2`. -/
theorem iblk1_0_apply (c : Dev nD) (t : Fin cfg1.N) (x : S1x512x512.Idx) (k : S8x2048x1536.Idx)
    (hk0 : (k 0).val = t.val / 8) (hk1 : (k 1).val = 512 * (t.val / 2 % 4) + (x 1).val) (hk2 : (k 2).val = (x 2).val) :
    (iblk1 V c 0 t : Vec F S1x512x512 .bf16) x = (V c main_v2 : S8x2048x1536.Idx → Elt F .bf16) k := by
  obtain ⟨e0, e1, e2⟩ := idx1_0 t
  have hx0 : (x 0).val < 1 := (x 0).isLt
  unfold iblk1
  rw [View.read_apply]
  show V c main_v2 _ = V c main_v2 _
  refine congrArg _ ?_
  funext a
  apply Fin.ext
  match a with
  | ⟨0, _⟩ => show win1_0.index t (0 : Fin 3) * 1 + 1 * (x 0).val = (k 0).val; rw [e0, hk0]; omega
  | ⟨1, _⟩ => show win1_0.index t (1 : Fin 3) * 512 + 1 * (x 1).val = (k 1).val; rw [e1, hk1]; omega
  | ⟨2, _⟩ => show win1_0.index t (2 : Fin 3) * 512 + 1 * (x 2).val = (k 2).val; rw [e2, hk2]; omega

/-- The key block at point `t`: element `x` is the array's at batch `t / 8`, row `1024 (t % 2) + x 1`, column `512 + x 2`. -/
theorem iblk1_1_apply (c : Dev nD) (t : Fin cfg1.N) (x : S1x1024x512.Idx) (k : S8x2048x1536.Idx)
    (hk0 : (k 0).val = t.val / 8) (hk1 : (k 1).val = 1024 * (t.val % 2) + (x 1).val) (hk2 : (k 2).val = 512 + (x 2).val) :
    (iblk1 V c 1 t : Vec F S1x1024x512 .bf16) x = (V c main_v2 : S8x2048x1536.Idx → Elt F .bf16) k := by
  obtain ⟨e0, e1, e2⟩ := idx1_1 t
  have hx0 : (x 0).val < 1 := (x 0).isLt
  unfold iblk1
  rw [View.read_apply]
  show V c main_v2 _ = V c main_v2 _
  refine congrArg _ ?_
  funext a
  apply Fin.ext
  match a with
  | ⟨0, _⟩ => show win1_1.index t (0 : Fin 3) * 1 + 1 * (x 0).val = (k 0).val; rw [e0, hk0]; omega
  | ⟨1, _⟩ => show win1_1.index t (1 : Fin 3) * 1024 + 1 * (x 1).val = (k 1).val; rw [e1, hk1]; omega
  | ⟨2, _⟩ => show win1_1.index t (2 : Fin 3) * 512 + 1 * (x 2).val = (k 2).val; rw [e2, hk2]; omega

/-- The value block at point `t`: element `x` is the array's at batch `t / 8`, row `1024 (t % 2) + x 1`, column `1024 + x 2`. -/
theorem iblk1_2_apply (c : Dev nD) (t : Fin cfg1.N) (x : S1x1024x512.Idx) (k : S8x2048x1536.Idx)
    (hk0 : (k 0).val = t.val / 8) (hk1 : (k 1).val = 1024 * (t.val % 2) + (x 1).val) (hk2 : (k 2).val = 1024 + (x 2).val) :
    (iblk1 V c 2 t : Vec F S1x1024x512 .bf16) x = (V c main_v2 : S8x2048x1536.Idx → Elt F .bf16) k := by
  obtain ⟨e0, e1, e2⟩ := idx1_2 t
  have hx0 : (x 0).val < 1 := (x 0).isLt
  unfold iblk1
  rw [View.read_apply]
  show V c main_v2 _ = V c main_v2 _
  refine congrArg _ ?_
  funext a
  apply Fin.ext
  match a with
  | ⟨0, _⟩ => show win1_2.index t (0 : Fin 3) * 1 + 1 * (x 0).val = (k 0).val; rw [e0, hk0]; omega
  | ⟨1, _⟩ => show win1_2.index t (1 : Fin 3) * 1024 + 1 * (x 1).val = (k 1).val; rw [e1, hk1]; omega
  | ⟨2, _⟩ => show win1_2.index t (2 : Fin 3) * 512 + 1 * (x 2).val = (k 2).val; rw [e2, hk2]; omega

/-- The residual block at point `t`: element `x` is the array's at batch `t / 8`, row `512 (t / 2 % 4) + x 1`, column `x 2`. -/
theorem iblk1_3_apply (c : Dev nD) (t : Fin cfg1.N) (x : S1x512x512.Idx) (k : S8x2048x512.Idx)
    (hk0 : (k 0).val = t.val / 8) (hk1 : (k 1).val = 512 * (t.val / 2 % 4) + (x 1).val) (hk2 : (k 2).val = (x 2).val) :
    (iblk1 V c 3 t : Vec F S1x512x512 .f32) x = (V c main_arg0 : S8x2048x512.Idx → Elt F .f32) k := by
  obtain ⟨e0, e1, e2⟩ := idx1_3 t
  have hx0 : (x 0).val < 1 := (x 0).isLt
  unfold iblk1
  rw [View.read_apply]
  show V c main_arg0 _ = V c main_arg0 _
  refine congrArg _ ?_
  funext a
  apply Fin.ext
  match a with
  | ⟨0, _⟩ => show win1_3.index t (0 : Fin 3) * 1 + 1 * (x 0).val = (k 0).val; rw [e0, hk0]; omega
  | ⟨1, _⟩ => show win1_3.index t (1 : Fin 3) * 512 + 1 * (x 1).val = (k 1).val; rw [e1, hk1]; omega
  | ⟨2, _⟩ => show win1_3.index t (2 : Fin 3) * 512 + 1 * (x 2).val = (k 2).val; rw [e2, hk2]; omega

/-- The output-projection window's block at any point is its whole array. -/
theorem iblk1_4_apply (c : Dev nD) (t : Fin cfg1.N) (x : S512x512.Idx) (k : S512x512.Idx)
    (hk0 : (k 0).val = (x 0).val) (hk1 : (k 1).val = (x 1).val) :
    (iblk1 V c 4 t : Vec F S512x512 .f32) x = (V c main_arg2 : S512x512.Idx → Elt F .f32) k := by
  obtain ⟨e0, e1⟩ := idx1_4 t
  unfold iblk1
  rw [View.read_apply]
  show V c main_arg2 _ = V c main_arg2 _
  refine congrArg _ ?_
  funext a
  apply Fin.ext
  match a with
  | ⟨0, _⟩ => show win1_4.index t (0 : Fin 2) * 512 + 1 * (x 0).val = (k 0).val; rw [e0, hk0]; omega
  | ⟨1, _⟩ => show win1_4.index t (1 : Fin 2) * 512 + 1 * (x 1).val = (k 1).val; rw [e1, hk1]; omega

/-- The bias window's block at any point is its whole array. -/
theorem iblk1_5_apply (c : Dev nD) (t : Fin cfg1.N) (x : S1x512.Idx) (k : S1x512.Idx)
    (hk0 : (k 0).val = (x 0).val) (hk1 : (k 1).val = (x 1).val) :
    (iblk1 V c 5 t : Vec F S1x512 .f32) x = (V c main_v3 : S1x512.Idx → Elt F .f32) k := by
  obtain ⟨e0, e1⟩ := idx1_5 t
  unfold iblk1
  rw [View.read_apply]
  show V c main_v3 _ = V c main_v3 _
  refine congrArg _ ?_
  funext a
  apply Fin.ext
  match a with
  | ⟨0, _⟩ => show win1_5.index t (0 : Fin 2) * 1 + 1 * (x 0).val = (k 0).val; rw [e0, hk0]; omega
  | ⟨1, _⟩ => show win1_5.index t (1 : Fin 2) * 512 + 1 * (x 1).val = (k 1).val; rw [e1, hk1]; omega

/-! ## The same with every coordinate explicit -/

/-- A point's number is below 64. -/
theorem point_lt (t : Fin cfg1.N) : t.val < 64 := by
  have h : t.val < cfg1.N := t.isLt
  have e : cfg1.N = 64 := N_1
  omega

/-- The batch of point `t`. -/
abbrev batchOf (t : Fin cfg1.N) : Fin 8 := ⟨t.val / 8, by have := point_lt t; omega⟩
/-- Row `r` of point `t`'s query block, as a row of the sequence. -/
abbrev qRow (t : Fin cfg1.N) (r : Fin 512) : Fin 2048 := ⟨512 * (t.val / 2 % 4) + r.val, by have := r.isLt; omega⟩
/-- Row `j` of point `t`'s key block, as a row of the sequence. -/
abbrev kRow (t : Fin cfg1.N) (j : Fin 1024) : Fin 2048 := ⟨1024 * (t.val % 2) + j.val, by have := j.isLt; omega⟩
/-- Column `d` of the query, key and value thirds of the projected array. -/
abbrev qCol (d : Fin 512) : Fin 1536 := ⟨d.val, by have := d.isLt; omega⟩
abbrev kCol (d : Fin 512) : Fin 1536 := ⟨512 + d.val, by have := d.isLt; omega⟩
abbrev vCol (d : Fin 512) : Fin 1536 := ⟨1024 + d.val, by have := d.isLt; omega⟩

/-- The query block, with the batch and the row NAMED: whatever the proof knows them to be. -/
theorem iblk1_q_at (c : Dev nD) (t : Fin cfg1.N) (r d : Fin 512) (b : Fin 8) (row : Fin 2048)
    (hb : b.val = t.val / 8) (hrow : row.val = 512 * (t.val / 2 % 4) + r.val) :
    (iblk1 V c 0 t : Vec F S1x512x512 .bf16) (ix3 (0 : Fin 1) r d)
      = (V c main_v2 : S8x2048x1536.Idx → Elt F .bf16) (ix3 b row (qCol d)) :=
  iblk1_0_apply V c t _ _ hb hrow rfl
theorem iblk1_q (c : Dev nD) (t : Fin cfg1.N) (r d : Fin 512) :
    (iblk1 V c 0 t : Vec F S1x512x512 .bf16) (ix3 (0 : Fin 1) r d)
      = (V c main_v2 : S8x2048x1536.Idx → Elt F .bf16) (ix3 (batchOf t) (qRow t r) (qCol d)) :=
  iblk1_q_at V c t r d _ _ rfl rfl

/-- The key block, with the batch and the row NAMED: at an even point the row is `j`, at an odd one `1024 + j`. -/
theorem iblk1_k_at (c : Dev nD) (t : Fin cfg1.N) (j : Fin 1024) (d : Fin 512) (b : Fin 8) (row : Fin 2048)
    (hb : b.val = t.val / 8) (hrow : row.val = 1024 * (t.val % 2) + j.val) :
    (iblk1 V c 1 t : Vec F S1x1024x512 .bf16) (ix3 (0 : Fin 1) j d)
      = (V c main_v2 : S8x2048x1536.Idx → Elt F .bf16) (ix3 b row (kCol d)) :=
  iblk1_1_apply V c t _ _ hb hrow rfl
theorem iblk1_k (c : Dev nD) (t : Fin cfg1.N) (j : Fin 1024) (d : Fin 512) :
    (iblk1 V c 1 t : Vec F S1x1024x512 .bf16) (ix3 (0 : Fin 1) j d)
      = (V c main_v2 : S8x2048x1536.Idx → Elt F .bf16) (ix3 (batchOf t) (kRow t j) (kCol d)) :=
  iblk1_k_at V c t j d _ _ rfl rfl

/-- The value block likewise. -/
theorem iblk1_v_at (c : Dev nD) (t : Fin cfg1.N) (j : Fin 1024) (d : Fin 512) (b : Fin 8) (row : Fin 2048)
    (hb : b.val = t.val / 8) (hrow : row.val = 1024 * (t.val % 2) + j.val) :
    (iblk1 V c 2 t : Vec F S1x1024x512 .bf16) (ix3 (0 : Fin 1) j d)
      = (V c main_v2 : S8x2048x1536.Idx → Elt F .bf16) (ix3 b row (vCol d)) :=
  iblk1_2_apply V c t _ _ hb hrow rfl
theorem iblk1_v (c : Dev nD) (t : Fin cfg1.N) (j : Fin 1024) (d : Fin 512) :
    (iblk1 V c 2 t : Vec F S1x1024x512 .bf16) (ix3 (0 : Fin 1) j d)
      = (V c main_v2 : S8x2048x1536.Idx → Elt F .bf16) (ix3 (batchOf t) (kRow t j) (vCol d)) :=
  iblk1_v_at V c t j d _ _ rfl rfl

/-- The residual block, with the batch and the row NAMED. -/
theorem iblk1_x_at (c : Dev nD) (t : Fin cfg1.N) (r d : Fin 512) (b : Fin 8) (row : Fin 2048)
    (hb : b.val = t.val / 8) (hrow : row.val = 512 * (t.val / 2 % 4) + r.val) :
    (iblk1 V c 3 t : Vec F S1x512x512 .f32) (ix3 (0 : Fin 1) r d)
      = (V c main_arg0 : S8x2048x512.Idx → Elt F .f32) (ix3 b row d) :=
  iblk1_3_apply V c t _ _ hb hrow rfl
theorem iblk1_x (c : Dev nD) (t : Fin cfg1.N) (r d : Fin 512) :
    (iblk1 V c 3 t : Vec F S1x512x512 .f32) (ix3 (0 : Fin 1) r d)
      = (V c main_arg0 : S8x2048x512.Idx → Elt F .f32) (ix3 (batchOf t) (qRow t r) d) :=
  iblk1_x_at V c t r d _ _ rfl rfl

/-- The output-projection matrix and the bias row, whole at every point. -/
theorem iblk1_w (c : Dev nD) (t : Fin cfg1.N) (d e : Fin 512) :
    (iblk1 V c 4 t : Vec F S512x512 .f32) (ix2 d e) = (V c main_arg2 : S512x512.Idx → Elt F .f32) (ix2 d e) :=
  iblk1_4_apply V c t _ _ rfl rfl
theorem iblk1_bias (c : Dev nD) (t : Fin cfg1.N) (e : Fin 512) :
    (iblk1 V c 5 t : Vec F S1x512 .f32) (ix2 (0 : Fin 1) e) = (V c main_v3 : S1x512.Idx → Elt F .f32) (ix2 (0 : Fin 1) e) :=
  iblk1_5_apply V c t _ _ rfl rfl

/-! ## An odd point and the even point before it: one batch and one query block, the two key blocks -/

/-- Row `j` of the sequence's first and of its second key block. -/
abbrev keyRowLo (j : Fin 1024) : Fin 2048 := ⟨j.val, Nat.lt_of_lt_of_le j.isLt (by decide)⟩
abbrev keyRowHi (j : Fin 1024) : Fin 2048 := ⟨1024 + j.val, Nat.add_lt_add_left j.isLt 1024⟩

/-- The pair's batch and row `r` of its query block, in terms of the odd point's number. -/
abbrev pairBatch (n : ℕ) (hn : n < cfg1.N) : Fin 8 := batchOf ⟨n, hn⟩
abbrev pairQRow (n : ℕ) (hn : n < cfg1.N) (r : Fin 512) : Fin 2048 := qRow ⟨n, hn⟩ r

/-- The even point before an odd point `n` has `n`'s query and residual blocks -/
theorem iblk1_q_prev (c : Dev nD) (n : ℕ) (hn : n < cfg1.N) (h1 : n % 2 = 1) (r d : Fin 512) :
    (iblk1 V c 0 ⟨n - 1, by omega⟩ : Vec F S1x512x512 .bf16) (ix3 (0 : Fin 1) r d)
      = (V c main_v2 : S8x2048x1536.Idx → Elt F .bf16) (ix3 (pairBatch n hn) (pairQRow n hn r) (qCol d)) :=
  iblk1_q_at V c _ r d _ _ (by show n / 8 = (n - 1) / 8; omega) (by show 512 * (n / 2 % 4) + r.val = 512 * ((n - 1) / 2 % 4) + r.val; omega)
theorem iblk1_x_prev (c : Dev nD) (n : ℕ) (hn : n < cfg1.N) (h1 : n % 2 = 1) (r d : Fin 512) :
    (iblk1 V c 3 ⟨n - 1, by omega⟩ : Vec F S1x512x512 .f32) (ix3 (0 : Fin 1) r d)
      = (V c main_arg0 : S8x2048x512.Idx → Elt F .f32) (ix3 (pairBatch n hn) (pairQRow n hn r) d) :=
  iblk1_x_at V c _ r d _ _ (by show n / 8 = (n - 1) / 8; omega) (by show 512 * (n / 2 % 4) + r.val = 512 * ((n - 1) / 2 % 4) + r.val; omega)
/-- and the sequence's FIRST 1024 key and value rows; -/
theorem iblk1_k_prev (c : Dev nD) (n : ℕ) (hn : n < cfg1.N) (h1 : n % 2 = 1) (j : Fin 1024) (d : Fin 512) :
    (iblk1 V c 1 ⟨n - 1, by omega⟩ : Vec F S1x1024x512 .bf16) (ix3 (0 : Fin 1) j d)
      = (V c main_v2 : S8x2048x1536.Idx → Elt F .bf16) (ix3 (pairBatch n hn) (keyRowLo j) (kCol d)) :=
  iblk1_k_at V c _ j d _ _ (by show n / 8 = (n - 1) / 8; omega) (by show j.val = 1024 * ((n - 1) % 2) + j.val; omega)
theorem iblk1_v_prev (c : Dev nD) (n : ℕ) (hn : n < cfg1.N) (h1 : n % 2 = 1) (j : Fin 1024) (d : Fin 512) :
    (iblk1 V c 2 ⟨n - 1, by omega⟩ : Vec F S1x1024x512 .bf16) (ix3 (0 : Fin 1) j d)
      = (V c main_v2 : S8x2048x1536.Idx → Elt F .bf16) (ix3 (pairBatch n hn) (keyRowLo j) (vCol d)) :=
  iblk1_v_at V c _ j d _ _ (by show n / 8 = (n - 1) / 8; omega) (by show j.val = 1024 * ((n - 1) % 2) + j.val; omega)
/-- the odd point itself has the SECOND 1024. -/
theorem iblk1_k_odd (c : Dev nD) (n : ℕ) (hn : n < cfg1.N) (h1 : n % 2 = 1) (j : Fin 1024) (d : Fin 512) :
    (iblk1 V c 1 ⟨n, hn⟩ : Vec F S1x1024x512 .bf16) (ix3 (0 : Fin 1) j d)
      = (V c main_v2 : S8x2048x1536.Idx → Elt F .bf16) (ix3 (pairBatch n hn) (keyRowHi j) (kCol d)) :=
  iblk1_k_at V c _ j d _ _ rfl (by show 1024 + j.val = 1024 * (n % 2) + j.val; omega)
theorem iblk1_v_odd (c : Dev nD) (n : ℕ) (hn : n < cfg1.N) (h1 : n % 2 = 1) (j : Fin 1024) (d : Fin 512) :
    (iblk1 V c 2 ⟨n, hn⟩ : Vec F S1x1024x512 .bf16) (ix3 (0 : Fin 1) j d)
      = (V c main_v2 : S8x2048x1536.Idx → Elt F .bf16) (ix3 (pairBatch n hn) (keyRowHi j) (vCol d)) :=
  iblk1_v_at V c _ j d _ _ rfl (by show 1024 + j.val = 1024 * (n % 2) + j.val; omega)

/-- An even point has the sequence's first 1024 key and value rows. -/
theorem iblk1_k_even (c : Dev nD) (n : ℕ) (hn : n < cfg1.N) (h0 : n % 2 = 0) (j : Fin 1024) (d : Fin 512) :
    (iblk1 V c 1 ⟨n, hn⟩ : Vec F S1x1024x512 .bf16) (ix3 (0 : Fin 1) j d)
      = (V c main_v2 : S8x2048x1536.Idx → Elt F .bf16) (ix3 (batchOf ⟨n, hn⟩) (keyRowLo j) (kCol d)) :=
  iblk1_k_at V c _ j d _ _ rfl (by show j.val = 1024 * (n % 2) + j.val; omega)
theorem iblk1_v_even (c : Dev nD) (n : ℕ) (hn : n < cfg1.N) (h0 : n % 2 = 0) (j : Fin 1024) (d : Fin 512) :
    (iblk1 V c 2 ⟨n, hn⟩ : Vec F S1x1024x512 .bf16) (ix3 (0 : Fin 1) j d)
      = (V c main_v2 : S8x2048x1536.Idx → Elt F .bf16) (ix3 (batchOf ⟨n, hn⟩) (keyRowLo j) (vCol d)) :=
  iblk1_v_at V c _ j d _ _ rfl (by show j.val = 1024 * (n % 2) + j.val; omega)

end Cert.KernelIdeal.Hand

end
-- ==== Proof.KernelIdeal.HostReshapes.lean ====
/- The host reshapes between the two pallas_calls, read at an index, for any contents of the buffers: a reshape keeps
   the row-major position, so row `2048 b + n` of the flat array is row `n` of batch `b`, and the bias vector is the
   one row of its [1,512] form; the stretches write nothing else. -/
import proofs.«103585_j80161269612898_2_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.ValueIdx

variable {F : FTy → Type} [FloatOps F]
variable (W : Valuation τ sig (Elt F))

/-- Row `n` of batch `b`, as a row of the flat [16384, ·] arrays. -/
abbrev flatRow (b : Fin 8) (n : Fin 2048) : Fin 16384 := ⟨2048 * b.val + n.val, by have := b.isLt; have := n.isLt; omega⟩

/-! ## Before the projection: the input flattened -/

/-- The first stretch writes the flattened input as the reshape of the input. -/
theorem after0_main_v0_eq : (StableHlo.after hostOps0 W main_v0 : S16384x512.Idx → Elt F .f32)
    = shapeCast S16384x512 (W main_arg0 : S8x2048x512.Idx → Elt F .f32) shapeCasts_S8x2048x512_S16384x512 := by
  after_results
  rfl

/-- Row `2048 b + n` of the flattened input is row `n` of batch `b` of the input. -/
theorem after0_main_v0_apply (b : Fin 8) (n : Fin 2048) (d : Fin 512) :
    (StableHlo.after hostOps0 W main_v0 : S16384x512.Idx → Elt F .f32) (ix2 (flatRow b n) d)
      = (W main_arg0 : S8x2048x512.Idx → Elt F .f32) (ix3 b n d) := by
  rw [after0_main_v0_eq]
  refine shapeCast_apply _ _ _ _ ?_
  show (S8x2048x512.rowMajor (ix3 b n d)).val = (S16384x512.rowMajor (ix2 (flatRow b n) d)).val
  rw [Shape.rowMajor_val_three, Shape.rowMajor_val_two]
  show (b.val * 2048 + n.val) * 512 + d.val = (2048 * b.val + n.val) * 512 + d.val
  omega

/-- It leaves the projection's weight alone. -/
theorem after0_main_arg1 : StableHlo.after hostOps0 W main_arg1 = W main_arg1 := by
  after_results

/-! ## Between the two pallas_calls: the projection's result unflattened, the bias as a row -/

theorem after1_main_v2_eq : (StableHlo.after hostOps1 W main_v2 : S8x2048x1536.Idx → Elt F .bf16)
    = shapeCast S8x2048x1536 (W main_v1 : S16384x1536.Idx → Elt F .bf16) shapeCasts_S16384x1536_S8x2048x1536 := by
  after_results
  rfl

/-- Row `n` of batch `b` of the unflattened projection is row `2048 b + n` of the projection. -/
theorem after1_main_v2_apply (b : Fin 8) (n : Fin 2048) (j : Fin 1536) :
    (StableHlo.after hostOps1 W main_v2 : S8x2048x1536.Idx → Elt F .bf16) (ix3 b n j)
      = (W main_v1 : S16384x1536.Idx → Elt F .bf16) (ix2 (flatRow b n) j) := by
  rw [after1_main_v2_eq]
  refine shapeCast_apply _ _ _ _ ?_
  show (S16384x1536.rowMajor (ix2 (flatRow b n) j)).val = (S8x2048x1536.rowMajor (ix3 b n j)).val
  rw [Shape.rowMajor_val_three, Shape.rowMajor_val_two]
  show (2048 * b.val + n.val) * 1536 + j.val = (b.val * 2048 + n.val) * 1536 + j.val
  omega

theorem after1_main_v3_eq : (StableHlo.after hostOps1 W main_v3 : S1x512.Idx → Elt F .f32)
    = shapeCast S1x512 (W main_arg3 : S512.Idx → Elt F .f32) shapeCasts_S512_S1x512 := by
  after_results
  rfl

/-- The one row of the bias's [1,512] form is the bias vector. -/
theorem after1_main_v3_apply (e : Fin 512) :
    (StableHlo.after hostOps1 W main_v3 : S1x512.Idx → Elt F .f32) (ix2 (0 : Fin 1) e)
      = (W main_arg3 : S512.Idx → Elt F .f32) (ix1 e) := by
  rw [after1_main_v3_eq]
  refine shapeCast_apply _ _ _ _ ?_
  show (S512.rowMajor (ix1 e)).val = (S1x512.rowMajor (ix2 (0 : Fin 1) e)).val
  rw [Shape.rowMajor_val_one, Shape.rowMajor_val_two]
  show e.val = 0 * 512 + e.val
  omega

/-- The second stretch leaves the input, the output-projection matrix and the projection itself alone. -/
theorem after1_main_arg0 : StableHlo.after hostOps1 W main_arg0 = W main_arg0 := by
  after_results
theorem after1_main_arg2 : StableHlo.after hostOps1 W main_arg2 = W main_arg2 := by
  after_results
theorem after1_main_v1 : StableHlo.after hostOps1 W main_v1 = W main_v1 := by
  after_results

end Cert.KernelIdeal.Hand

end
-- ==== Proof.KernelIdeal.AttnPieces.lean ====
/-
  What the attention kernel's body leaves in its buffers at one grid point, as the body's pure terms. At a point
  with key-block coordinate 0 the three scratch buffers are first set to −∞, 0 and 0 and then hold the running
  maximum, denominator and accumulator of the first key block: each is ONE store over the whole buffer, whose value
  reads the reset values back. At a point with key-block coordinate 1 the output buffer holds the projection of the
  accumulator and denominator just stored, which were computed from the scratch as the point before left it. A
  load of a whole buffer after one whole store into it reads the stored value; a load of an untouched buffer reads
  its contents.
-/
import proofs.«103585_j80161269612898_2_alg».proof.Proof.KernelIdeal.AttnFrame
import Idealize.ShloMosaic.Lib.Pipeline.Value

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
theorem offs2_zero : (![0, 0] : Fin 2 → Nat) = fun _ => 0 := funext fun a => by fin_cases a <;> rfl
/-- The zero offsets of a rank-3 rectangle, as the constant function. -/
theorem offs3_zero : (![0, 0, 0] : Fin 3 → Nat) = fun _ => 0 := funext fun a => by fin_cases a <;> rfl

/-! ## Key-block coordinate 0: the scratch after the reset and the first key block -/

set_option maxHeartbeats 1000000 in
/-- The running maximum left at key block 0: the row maximum of the scores against the reset value −∞. -/
theorem pieceA0 (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : cond1_0 i) (hc1 : ¬cond1_1 i) (x0 : Vec F S1x512x512 .bf16) (x1 : Vec F S1x1024x512 .bf16) (x2 : Vec F S1x1024x512 .bf16) (x3 : Vec F S1x512x512 .f32) (x4 : Vec F S512x512 .f32) (x5 : Vec F S1x512 .f32) :
    View.canon (kernelRun1_A (F := F) c i arg3 harg3 arg4 harg4 arg5 harg5 arg6 harg6 arg7 harg7 arg8 harg8 arg9 harg9 arg10 harg10 arg11 harg11 arg12 harg12 hc0 hc1 x0 x1 x2 x3 x4 x5).1 = k1_pay2 (k1_pay8 x0 x1 k1_pay4) := by
  unfold kernelRun1_A
  dsimp only
  rw [View.canon_cons_unit_zero (S := S512x1) offs2_zero]
  sl_unfold_words
  simp only [View.readCov_unit_zero (S := S512x1) (h := offs2_zero), View.readCov_unit_zero (S := S512x512) (h := offs2_zero),
    View.readAt_eq_ld, harg3.read_unread, harg4.read_unread, harg5.read_unread,
    View.ld_unit_zero (S := S1x512x512) offs3_zero, View.ld_unit_zero (S := S1x1024x512) offs3_zero]

set_option maxHeartbeats 1000000 in
/-- The running denominator left at key block 0: the reset value 0 rescaled, plus the row sums of the weights. -/
theorem pieceA1 (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : cond1_0 i) (hc1 : ¬cond1_1 i) (x0 : Vec F S1x512x512 .bf16) (x1 : Vec F S1x1024x512 .bf16) (x2 : Vec F S1x1024x512 .bf16) (x3 : Vec F S1x512x512 .f32) (x4 : Vec F S512x512 .f32) (x5 : Vec F S1x512 .f32) :
    View.canon (kernelRun1_A (F := F) c i arg3 harg3 arg4 harg4 arg5 harg5 arg6 harg6 arg7 harg7 arg8 harg8 arg9 harg9 arg10 harg10 arg11 harg11 arg12 harg12 hc0 hc1 x0 x1 x2 x3 x4 x5).2.1 = k1_pay11 x0 x1 k1_pay4 k1_pay4 k1_pay5 := by
  unfold kernelRun1_A
  dsimp only
  rw [View.canon_cons_unit_zero (S := S512x1) offs2_zero]
  sl_unfold_words
  simp only [View.readCov_unit_zero (S := S512x1) (h := offs2_zero), View.readCov_unit_zero (S := S512x512) (h := offs2_zero),
    View.readAt_eq_ld, harg3.read_unread, harg4.read_unread, harg5.read_unread,
    View.ld_unit_zero (S := S1x512x512) offs3_zero, View.ld_unit_zero (S := S1x1024x512) offs3_zero]

set_option maxHeartbeats 1000000 in
/-- The running accumulator left at key block 0: the reset value 0 rescaled, plus the weights times the values. -/
theorem pieceA2 (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : cond1_0 i) (hc1 : ¬cond1_1 i) (x0 : Vec F S1x512x512 .bf16) (x1 : Vec F S1x1024x512 .bf16) (x2 : Vec F S1x1024x512 .bf16) (x3 : Vec F S1x512x512 .f32) (x4 : Vec F S512x512 .f32) (x5 : Vec F S1x512 .f32) :
    View.canon (kernelRun1_A (F := F) c i arg3 harg3 arg4 harg4 arg5 harg5 arg6 harg6 arg7 harg7 arg8 harg8 arg9 harg9 arg10 harg10 arg11 harg11 arg12 harg12 hc0 hc1 x0 x1 x2 x3 x4 x5).2.2.1
      = k1_pay1 (k1_pay9 x0 x1 k1_pay4 k1_pay4) (k1_pay10 x0 x1 k1_pay4) (k1_pay12 x2) k1_pay6 := by
  unfold kernelRun1_A
  dsimp only
  rw [View.canon_cons_unit_zero (S := S512x512) offs2_zero]
  sl_unfold_words
  simp only [View.readCov_unit_zero (S := S512x1) (h := offs2_zero), View.readCov_unit_zero (S := S512x512) (h := offs2_zero),
    View.readAt_eq_ld, harg3.read_unread, harg4.read_unread, harg5.read_unread,
    View.ld_unit_zero (S := S1x512x512) offs3_zero, View.ld_unit_zero (S := S1x1024x512) offs3_zero]

/-! ## Key-block coordinate 1: the output block -/

set_option maxHeartbeats 1000000 in
/-- The output block left at key block 1, the scratch found at `xs0`, `xs1`, `xs2`: the projection of the updated
    accumulator over the updated denominator, plus the residual input, times the weight matrix, plus the bias. -/
theorem pieceB6 (c : Dev nD) (i : grid1.Coords) (arg3 : Memref sig .tc .vmem S1x512x512 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512x512 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x512 .f32) (harg12 : arg12.IsWhole) (hc0 : ¬cond1_0 i) (hc1 : cond1_1 i) (x0 : Vec F S1x512x512 .bf16) (x1 : Vec F S1x1024x512 .bf16) (x2 : Vec F S1x1024x512 .bf16) (x3 : Vec F S1x512x512 .f32) (x4 : Vec F S512x512 .f32) (x5 : Vec F S1x512 .f32) (xs0 : Vec F S512x1 .f32) (xs1 : Vec F S512x1 .f32) (xs2 : Vec F S512x512 .f32) :
    View.canon (kernelRun1_B (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1
      = k1_pay3 (k1_pay1 (k1_pay9 x0 x1 xs0 xs0) (k1_pay10 x0 x1 xs0) (k1_pay12 x2) xs2) (k1_pay11 x0 x1 xs0 xs0 xs1) x3 x4 x5 := by
  unfold kernelRun1_B
  dsimp only
  rw [View.canon_cons_unit_zero (S := S1x512x512) offs3_zero]
  sl_unfold_words
  simp only [View.readCov_unit_zero (S := S512x1) (h := offs2_zero), View.readCov_unit_zero (S := S512x512) (h := offs2_zero),
    View.readAt_eq_ld, harg3.read_unread, harg4.read_unread, harg5.read_unread, harg6.read_unread, harg7.read_unread,
    harg8.read_unread, harg10.read_unread, harg11.read_unread, harg12.read_unread,
    View.ld_unit_zero (S := S1x512x512) offs3_zero, View.ld_unit_zero (S := S1x1024x512) offs3_zero,
    View.ld_unit_zero (S := S512x512) offs2_zero, View.ld_unit_zero (S := S512x1) offs2_zero, View.ld_unit_zero (S := S1x512) offs2_zero]

/-! ## At the grid's points -/

variable (V : (c : Dev nD) → (b : Ref sig .tc) → Buf (Elt F) ((c : Thread nD τ).loc b))

/-- After an even point the first scratch buffer holds the first key block's running maximum. -/
theorem sA0_eq (c : Dev nD) (t : Fin cfg1.N) (h0 : t.val % 2 = 0) :
    sA0 V c t h0 = k1_pay2 (k1_pay8 (iblk1 V c 0 t) (iblk1 V c 1 t) k1_pay4) := by
  unfold sA0
  rw [View.read_writes_eq_canon _ _ _ (scoverA0 V c t h0)]
  exact pieceA0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun hh => by have := (hcond1_1 t).mp hh; omega) (iblk1 V c 0 t) (iblk1 V c 1 t) (iblk1 V c 2 t) (iblk1 V c 3 t) (iblk1 V c 4 t) (iblk1 V c 5 t)

/-- After an even point the second scratch buffer holds the first key block's running denominator. -/
theorem sA1_eq (c : Dev nD) (t : Fin cfg1.N) (h0 : t.val % 2 = 0) :
    sA1 V c t h0 = k1_pay11 (iblk1 V c 0 t) (iblk1 V c 1 t) k1_pay4 k1_pay4 k1_pay5 := by
  unfold sA1
  rw [View.read_writes_eq_canon _ _ _ (scoverA1 V c t h0)]
  exact pieceA1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun hh => by have := (hcond1_1 t).mp hh; omega) (iblk1 V c 0 t) (iblk1 V c 1 t) (iblk1 V c 2 t) (iblk1 V c 3 t) (iblk1 V c 4 t) (iblk1 V c 5 t)

/-- After an even point the third scratch buffer holds the first key block's running accumulator. -/
theorem sA2_eq (c : Dev nD) (t : Fin cfg1.N) (h0 : t.val % 2 = 0) :
    sA2 V c t h0
      = k1_pay1 (k1_pay9 (iblk1 V c 0 t) (iblk1 V c 1 t) k1_pay4 k1_pay4) (k1_pay10 (iblk1 V c 0 t) (iblk1 V c 1 t) k1_pay4)
          (k1_pay12 (iblk1 V c 2 t)) k1_pay6 := by
  unfold sA2
  rw [View.read_writes_eq_canon _ _ _ (scoverA2 V c t h0)]
  exact pieceA2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun hh => by have := (hcond1_1 t).mp hh; omega) (iblk1 V c 0 t) (iblk1 V c 1 t) (iblk1 V c 2 t) (iblk1 V c 3 t) (iblk1 V c 4 t) (iblk1 V c 5 t)

/-- After an odd point the output buffer holds the finished block, computed from the scratch as the even point before
    it left it. -/
theorem outB6_eq (c : Dev nD) (t : Fin cfg1.N) (h1 : t.val % 2 = 1) :
    outB6 V c t h1
      = k1_pay3
          (k1_pay1
            (k1_pay9 (iblk1 V c 0 t) (iblk1 V c 1 t) (sA0 V c ⟨t.val - 1, by have := t.isLt; omega⟩ (by show (t.val - 1) % 2 = 0; omega)) (sA0 V c ⟨t.val - 1, by have := t.isLt; omega⟩ (by show (t.val - 1) % 2 = 0; omega)))
            (k1_pay10 (iblk1 V c 0 t) (iblk1 V c 1 t) (sA0 V c ⟨t.val - 1, by have := t.isLt; omega⟩ (by show (t.val - 1) % 2 = 0; omega)))
            (k1_pay12 (iblk1 V c 2 t))
            (sA2 V c ⟨t.val - 1, by have := t.isLt; omega⟩ (by show (t.val - 1) % 2 = 0; omega)))
          (k1_pay11 (iblk1 V c 0 t) (iblk1 V c 1 t) (sA0 V c ⟨t.val - 1, by have := t.isLt; omega⟩ (by show (t.val - 1) % 2 = 0; omega)) (sA0 V c ⟨t.val - 1, by have := t.isLt; omega⟩ (by show (t.val - 1) % 2 = 0; omega)) (sA1 V c ⟨t.val - 1, by have := t.isLt; omega⟩ (by show (t.val - 1) % 2 = 0; omega)))
          (iblk1 V c 3 t) (iblk1 V c 4 t) (iblk1 V c 5 t) := by
  unfold outB6
  rw [View.read_writes_eq_canon _ _ _ (coverB6 V c t h1)]
  exact pieceB6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun hh => by have := (hcond1_0 t).mp hh; omega) ((hcond1_1 t).mpr h1) (iblk1 V c 0 t) (iblk1 V c 1 t) (iblk1 V c 2 t) (iblk1 V c 3 t) (iblk1 V c 4 t) (iblk1 V c 5 t) (sA0 V c ⟨t.val - 1, by have := t.isLt; omega⟩ (by show (t.val - 1) % 2 = 0; omega)) (sA1 V c ⟨t.val - 1, by have := t.isLt; omega⟩ (by show (t.val - 1) % 2 = 0; omega)) (sA2 V c ⟨t.val - 1, by have := t.isLt; omega⟩ (by show (t.val - 1) % 2 = 0; omega))

end Cert.KernelIdeal.Hand

end
-- ==== Proof.KernelIdeal.AttnFinal.lean ====
/-
  The attention kernel's result array after its region, entry by entry. The array [8, 2048, 512] is
  cut into blocks of one batch entry, 512 query tokens and all 512 columns; the point
  t = (b·4 + qi)·2 + ki of the grid works on block (b, qi), and only the odd points (ki = 1, the
  second key block) write their block back. So entry (b, n, e) is covered by the odd point of
  block (b, n / 512), t = (b·4 + n / 512)·2 + 1, and ends holding entry (0, n mod 512, e) of the block
  that point finished; every entry is covered, and no even point writes anything back.
-/
import proofs.«103585_j80161269612898_2_alg».proof.Proof.KernelIdeal.AttnFrame
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result window's block index at point `t`: batch entry `t / 8`, query block `(t / 2) mod 4`, column block 0. -/
theorem attn_idx6 : ∀ t : Fin cfg1.N, win1_6.index t (0 : Fin 3) = t.val / 8 ∧ win1_6.index t (1 : Fin 3) = t.val / 2 % 4
    ∧ win1_6.index t (2 : Fin 3) = 0 :=
  (by decide +kernel : ∀ t : Fin grid1.N, _)

/-- The finished block of an odd point depends on the point and the entry only. -/
theorem outB6_congr (c : Dev nD) {t t' : Fin cfg1.N} (et : t = t') (h : t.val % 2 = 1) (h' : t'.val % 2 = 1)
    {y y' : S1x512x512.Idx} (ey : y = y') : outB6 V c t h y = outB6 V c t' h' y' := by
  subst et; subst ey; rfl

/-- The odd point whose block covers an entry of the result array. -/
def ptOf (i : S8x2048x512.Idx) : Fin cfg1.N :=
  ⟨((i 0).val * 4 + (i 1).val / 512) * 2 + 1, by
    have h0 : (i 0).val < 8 := (i 0).isLt
    have h1 : (i 1).val < 2048 := (i 1).isLt
    rw [show cfg1.N = 64 from N_1]; omega⟩

theorem ptOf_val (i : S8x2048x512.Idx) : (ptOf i).val = ((i 0).val * 4 + (i 1).val / 512) * 2 + 1 := rfl

theorem ptOf_odd (i : S8x2048x512.Idx) : (ptOf i).val % 2 = 1 := by rw [ptOf_val]; omega

/-- The result array as one function: each entry from the block of the odd point that covers it. -/
def attnG (c : Dev nD) : S8x2048x512.Idx → Elt Ideal .f32 := fun i =>
  outB6 V c (ptOf i) (ptOf_odd i)
    (ix3 (0 : Fin 1) (⟨(i 1).val % 512, Nat.mod_lt _ (by decide)⟩ : Fin 512) (⟨(i 2).val, (i 2).isLt⟩ : Fin 512))

/-- The result window's blocks are never cut short: what is written back of a buffer's contents is all of it. -/
theorem cut6_apply (X : Vec Ideal S1x512x512 .f32) (t : Fin cfg1.N) (y : ((cfg1.win 6).xblock (grid1.coords t)).Idx) :
    (cfg1.win 6).cut (grid1.coords t) X y = X y := rfl

/-- A block of an array, read at an entry, is the array at the entry's place in it. -/
theorem read_blk6_apply (G : S8x2048x512.Idx → Elt Ideal .f32) (t : Fin cfg1.N)
    (y : ((cfg1.win 6).xblock (grid1.coords t)).Idx) :
    ((cfg1.win 6).blk t).view.read (Elt Ideal) G y = G (((cfg1.win 6).blk t).view.emb y) := rfl

/-- What an odd point writes back is its block of that function. -/
theorem attn_flushed (c : Dev nD) (t : Fin cfg1.N) (hf : (cfg1.win 6).flush t = true) :
    (dat1 V c).flushed 6 t = ((cfg1.win 6).blk t).view.read (Elt Ideal) (attnG V c) := by
  have h1 : t.val % 2 = 1 := (flush1_6 t).mp hf
  show (cfg1.win 6).cut (grid1.coords t) ((dat1 V c).after 6 t) = _
  rw [after1_6]
  unfold out6
  rw [dif_pos h1]
  obtain ⟨e0, e1, e2⟩ := attn_idx6 t
  funext y
  refine (cut6_apply (outB6 V c t h1) t y).trans ?_
  refine Eq.trans ?_ (read_blk6_apply (attnG V c) t y).symm
  unfold attnG
  have hy0 : (y 0).val = 0 := by have : (y 0).val < 1 := (y 0).isLt; omega
  have hy1 : (y 1).val < 512 := (y 1).isLt
  have hE0 : ((((cfg1.win 6).blk t).view.emb y) 0).val = t.val / 8 := by
    show win1_6.index t (0 : Fin 3) * 1 + 1 * (y 0).val = t.val / 8
    rw [e0, hy0]; omega
  have hE1 : ((((cfg1.win 6).blk t).view.emb y) 1).val = t.val / 2 % 4 * 512 + (y 1).val := by
    show win1_6.index t (1 : Fin 3) * 512 + 1 * (y 1).val = t.val / 2 % 4 * 512 + (y 1).val
    rw [e1]; omega
  have hE2 : ((((cfg1.win 6).blk t).view.emb y) 2).val = (y 2).val := by
    show win1_6.index t (2 : Fin 3) * 512 + 1 * (y 2).val = (y 2).val
    rw [e2]; omega
  have htN : t.val < 64 := Nat.lt_of_lt_of_eq t.isLt N_1
  refine outB6_congr V c (Fin.ext ?_) _ _ (funext fun a => Fin.ext ?_)
  · rw [ptOf_val, hE0, hE1]; omega
  · match a with
    | ⟨0, _⟩ => exact hy0
    | ⟨1, _⟩ =>
      show (y 1).val = ((((cfg1.win 6).blk t).view.emb y) 1).val % 512
      rw [hE1]; omega
    | ⟨2, _⟩ => exact hE2.symm

/-- An entry of the result array is in point `t`'s block iff each coordinate is in the block's range on its axis. -/
theorem attn_mem_blk (t : Fin cfg1.N) (i : S8x2048x512.Idx) :
    i ∈ ((cfg1.win 6).blk t).view.set ↔ ∀ a : Fin 3, win1_6.index t a * S1x512x512.size a ≤ (i a).val
      ∧ (i a).val < win1_6.index t a * S1x512x512.size a + S1x512x512.size a := by
  show i ∈ ((View.whole main_v4).slice (win1_6.rect t)).set ↔ _
  rw [View.set_slice_whole, Rect.mem_set_unit]
  exact Iff.rfl

/-- Every entry of the result array is in the block of an odd point: the one `ptOf` names. -/
theorem attn_cover (i : S8x2048x512.Idx) :
    ∃ t : Fin cfg1.N, (cfg1.win 6).flush t = true ∧ i ∈ ((cfg1.win 6).blk t).view.set := by
  have h0 : (i 0).val < 8 := (i 0).isLt
  have h1 : (i 1).val < 2048 := (i 1).isLt
  have h2 : (i 2).val < 512 := (i 2).isLt
  refine ⟨ptOf i, (flush1_6 _).mpr (ptOf_odd i), ?_⟩
  obtain ⟨e0, e1, e2⟩ := attn_idx6 (ptOf i)
  rw [attn_mem_blk]
  intro a
  match a with
  | ⟨0, _⟩ =>
    show win1_6.index (ptOf i) (0 : Fin 3) * 1 ≤ (i 0).val ∧ (i 0).val < win1_6.index (ptOf i) (0 : Fin 3) * 1 + 1
    rw [e0, ptOf_val]; omega
  | ⟨1, _⟩ =>
    show win1_6.index (ptOf i) (1 : Fin 3) * 512 ≤ (i 1).val ∧ (i 1).val < win1_6.index (ptOf i) (1 : Fin 3) * 512 + 512
    rw [e1, ptOf_val]; omega
  | ⟨2, _⟩ =>
    show win1_6.index (ptOf i) (2 : Fin 3) * 512 ≤ (i 2).val ∧ (i 2).val < win1_6.index (ptOf i) (2 : Fin 3) * 512 + 512
    rw [e2]; omega

/-- The result array after the region is that function. -/
theorem attn_final (c : Dev nD) : (dat1 V c).arrAt 6 cfg1.N = attnG V c :=
  (dat1 V c).arrAt_eq_of_cover 6 (attnG V c) (fun t hf => attn_flushed V c t hf) attn_cover

/-- Entry (b, n, e) of the result array, for the token `n = 512·qi + r` of query block `qi`: entry (0, r, e) of the
    block finished by the odd point `t = (b·4 + qi)·2 + 1`. -/
theorem attn_arrAt_of (c : Dev nD) (b : Fin 8) (qi : Fin 4) (r e : Fin 512) (n : Fin 2048) (hn : n.val = 512 * qi.val + r.val)
    (t : Fin cfg1.N) (ht : t.val = (b.val * 4 + qi.val) * 2 + 1) (hB : t.val % 2 = 1) :
    ((dat1 (F := Ideal) V c).arrAt 6 cfg1.N : S8x2048x512.Idx → Elt Ideal .f32) (ix3 b n e)
      = outB6 V c t hB (ix3 (0 : Fin 1) r e) := by
  refine (congrFun (attn_final V c) (ix3 b n e)).trans ?_
  unfold attnG
  have hr : r.val < 512 := r.isLt
  have hq : qi.val < 4 := qi.isLt
  refine outB6_congr V c (Fin.ext ?_) _ _ (funext fun a => Fin.ext ?_)
  · rw [ptOf_val, ht]
    show (b.val * 4 + n.val / 512) * 2 + 1 = (b.val * 4 + qi.val) * 2 + 1
    rw [hn]; omega
  · match a with
    | ⟨0, _⟩ => rfl
    | ⟨1, _⟩ =>
      show n.val % 512 = r.val
      rw [hn]; omega
    | ⟨2, _⟩ => rfl

/-- The query token `512·qi + r`. -/
def nqOf (qi : Fin 4) (r : Fin 512) : Fin 2048 :=
  ⟨512 * qi.val + r.val, by have := qi.isLt; have := r.isLt; omega⟩

/-- The odd point of block (b, qi). -/
def tB (b : Fin 8) (qi : Fin 4) : Fin cfg1.N :=
  ⟨(b.val * 4 + qi.val) * 2 + 1, by have := b.isLt; have := qi.isLt; rw [show cfg1.N = 64 from N_1]; omega⟩

theorem tB_odd (b : Fin 8) (qi : Fin 4) : (tB b qi).val % 2 = 1 := by
  show ((b.val * 4 + qi.val) * 2 + 1) % 2 = 1; omega

/-- The same with the token and the point named. -/
theorem attn_arrAt (c : Dev nD) (b : Fin 8) (qi : Fin 4) (r e : Fin 512) :
    ((dat1 (F := Ideal) V c).arrAt 6 cfg1.N : S8x2048x512.Idx → Elt Ideal .f32) (ix3 b (nqOf qi r) e)
      = outB6 V c (tB b qi) (tB_odd b qi) (ix3 (0 : Fin 1) r e) :=
  attn_arrAt_of V c b qi r e (nqOf qi r) rfl (tB b qi) rfl (tB_odd b qi)

end Cert.KernelIdeal.Hand

end
-- ==== Proof.KernelIdeal.AttnPayloads.lean ====
/- The attention kernel's pure terms read at one index, on the extended reals: each stored or carried
   value of the body — the scaled score block `q · kᵀ`, the running row maximum, the two exponentials,
   the running denominator and numerator, the final projection — as an explicit expression in the
   entries of the loaded blocks at named coordinates. Layout operations (unit-axis casts, a column
   broadcast, a transpose) only rename coordinates; format changes are the identity; a matrix product
   into a zero accumulator is the sum over the contracted coordinate; a lane reduction is the sum, or
   the fold of `max` from `-∞`, over the row. -/
import proofs.«103585_j80161269612898_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ### Layout operations at coordinates -/

/-- A vector `[a]` cast to a column `[a, 1]` reads, at `(i, u)`, the vector at `i`: both have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The matrix products -/

/-- On its non-contracted axis the left operand's index has the output row. -/
theorem matmul_qk_apply_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
/-- On its non-contracted axis the right operand's index has the output column. -/
theorem matmul_qk_apply_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl
/-- The `[512, 512] × [512, 1024]` product into a zero accumulator, at `(r, c)`: the sum over the contracted coordinate `k` of `lhs (r, k) · rhs (k, c)`. -/
theorem matmul_qk_apply (lhs : FVec Ideal S512x512 .bf16) (rhs : FVec Ideal S512x1024 .bf16) (r : Fin 512) (c : Fin 1024) :
    matmul dot_S512x512_S512x1024_S512x1024_1_0_0_1_n_n none lhs rhs (constant (F := Ideal) S512x1024 .f32 0x00000000#32) (ix2 r c)
      = ∑ k : Fin 512, lhs (ix2 r k) * rhs (ix2 k c) := by
  refine (Ideal.matmul_constant_zero_apply dot_S512x512_S512x1024_S512x1024_1_0_0_1_n_n none lhs rhs (ix2 r c)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r c) ((contrEquiv1 dot_S512x512_S512x1024_S512x1024_1_0_0_1_n_n 512 rfl rfl).symm k) = ix2 r k :=
    funext fun a => Fin.ext (by
      match a with
      | ⟨0, _⟩ => exact matmul_qk_apply_lhs0 _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 r c) ((contrEquiv1 dot_S512x512_S512x1024_S512x1024_1_0_0_1_n_n 512 rfl rfl).symm k) = ix2 k c :=
    funext fun a => Fin.ext (by
      match a with
      | ⟨0, _⟩ => exact (dot_S512x512_S512x1024_S512x1024_1_0_0_1_n_n.rhsIdx_val_of_single rfl _ _).trans hk
      | ⟨1, _⟩ => exact matmul_qk_apply_rhs1 _ _)
  rw [el, er]

/-- On its non-contracted axis the left operand's index has the output row. -/
theorem matmul_pv_apply_lhs0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- On its non-contracted axis the right operand's index has the output column. -/
theorem matmul_pv_apply_rhs1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl
/-- The `[512, 1024] × [1024, 512]` product into a zero accumulator, at `(r, c)`: the sum over the contracted coordinate `k` of `lhs (r, k) · rhs (k, c)`. -/
theorem matmul_pv_apply (lhs : FVec Ideal S512x1024 .bf16) (rhs : FVec Ideal S1024x512 .bf16) (r : Fin 512) (c : Fin 512) :
    matmul dot_S512x1024_S1024x512_S512x512_1_0_0_1_n_n none lhs rhs (constant (F := Ideal) S512x512 .f32 0x00000000#32) (ix2 r c)
      = ∑ k : Fin 1024, lhs (ix2 r k) * rhs (ix2 k c) := by
  refine (Ideal.matmul_constant_zero_apply dot_S512x1024_S1024x512_S512x512_1_0_0_1_n_n none lhs rhs (ix2 r c)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r c) ((contrEquiv1 dot_S512x1024_S1024x512_S512x512_1_0_0_1_n_n 1024 rfl rfl).symm k) = ix2 r k :=
    funext fun a => Fin.ext (by
      match a with
      | ⟨0, _⟩ => exact matmul_pv_apply_lhs0 _ _
      | ⟨1, _⟩ => exact (dot_S512x1024_S1024x512_S512x512_1_0_0_1_n_n.lhsIdx_val_of_single rfl _ _).trans hk)
  have er : dot_S512x1024_S1024x512_S512x512_1_0_0_1_n_n.rhsIdx (ix2 r c) ((contrEquiv1 dot_S512x1024_S1024x512_S512x512_1_0_0_1_n_n 1024 rfl rfl).symm k) = ix2 k c :=
    funext fun a => Fin.ext (by
      match a with
      | ⟨0, _⟩ => exact (dot_S512x1024_S1024x512_S512x512_1_0_0_1_n_n.rhsIdx_val_of_single rfl _ _).trans hk
      | ⟨1, _⟩ => exact matmul_pv_apply_rhs1 _ _)
  rw [el, er]

/-- On its non-contracted axis the left operand's index has the output row. -/
theorem matmul_xw_apply_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- On its non-contracted axis the right operand's index has the output column. -/
theorem matmul_xw_apply_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
/-- The `[512, 512] × [512, 512]` product into a zero accumulator, at `(r, c)`: the sum over the contracted coordinate `k` of `lhs (r, k) · rhs (k, c)`. -/
theorem matmul_xw_apply (lhs : FVec Ideal S512x512 .bf16) (rhs : FVec Ideal S512x512 .bf16) (r : Fin 512) (c : Fin 512) :
    matmul dot_S512x512_S512x512_S512x512_1_0_0_1_n_n none lhs rhs (constant (F := Ideal) S512x512 .f32 0x00000000#32) (ix2 r c)
      = ∑ k : Fin 512, lhs (ix2 r k) * rhs (ix2 k c) := by
  refine (Ideal.matmul_constant_zero_apply dot_S512x512_S512x512_S512x512_1_0_0_1_n_n none lhs rhs (ix2 r c)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r c) ((contrEquiv1 dot_S512x512_S512x512_S512x512_1_0_0_1_n_n 512 rfl rfl).symm k) = ix2 r k :=
    funext fun a => Fin.ext (by
      match a with
      | ⟨0, _⟩ => exact matmul_xw_apply_lhs0 _ _
      | ⟨1, _⟩ => exact (dot_S512x512_S512x512_S512x512_1_0_0_1_n_n.lhsIdx_val_of_single rfl _ _).trans hk)
  have er : dot_S512x512_S512x512_S512x512_1_0_0_1_n_n.rhsIdx (ix2 r c) ((contrEquiv1 dot_S512x512_S512x512_S512x512_1_0_0_1_n_n 512 rfl rfl).symm k) = ix2 k c :=
    funext fun a => Fin.ext (by
      match a with
      | ⟨0, _⟩ => exact (dot_S512x512_S512x512_S512x512_1_0_0_1_n_n.rhsIdx_val_of_single rfl _ _).trans hk
      | ⟨1, _⟩ => exact matmul_xw_apply_rhs1 _ _)
  rw [el, er]

/-! ### The lane reductions over a row of 1024 -/

/-- The index of the `[512, 1024]` source over row `r` at lane `j` is `(r, j)`. -/
theorem lift_row (r : Fin 512) (j : Fin 1024) :
    reduces_S512x1024_S512.lift (ix1 r) j = ix2 r j :=
  funext fun c => Fin.ext (by
    match c with
    | ⟨0, _⟩ => rfl
    | ⟨1, _⟩ => rfl)

/-- A lane maximum of a `[512, 1024]` vector from the word of `-∞`, at row `r`: the fold of `max`
    from that word's value over the row's 1024 entries. -/
theorem rowMax_apply (src : FVec Ideal S512x1024 .f32) (r : Fin 512) :
    multiReduction .maximumf [1] S512 src 0xFF800000#32 reduces_S512x1024_S512 (.inl rfl) rfl (ix1 r)
      = (Finset.univ : Finset (Fin 1024)).fold max (Ideal.ofBits .f32 0xFF800000#32) (fun j => src (ix2 r j)) := by
  refine (Ideal.multiReduction_maximumf_single src 0xFF800000#32 reduces_S512x1024_S512 (.inl rfl) rfl (ix1 r)).trans ?_
  exact congrArg (Finset.fold max (Ideal.ofBits .f32 0xFF800000#32) · (Finset.univ : Finset (Fin 1024)))
    (funext fun j => congrArg src (lift_row r j))

/-- A lane sum of a `[512, 1024]` vector, at row `r`: the sum of the row's 1024 entries. -/
theorem rowSum_apply (src : FVec Ideal S512x1024 .f32) (r : Fin 512) :
    multiReduction .add [1] S512 src 0x00000000#32 reduces_S512x1024_S512 (.inl rfl) rfl (ix1 r)
      = ∑ j : Fin 1024, src (ix2 r j) := by
  refine (Ideal.multiReduction_add_single src 0x00000000#32 reduces_S512x1024_S512 (.inl rfl) rfl (ix1 r)).trans ?_
  exact Finset.sum_congr rfl fun j _ => congrArg src (lift_row r j)

/-! ### The payloads -/

/-- The score block at `(r, j)`: the sum over the feature coordinate `d` of the query entry, scaled by
    the `bf16` constant `0x3C80`, times the key entry. The unit-axis casts read `(0, r, d)` and
    `(0, j, d)`, the transpose swaps the key's coordinates, and the product is the sum over `d`. -/
theorem pay7_apply (q : Vec Ideal S1x512x512 .bf16) (k : Vec Ideal S1x1024x512 .bf16) (r : Fin 512) (j : Fin 1024) :
    k1_pay7 (F := Ideal) q k (ix2 r j)
      = ∑ d : Fin 512, (q (ix3 (0 : Fin 1) r d) * Ideal.ofBits .bf16 0x3C80#16) * k (ix3 (0 : Fin 1) j d) := by
  unfold k1_pay7
  refine (matmul_qk_apply _ _ r j).trans ?_
  refine Finset.sum_congr rfl fun d _ => ?_
  refine congrArg₂ (· * ·) (congrArg₂ (· * ·) ?_ rfl) ?_
  · exact shapeCast_1ab_ab_apply q shapeCasts_S1x512x512_S512x512 r d
  · refine (transpose_ix2_apply _ transposes_S1024x512_p1_0_S512x1024 d j).trans ?_
    exact shapeCast_1ab_ab_apply k shapeCasts_S1x1024x512_S1024x512 j d

/-- The new running maximum of row `r`: the larger of the previous one and the row's lane maximum of
    the score block, taken as the fold of `max` from the word of `-∞` over the row's 1024 scores. -/
theorem pay8_apply (q : Vec Ideal S1x512x512 .bf16) (k : Vec Ideal S1x1024x512 .bf16) (mp : Vec Ideal S512x1 .f32)
    (r : Fin 512) :
    k1_pay8 (F := Ideal) q k mp (ix2 r (0 : Fin 1))
      = max (mp (ix2 r (0 : Fin 1)))
          ((Finset.univ : Finset (Fin 1024)).fold max (Ideal.ofBits .f32 0xFF800000#32)
            (fun j => k1_pay7 (F := Ideal) q k (ix2 r j))) := by
  unfold k1_pay8
  refine congrArg (max (mp (ix2 r (0 : Fin 1)))) ?_
  refine (shapeCast_a_a1_apply _ shapeCasts_S512_S512x1 r (0 : Fin 1)).trans ?_
  exact rowMax_apply _ r

/-- The unnormalised weight at `(r, j)`: `exp` of the score minus the row's new running maximum (the
    column of maxima broadcast along the row). -/
theorem pay10_apply (q : Vec Ideal S1x512x512 .bf16) (k : Vec Ideal S1x1024x512 .bf16) (mp : Vec Ideal S512x1 .f32)
    (r : Fin 512) (j : Fin 1024) :
    k1_pay10 (F := Ideal) q k mp (ix2 r j)
      = Ideal.exp (k1_pay7 (F := Ideal) q k (ix2 r j) - k1_pay8 (F := Ideal) q k mp (ix2 r (0 : Fin 1))) := by
  unfold k1_pay10
  refine congrArg Ideal.exp (congrArg (k1_pay7 (F := Ideal) q k (ix2 r j) - ·) ?_)
  exact broadcastTo_a1_ab_apply _ broadcasts_S512x1_S512x1024 r j

/-- The rescaling factor of row `r`: `exp` of the previous running maximum minus the new one. -/
theorem pay9_apply (q : Vec Ideal S1x512x512 .bf16) (k : Vec Ideal S1x1024x512 .bf16) (mp mp' : Vec Ideal S512x1 .f32)
    (r : Fin 512) :
    k1_pay9 (F := Ideal) q k mp mp' (ix2 r (0 : Fin 1))
      = Ideal.exp (mp' (ix2 r (0 : Fin 1)) - k1_pay8 (F := Ideal) q k mp (ix2 r (0 : Fin 1))) := by
  unfold k1_pay9
  rfl

/-- The new running denominator of row `r`: the previous one times the rescaling factor, plus the sum
    of the row's 1024 unnormalised weights. -/
theorem pay11_apply (q : Vec Ideal S1x512x512 .bf16) (k : Vec Ideal S1x1024x512 .bf16)
    (mp mp' lp : Vec Ideal S512x1 .f32) (r : Fin 512) :
    k1_pay11 (F := Ideal) q k mp mp' lp (ix2 r (0 : Fin 1))
      = k1_pay9 (F := Ideal) q k mp mp' (ix2 r (0 : Fin 1)) * lp (ix2 r (0 : Fin 1))
          + ∑ j : Fin 1024, k1_pay10 (F := Ideal) q k mp (ix2 r j) := by
  unfold k1_pay11
  refine (congrFun (shapeCast_self _ shapeCasts_S512x1_S512x1) (ix2 r (0 : Fin 1))).trans ?_
  refine congrArg (k1_pay9 (F := Ideal) q k mp mp' (ix2 r (0 : Fin 1)) * lp (ix2 r (0 : Fin 1)) + ·) ?_
  refine (shapeCast_a_a1_apply _ shapeCasts_S512_S512x1 r (0 : Fin 1)).trans ?_
  exact rowSum_apply _ r

/-- The value block with its unit axis dropped: at `(j, d)` it is the block at `(0, j, d)`. -/
theorem pay12_apply (v : Vec Ideal S1x1024x512 .bf16) (j : Fin 1024) (d : Fin 512) :
    k1_pay12 (F := Ideal) v (ix2 j d) = v (ix3 (0 : Fin 1) j d) := by
  unfold k1_pay12
  exact shapeCast_1ab_ab_apply v shapeCasts_S1x1024x512_S1024x512 j d

/-- The new running numerator at `(r, d)`: the previous one times the row's rescaling factor, plus the
    sum over the 1024 keys of the weight times the value entry. -/
theorem pay1_apply (a : Vec Ideal S512x1 .f32) (p : Vec Ideal S512x1024 .f32) (v' : Vec Ideal S1024x512 .bf16)
    (accp : Vec Ideal S512x512 .f32) (r d : Fin 512) :
    k1_pay1 (F := Ideal) a p v' accp (ix2 r d)
      = a (ix2 r (0 : Fin 1)) * accp (ix2 r d) + ∑ j : Fin 1024, p (ix2 r j) * v' (ix2 j d) := by
  unfold k1_pay1
  refine (congrFun (shapeCast_self _ shapeCasts_S512x512_S512x512) (ix2 r d)).trans ?_
  refine congrArg₂ (· + ·) (congrArg (· * accp (ix2 r d)) ?_) ?_
  · exact broadcastTo_a1_ab_apply a broadcasts_S512x1_S512x512 r d
  · exact matmul_pv_apply _ v' r d

/-- The initial running maximum: the word of `-∞` at every row. -/
theorem pay4_apply (r : Fin 512) :
    k1_pay4 (F := Ideal) (ix2 r (0 : Fin 1)) = Ideal.ofBits .f32 0xFF800000#32 := by
  unfold k1_pay4
  exact congrFun (shapeCast_self _ shapeCasts_S512x1_S512x1) (ix2 r (0 : Fin 1))

/-- The initial running denominator: the zero word at every row. -/
theorem pay5_apply (r : Fin 512) :
    k1_pay5 (F := Ideal) (ix2 r (0 : Fin 1)) = Ideal.ofBits .f32 0x00000000#32 := by
  unfold k1_pay5
  exact congrFun (shapeCast_self _ shapeCasts_S512x1_S512x1) (ix2 r (0 : Fin 1))

/-- The initial running numerator: the zero word at every entry. -/
theorem pay6_apply (r d : Fin 512) :
    k1_pay6 (F := Ideal) (ix2 r d) = Ideal.ofBits .f32 0x00000000#32 := by
  unfold k1_pay6
  exact congrFun (shapeCast_self _ shapeCasts_S512x512_S512x512) (ix2 r d)

/-- A cast to the same shape stores the vector unchanged. -/
theorem pay2_eq (x : Vec Ideal S512x1 .f32) : k1_pay2 (F := Ideal) x = x := by
  unfold k1_pay2
  exact shapeCast_self x shapeCasts_S512x1_S512x1

/-- The same at a row. -/
theorem pay2_apply (x : Vec Ideal S512x1 .f32) (r : Fin 512) :
    k1_pay2 (F := Ideal) x (ix2 r (0 : Fin 1)) = x (ix2 r (0 : Fin 1)) :=
  congrFun (pay2_eq x) _

/-- The output block at `(0, r, e)`: the normalised numerator `acc (r, d) / l (r)` plus the residual
    input entry, multiplied into the projection matrix over the feature coordinate `d`, plus the bias
    entry of column `e`. -/
theorem pay3_apply (acc : Vec Ideal S512x512 .f32) (l : Vec Ideal S512x1 .f32) (xb : Vec Ideal S1x512x512 .f32)
    (wo : Vec Ideal S512x512 .f32) (bb : Vec Ideal S1x512 .f32) (r e : Fin 512) :
    k1_pay3 (F := Ideal) acc l xb wo bb (ix3 (0 : Fin 1) r e)
      = (∑ d : Fin 512,
            (Ideal.div (acc (ix2 r d)) (l (ix2 r (0 : Fin 1))) + xb (ix3 (0 : Fin 1) r d)) * wo (ix2 d e))
          + bb (ix2 (0 : Fin 1) e) := by
  unfold k1_pay3
  refine (shapeCast_ab_1ab_apply _ shapeCasts_S512x512_S1x512x512 (0 : Fin 1) r e).trans ?_
  refine congrArg₂ (· + ·) ?_ ?_
  · refine (matmul_xw_apply _ _ r e).trans ?_
    refine Finset.sum_congr rfl fun d _ => ?_
    refine congrArg (· * wo (ix2 d e)) ?_
    refine congrArg₂ (· + ·) (congrArg (Ideal.div (acc (ix2 r d))) ?_) ?_
    · exact broadcastTo_a1_ab_apply l broadcasts_S512x1_S512x512 r d
    · exact shapeCast_1ab_ab_apply xb shapeCasts_S1x512x512_S512x512 r d
  · refine (broadcastTo_1b_ab_apply _ broadcasts_S1x512_S512x512 r e).trans ?_
    exact congrFun (shapeCast_self bb shapeCasts_S1x512_S1x512) _

end Cert.KernelIdeal.Hand

end
-- ==== Proof.AttnSpec.lean ====
/-
  Single-head attention with a residual connection and an output projection, stated index by index
  over plain coordinates. For a batch of 8 sequences of 2048 tokens of width 512:

    qkv[b,n,:]   = x[b,n,:] · W                     (W : 512 × 1536; its three 512-column thirds are q, k, v)
    score[b,n,m] = ⟨q[b,n,:] · ⅛ , k[b,m,:] · ⅛⟩     (both factors scaled by 64^(-1/2) = ⅛)
    attn[b,n,:]  = softmax over m of score[b,n,:]    (stabilised by the row maximum)
    out[b,n,:]   = (attn[b,n,:] · v[b,:,:] + x[b,n,:]) · Wo + bo

  Every value is an extended real. The softmax is spelt as it is computed: the row maximum
  (taken from −∞), the exponentials of the differences, their sum (taken from 0), the quotients.
  The scale ⅛, −∞ and 0 are kept as the 32-bit float words that denote them.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-- Column `d` of the query third of the fused projection. -/
def qcol (d : Fin 512) : Fin 1536 := ⟨d.val, by have := d.isLt; omega⟩
/-- Column `d` of the key third: `512 + d`. -/
def kcol (d : Fin 512) : Fin 1536 := ⟨512 + d.val, by have := d.isLt; omega⟩
/-- Column `d` of the value third: `1024 + d`. -/
def vcol (d : Fin 512) : Fin 1536 := ⟨1024 + d.val, by have := d.isLt; omega⟩

@[simp] theorem qcol_val (d : Fin 512) : (qcol d).val = d.val := rfl
@[simp] theorem kcol_val (d : Fin 512) : (kcol d).val = 512 + d.val := rfl
@[simp] theorem vcol_val (d : Fin 512) : (vcol d).val = 1024 + d.val := rfl

section
variable (x : Fin 8 → Fin 2048 → Fin 512 → EReal) (W : Fin 512 → Fin 1536 → EReal)

/-- The fused projection: token `n` of sequence `b` against column `j` of `W`. -/
def qkv (b : Fin 8) (n : Fin 2048) (j : Fin 1536) : EReal :=
  ∑ d : Fin 512, x b n d * W d j

/-- The attention logit of query token `n` against key token `m`: the inner product of the query
    row and the key row, each scaled by ⅛ (the word `0x3E000000`). -/
def score (b : Fin 8) (n m : Fin 2048) : EReal :=
  ∑ d : Fin 512, (qkv x W b n (qcol d) * Ideal.ofBits .f32 0x3E000000#32)
    * (qkv x W b m (kcol d) * Ideal.ofBits .f32 0x3E000000#32)

/-- The row maximum of the logits of query token `n`: the maximum over the key tokens taken from
    −∞ (the word `0xFF800000`), and once more against −∞. -/
def rowMax (b : Fin 8) (n : Fin 2048) : EReal :=
  max (Ideal.ofBits .f32 0xFF800000#32)
    ((Finset.univ : Finset (Fin 2048)).fold max (Ideal.ofBits .f32 0xFF800000#32) (fun m => score x W b n m))

/-- The stabilised exponential of a logit. -/
def ew (b : Fin 8) (n m : Fin 2048) : EReal :=
  Ideal.exp (score x W b n m - rowMax x W b n)

/-- The softmax denominator of query token `n`: the sum of the row's exponentials, taken from 0
    (the word `0x00000000`). -/
def den (b : Fin 8) (n : Fin 2048) : EReal :=
  Ideal.ofBits .f32 0x00000000#32 + ∑ m : Fin 2048, ew x W b n m

/-- The attention output: the softmax weights of query token `n` against column `d` of the values. -/
def attnV (b : Fin 8) (n : Fin 2048) (d : Fin 512) : EReal :=
  ∑ m : Fin 2048, Ideal.div (ew x W b n m) (den x W b n) * qkv x W b m (vcol d)

/-- The result: the attention output plus the residual `x`, projected by `Wo`, plus the bias. -/
def refOut (Wo : Fin 512 → Fin 512 → EReal) (bo : Fin 512 → EReal) (b : Fin 8) (n : Fin 2048) (e : Fin 512) : EReal :=
  (∑ d : Fin 512, (attnV x W b n d + x b n d) * Wo d e) + bo e

/-- The result as ONE array of the four argument arrays: entry `(b, n, e)` is `refOut` of the arrays
    read by their coordinates. -/
def outArr (x0 : (⟨3, ![8, 2048, 512]⟩ : Shape).Idx → EReal) (x1 : (⟨2, ![512, 1536]⟩ : Shape).Idx → EReal)
    (x2 : (⟨2, ![512, 512]⟩ : Shape).Idx → EReal) (x3 : (⟨1, ![512]⟩ : Shape).Idx → EReal) :
    (⟨3, ![8, 2048, 512]⟩ : Shape).Idx → EReal :=
  fun i => refOut (fun b n d => x0 (ValueIdx.ix3 b n d)) (fun d j => x1 (ValueIdx.ix2 d j))
    (fun d e => x2 (ValueIdx.ix2 d e)) (fun e => x3 (ValueIdx.ix1 e)) (i 0) (i 1) (i 2)

theorem outArr_apply (x0 : (⟨3, ![8, 2048, 512]⟩ : Shape).Idx → EReal) (x1 : (⟨2, ![512, 1536]⟩ : Shape).Idx → EReal)
    (x2 : (⟨2, ![512, 512]⟩ : Shape).Idx → EReal) (x3 : (⟨1, ![512]⟩ : Shape).Idx → EReal)
    (b : Fin 8) (n : Fin 2048) (e : Fin 512) :
    outArr x0 x1 x2 x3 (ValueIdx.ix3 b n e)
      = refOut (fun b n d => x0 (ValueIdx.ix3 b n d)) (fun d j => x1 (ValueIdx.ix2 d j))
          (fun d e => x2 (ValueIdx.ix2 d e)) (fun e => x3 (ValueIdx.ix1 e)) b n e := rfl

end

end Cert.Attn

end
-- ==== Proof.LibOnlineSoftmax.lean ====
/- Extended-real algebra for a two-block "online softmax": sums of coerced reals, the float
   constants that occur, the row maximum as a real, `exp` and division on reals, and the identity that
   a rescaled two-block accumulation of `exp (s - m) · v` divided by the accumulated `exp (s - m)` is the
   softmax-weighted sum over both blocks. Everything is stated on `EReal` with the operations of the
   ideal float instance, so that a program's term rewrites into these shapes. -/
import Idealize.ShloMosaic.PureOps.Ideal
import Idealize.ShloMosaic.PureOps.Ideal.Laws

noncomputable section

namespace Cert.Lib.OnlineSoftmax

open Idealize.ShloMosaic
open scoped BigOperators

universe u v

/-! ### Sums of coerced reals -/

/-- A finite sum of real numbers, each read as an extended real, is the real sum read as an
    extended real: the coercion `ℝ → EReal` is additive and sends `0` to `0`. -/
theorem coe_finset_sum {ι : Type u} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The same over a whole finite type: `∑ k, ↑(f k) = ↑(∑ k, f k)`. -/
theorem coe_sum {ι : Type u} [Fintype ι] (f : ι → ℝ) :
    ∑ k, ((f k : ℝ) : EReal) = ((∑ k, f k : ℝ) : EReal) :=
  coe_finset_sum Finset.univ f

/-- A finite sum of products of coerced reals is the coerced sum of the real products:
    `∑ k, ↑(f k) * ↑(g k) = ↑(∑ k, f k * g k)`. -/
theorem coe_sum_mul {ι : Type u} [Fintype ι] (f g : ι → ℝ) :
    ∑ k, (((f k : ℝ) : EReal) * ((g k : ℝ) : EReal)) = ((∑ k, f k * g k : ℝ) : EReal) := by
  rw [← coe_sum]
  exact Finset.sum_congr rfl fun k _ => (EReal.coe_mul _ _).symm

/-- A sum that starts from `0`: `0 + ∑ k, ↑(f k) = ↑(∑ k, f k)`. -/
theorem zero_add_coe_sum {ι : Type u} [Fintype ι] (f : ι → ℝ) :
    (0 : EReal) + ∑ k, ((f k : ℝ) : EReal) = ((∑ k, f k : ℝ) : EReal) := by
  rw [zero_add, coe_sum]

/-! ### The float constants -/

/-- The `bf16` pattern `0x3C80` (sign `0`, exponent field `121`, significand `0`) denotes
    `2 ^ (121 - 127) = 1 / 64`. -/
theorem ofBits_bf16_3C80 : Ideal.ofBits .bf16 0x3C80#16 = ((1 / 64 : ℝ) : EReal) := by
  simp [Ideal.ofBits, Ideal.ieee, -EReal.coe_mul]; norm_num

/-- The `f32` pattern `0x3E000000` (sign `0`, exponent field `124`, significand `0`) denotes
    `2 ^ (124 - 127) = 1 / 8`. -/
theorem ofBits_f32_3E000000 : Ideal.ofBits .f32 0x3E000000#32 = ((1 / 8 : ℝ) : EReal) := by
  simp [Ideal.ofBits, Ideal.ieee, -EReal.coe_mul]; norm_num

/-- The `f32` pattern `0xFF800000` (sign `1`, exponent all ones, significand `0`) denotes `-∞`,
    the bottom of the extended reals. -/
theorem ofBits_f32_FF800000 : Ideal.ofBits .f32 0xFF800000#32 = (⊥ : EReal) := by
  simp [Ideal.ofBits, Ideal.ieee]

/-- The `f32` pattern of all zero bits denotes `0`. -/
theorem ofBits_f32_00000000 : Ideal.ofBits .f32 0x00000000#32 = 0 := Ideal.ofBits_zero_f32

/-! ### Scaling a dot product -/

/-- Scaling one factor of each product by `1/64` and scaling both factors by `1/8` give the same
    sum, because `(1/8) · (1/8) = 1/64`: both are `(∑ d, q d · k d) / 64`. Left form. -/
theorem scaled_dot_left {ι : Type u} [Fintype ι] (q k : ι → ℝ) :
    ∑ d, ((((q d : ℝ) : EReal) * ((1 / 64 : ℝ) : EReal)) * ((k d : ℝ) : EReal))
      = (((∑ d, q d * k d) / 64 : ℝ) : EReal) := by
  rw [Finset.sum_div, ← coe_sum]
  refine Finset.sum_congr rfl fun d _ => ?_
  rw [← EReal.coe_mul, ← EReal.coe_mul]
  congr 1; ring

/-- Right form: `∑ d, (q d · (1/8)) · (k d · (1/8)) = (∑ d, q d · k d) / 64`. -/
theorem scaled_dot_right {ι : Type u} [Fintype ι] (q k : ι → ℝ) :
    ∑ d, ((((q d : ℝ) : EReal) * ((1 / 8 : ℝ) : EReal)) * (((k d : ℝ) : EReal) * ((1 / 8 : ℝ) : EReal)))
      = (((∑ d, q d * k d) / 64 : ℝ) : EReal) := by
  rw [Finset.sum_div, ← coe_sum]
  refine Finset.sum_congr rfl fun d _ => ?_
  rw [← EReal.coe_mul, ← EReal.coe_mul, ← EReal.coe_mul]
  congr 1; ring

/-- The two scalings agree: `∑ d, (q d · (1/64)) · k d = ∑ d, (q d · (1/8)) · (k d · (1/8))`. -/
theorem scaled_dot_eq {ι : Type u} [Fintype ι] (q k : ι → ℝ) :
    ∑ d, ((((q d : ℝ) : EReal) * ((1 / 64 : ℝ) : EReal)) * ((k d : ℝ) : EReal))
      = ∑ d, ((((q d : ℝ) : EReal) * ((1 / 8 : ℝ) : EReal)) * (((k d : ℝ) : EReal) * ((1 / 8 : ℝ) : EReal))) := by
  rw [scaled_dot_left, scaled_dot_right]

/-! ### A maximum of reals is a real -/

/-- The maximum of `-∞` and a real is that real. -/
theorem max_bot_coe (r : ℝ) : max (⊥ : EReal) (r : EReal) = (r : EReal) := max_eq_right bot_le

/-- The maximum of a real and `-∞` is that real. -/
theorem max_coe_bot (r : ℝ) : max (r : EReal) (⊥ : EReal) = (r : EReal) := max_eq_left bot_le

/-- The maximum of two coerced reals is the coerced maximum: the coercion is monotone. -/
theorem max_coe_coe (a b : ℝ) : max (a : EReal) (b : EReal) = ((max a b : ℝ) : EReal) :=
  (Monotone.map_max (fun _ _ h => EReal.coe_le_coe_iff.mpr h)).symm

/-- Folding `max` from `-∞` over a nonempty finite set of extended reals, each of which is a real,
    gives a real: the set's greatest element. -/
theorem exists_fold_max_eq_coe' {ι : Type u} (s : Finset ι) (hs : s.Nonempty) (g : ι → EReal)
    (hg : ∀ k ∈ s, ∃ r : ℝ, g k = (r : EReal)) :
    ∃ r : ℝ, s.fold max (⊥ : EReal) g = (r : EReal) := by
  classical
  induction s using Finset.induction_on with
  | empty => exact absurd hs Finset.not_nonempty_empty
  | insert a s ha ih =>
    obtain ⟨ra, hra⟩ := hg a (Finset.mem_insert_self a s)
    rw [Finset.fold_insert ha, hra]
    rcases s.eq_empty_or_nonempty with rfl | hne
    · exact ⟨ra, by rw [Finset.fold_empty, max_coe_bot]⟩
    · obtain ⟨r, hr⟩ := ih hne fun k hk => hg k (Finset.mem_insert_of_mem hk)
      exact ⟨max ra r, by rw [hr, max_coe_coe]⟩

/-- Folding `max` from `-∞` over a nonempty finite type of coerced reals gives a coerced real. -/
theorem exists_fold_max_eq_coe {ι : Type u} [Fintype ι] [Nonempty ι] (f : ι → ℝ) :
    ∃ r : ℝ, (Finset.univ.fold max (⊥ : EReal) fun k => ((f k : ℝ) : EReal)) = (r : EReal) :=
  exists_fold_max_eq_coe' Finset.univ Finset.univ_nonempty _ fun k _ => ⟨f k, rfl⟩

/-- The same when the fold starts from the `f32` pattern of `-∞` and runs over any function whose
    values are reals — the shape a row maximum of a float vector takes at the ideal values. -/
theorem exists_fold_max_ofBits_eq_coe {ι : Type u} [Fintype ι] [Nonempty ι] (g : ι → EReal)
    (hg : ∀ k, ∃ r : ℝ, g k = (r : EReal)) :
    ∃ r : ℝ, Finset.univ.fold max (FloatOps.ofBits (F := Ideal) .f32 0xFF800000#32) g = (r : EReal) := by
  rw [Ideal.ofBits_def, ofBits_f32_FF800000]
  exact exists_fold_max_eq_coe' Finset.univ Finset.univ_nonempty g fun k _ => hg k

/-! ### `exp`, subtraction and division on reals -/

/-- The difference of two coerced reals is the coerced difference. -/
theorem coe_sub_coe (a b : ℝ) : (a : EReal) - (b : EReal) = ((a - b : ℝ) : EReal) := (EReal.coe_sub a b).symm

/-- `exp` of a real is the real exponential. -/
theorem exp_coe (r : ℝ) : Ideal.exp (r : EReal) = ((Real.exp r : ℝ) : EReal) := rfl

/-- `exp` of a difference of reals is the real exponential of the difference. -/
theorem exp_coe_sub_coe (a b : ℝ) : Ideal.exp ((a : EReal) - (b : EReal)) = ((Real.exp (a - b) : ℝ) : EReal) := by
  rw [coe_sub_coe, exp_coe]

/-- `-∞` minus a real is `-∞`, whose exponential is `0`. -/
theorem exp_bot_sub_coe (r : ℝ) : Ideal.exp ((⊥ : EReal) - (r : EReal)) = 0 := by
  rw [EReal.bot_sub, Ideal.exp_bot]

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ### Two blocks of an online softmax -/

/-- The real identity behind the two-block accumulation. With `a = exp (m₁ - m₂)`, the numerator
    `a · ∑ₖ exp (s₀ k - m₁) · v₀ k + ∑ₖ exp (s₁ k - m₂) · v₁ k` is `exp (M - m₂)` times
    `∑ₖ exp (s k - M) · v k` over both blocks (`exp (m₁ - m₂) · exp (s - m₁) = exp (s - m₂) = exp (M - m₂) · exp (s - M)`),
    and the denominator is the same multiple of `∑ₖ exp (s k - M)`; the common factor cancels. No shift
    `m₁`, `m₂`, `M` needs to be a maximum. -/
theorem real_two_blocks {ι₀ : Type u} {ι₁ : Type v} [Fintype ι₀] [Fintype ι₁]
    (s₀ v₀ : ι₀ → ℝ) (s₁ v₁ : ι₁ → ℝ) (m₁ m₂ M : ℝ) :
    (Real.exp (m₁ - m₂) * (∑ k, Real.exp (s₀ k - m₁) * v₀ k) + ∑ k, Real.exp (s₁ k - m₂) * v₁ k)
        / (Real.exp (m₁ - m₂) * (∑ k, Real.exp (s₀ k - m₁)) + ∑ k, Real.exp (s₁ k - m₂))
      = ∑ k : ι₀ ⊕ ι₁, Real.exp (Sum.elim s₀ s₁ k - M) / (∑ j : ι₀ ⊕ ι₁, Real.exp (Sum.elim s₀ s₁ j - M))
          * Sum.elim v₀ v₁ k := by
  have hc : Real.exp (M - m₂) ≠ 0 := (Real.exp_pos _).ne'
  have h0 : ∀ k, Real.exp (m₁ - m₂) * Real.exp (s₀ k - m₁) = Real.exp (M - m₂) * Real.exp (s₀ k - M) := by
    intro k; rw [← Real.exp_add, ← Real.exp_add]; congr 1; ring
  have h1 : ∀ k, Real.exp (s₁ k - m₂) = Real.exp (M - m₂) * Real.exp (s₁ k - M) := by
    intro k; rw [← Real.exp_add]; congr 1; ring
  have hnum : Real.exp (m₁ - m₂) * (∑ k, Real.exp (s₀ k - m₁) * v₀ k) + ∑ k, Real.exp (s₁ k - m₂) * v₁ k
      = Real.exp (M - m₂) * ((∑ k, Real.exp (s₀ k - M) * v₀ k) + ∑ k, Real.exp (s₁ k - M) * v₁ k) := by
    rw [mul_add, Finset.mul_sum, Finset.mul_sum, Finset.mul_sum]
    congr 1
    · exact Finset.sum_congr rfl fun k _ => by rw [← mul_assoc, h0, mul_assoc]
    · exact Finset.sum_congr rfl fun k _ => by rw [h1, mul_assoc]
  have hden : Real.exp (m₁ - m₂) * (∑ k, Real.exp (s₀ k - m₁)) + ∑ k, Real.exp (s₁ k - m₂)
      = Real.exp (M - m₂) * ((∑ k, Real.exp (s₀ k - M)) + ∑ k, Real.exp (s₁ k - M)) := by
    rw [mul_add, Finset.mul_sum, Finset.mul_sum, Finset.mul_sum]
    congr 1
    · exact Finset.sum_congr rfl fun k _ => h0 k
    · exact Finset.sum_congr rfl fun k _ => h1 k
  rw [hnum, hden, mul_div_mul_left _ _ hc, Fintype.sum_sum_type, Fintype.sum_sum_type]
  simp only [Sum.elim_inl, Sum.elim_inr]
  rw [add_div, Finset.sum_div, Finset.sum_div]
  congr 1 <;> exact Finset.sum_congr rfl fun k _ => (div_mul_eq_mul_div _ _ _).symm

/-- The accumulated denominator of two blocks is positive as soon as one block has a term: every
    `exp` is positive. -/
theorem den_pos {ι₀ : Type u} {ι₁ : Type v} [Fintype ι₀] [Fintype ι₁] [Nonempty (ι₀ ⊕ ι₁)]
    (s₀ : ι₀ → ℝ) (s₁ : ι₁ → ℝ) (m₁ m₂ : ℝ) :
    0 < Real.exp (m₁ - m₂) * (∑ k, Real.exp (s₀ k - m₁)) + ∑ k, Real.exp (s₁ k - m₂) := by
  have h0 : 0 ≤ ∑ k, Real.exp (s₀ k - m₁) := Finset.sum_nonneg fun _ _ => (Real.exp_pos _).le
  have h1 : 0 ≤ ∑ k, Real.exp (s₁ k - m₂) := Finset.sum_nonneg fun _ _ => (Real.exp_pos _).le
  obtain ⟨x⟩ := ‹Nonempty (ι₀ ⊕ ι₁)›
  cases x with
  | inl i =>
    haveI : Nonempty ι₀ := ⟨i⟩
    have h : 0 < ∑ k, Real.exp (s₀ k - m₁) := Finset.sum_pos (fun _ _ => Real.exp_pos _) Finset.univ_nonempty
    exact add_pos_of_pos_of_nonneg (mul_pos (Real.exp_pos _) h) h1
  | inr i =>
    haveI : Nonempty ι₁ := ⟨i⟩
    have h : 0 < ∑ k, Real.exp (s₁ k - m₂) := Finset.sum_pos (fun _ _ => Real.exp_pos _) Finset.univ_nonempty
    exact add_pos_of_nonneg_of_pos (mul_nonneg (Real.exp_pos _).le h0) h

/-- Two blocks of an online softmax, on the extended reals. The first block starts from the previous
    maximum `-∞` (so its rescaling factor `exp (-∞ - m₁)` is `0`) and zero accumulators; the second
    rescales by `exp (m₁ - m₂)`. The accumulated weighted sum divided by the accumulated weight is the
    softmax-weighted sum `∑ₖ (exp (s k - M) / ∑ⱼ exp (s j - M)) · v k` over the two blocks together, for
    any real shifts `m₁`, `m₂`, `M`: all terms are reals, the shifts cancel (`real_two_blocks`), and the
    denominators are positive reals. -/
theorem two_blocks {ι₀ : Type u} {ι₁ : Type v} [Fintype ι₀] [Fintype ι₁] [Nonempty (ι₀ ⊕ ι₁)]
    (s₀ v₀ : ι₀ → ℝ) (s₁ v₁ : ι₁ → ℝ) (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : ι₀ ⊕ ι₁,
          Ideal.div (Ideal.exp (((Sum.elim s₀ s₁ k : ℝ) : EReal) - (M : EReal)))
              (∑ j : ι₀ ⊕ ι₁, Ideal.exp (((Sum.elim s₀ s₁ j : ℝ) : EReal) - (M : EReal)))
            * ((Sum.elim v₀ v₁ k : ℝ) : EReal) := by
  have hden := den_pos s₀ s₁ m₁ m₂
  have hZ : 0 < ∑ j : ι₀ ⊕ ι₁, Real.exp (Sum.elim s₀ s₁ j - M) :=
    Finset.sum_pos (fun _ _ => Real.exp_pos _) Finset.univ_nonempty
  simp only [exp_coe_sub_coe, exp_bot_sub_coe, zero_mul, zero_add, ← EReal.coe_mul, coe_sum, ← EReal.coe_add]
  rw [div_coe_coe _ hden.ne']
  simp only [div_coe_coe _ hZ.ne', ← EReal.coe_mul, coe_sum]
  rw [real_two_blocks s₀ v₀ s₁ v₁ m₁ m₂ M]

/-- The same statement when every accumulated sum is written as an initial value `0` plus the sum
    (`0 + x = x`). -/
theorem two_blocks_zero_add {ι₀ : Type u} {ι₁ : Type v} [Fintype ι₀] [Fintype ι₁] [Nonempty (ι₀ ⊕ ι₁)]
    (s₀ v₀ : ι₀ → ℝ) (s₁ v₁ : ι₁ → ℝ) (m₁ m₂ M : ℝ) :
    Ideal.div
        (Ideal.exp ((m₁ : EReal) - (m₂ : EReal))
            * (Ideal.exp ((⊥ : EReal) - (m₁ : EReal)) * 0
                + (0 + ∑ k, Ideal.exp ((s₀ k : EReal) - (m₁ : EReal)) * (v₀ k : EReal)))
          + (0 + ∑ k, Ideal.exp ((s₁ k : EReal) - (m₂ : EReal)) * (v₁ k : EReal)))
        (Ideal.exp ((m₁ : EReal) - (m₂ : EReal))
            * (Ideal.exp ((⊥ : EReal) - (m₁ : EReal)) * 0
                + (0 + ∑ k, Ideal.exp ((s₀ k : EReal) - (m₁ : EReal))))
          + (0 + ∑ k, Ideal.exp ((s₁ k : EReal) - (m₂ : EReal))))
      = ∑ k : ι₀ ⊕ ι₁,
          Ideal.div (Ideal.exp (((Sum.elim s₀ s₁ k : ℝ) : EReal) - (M : EReal)))
              (0 + ∑ j : ι₀ ⊕ ι₁, Ideal.exp (((Sum.elim s₀ s₁ j : ℝ) : EReal) - (M : EReal)))
            * ((Sum.elim v₀ v₁ k : ℝ) : EReal) := by
  simp only [zero_add]
  exact two_blocks s₀ v₀ s₁ v₁ m₁ m₂ M

/-- Two consecutive blocks of `n₀` and `n₁` keys against one row of `n₀ + n₁` keys: the sum over
    `Fin (n₀ + n₁)` splits into its first `n₀` indices (`Fin.castAdd`) and its last `n₁`
    (`Fin.natAdd`), which are the two blocks' own indices. The blocks' scores and values are given
    as functions of their own with the equations that tie them to the row's. -/
theorem two_blocks_fin (n₀ n₁ : ℕ) [NeZero n₀] (s₀ v₀ : Fin n₀ → ℝ) (s₁ v₁ : Fin n₁ → ℝ)
    (s v : Fin (n₀ + n₁) → ℝ)
    (hs₀ : ∀ k, s (Fin.castAdd n₁ k) = s₀ k) (hs₁ : ∀ k, s (Fin.natAdd n₀ k) = s₁ k)
    (hv₀ : ∀ k, v (Fin.castAdd n₁ k) = v₀ k) (hv₁ : ∀ k, v (Fin.natAdd n₀ k) = v₁ k) (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : Fin (n₀ + n₁),
          Ideal.div (Ideal.exp ((s k : EReal) - (M : EReal)))
              (∑ j : Fin (n₀ + n₁), Ideal.exp ((s j : EReal) - (M : EReal)))
            * (v k : EReal) := by
  rw [two_blocks s₀ v₀ s₁ v₁ m₁ m₂ M]
  simp only [Fintype.sum_sum_type, Fin.sum_univ_add, Sum.elim_inl, Sum.elim_inr, hs₀, hs₁, hv₀, hv₁]

/-- Two blocks of `1024` keys against a row of `2048` keys (`1024 + 1024 = 2048`). -/
theorem two_blocks_1024 (s₀ v₀ s₁ v₁ : Fin 1024 → ℝ) (s v : Fin 2048 → ℝ)
    (hs₀ : ∀ k : Fin 1024, s (Fin.castAdd 1024 k) = s₀ k) (hs₁ : ∀ k : Fin 1024, s (Fin.natAdd 1024 k) = s₁ k)
    (hv₀ : ∀ k : Fin 1024, v (Fin.castAdd 1024 k) = v₀ k) (hv₁ : ∀ k : Fin 1024, v (Fin.natAdd 1024 k) = v₁ k)
    (m₁ m₂ M : ℝ) :
    Ideal.div
        (Ideal.exp ((m₁ : EReal) - (m₂ : EReal))
            * (Ideal.exp ((⊥ : EReal) - (m₁ : EReal)) * 0
                + ∑ k, Ideal.exp ((s₀ k : EReal) - (m₁ : EReal)) * (v₀ k : EReal))
          + ∑ k, Ideal.exp ((s₁ k : EReal) - (m₂ : EReal)) * (v₁ k : EReal))
        (Ideal.exp ((m₁ : EReal) - (m₂ : EReal))
            * (Ideal.exp ((⊥ : EReal) - (m₁ : EReal)) * 0 + ∑ k, Ideal.exp ((s₀ k : EReal) - (m₁ : EReal)))
          + ∑ k, Ideal.exp ((s₁ k : EReal) - (m₂ : EReal)))
      = ∑ k : Fin 2048,
          Ideal.div (Ideal.exp ((s k : EReal) - (M : EReal)))
              (∑ j : Fin 2048, Ideal.exp ((s j : EReal) - (M : EReal)))
            * (v k : EReal) :=
  two_blocks_fin 1024 1024 s₀ v₀ s₁ v₁ s v hs₀ hs₁ hv₀ hv₁ m₁ m₂ M

/-- The index maps of that split, by value: the first block's key `k` is the row's key `k`. -/
theorem castAdd_1024_val (k : Fin 1024) : ((Fin.castAdd 1024 k : Fin 2048)).val = k.val := rfl
/-- The second block's key `k` is the row's key `1024 + k`. -/
theorem natAdd_1024_val (k : Fin 1024) : ((Fin.natAdd 1024 k : Fin 2048)).val = 1024 + k.val := rfl

end Cert.Lib.OnlineSoftmax

end
-- ==== Proof.AttnFlash.lean ====
/-
  The same attention computed in two key blocks with a running maximum ("online softmax"), and that
  it is the plain formula when the inputs are real numbers.

  The 2048 key tokens are walked in two blocks of 1024. After block 1 the running maximum is
  m₁ = max(−∞, max over the block's logits), the denominator l₁ = e^(−∞ − m₁)·0 + Σ e^(s − m₁) and the
  accumulator acc₁ = e^(−∞ − m₁)·0 + Σ e^(s − m₁)·v; block 2 rescales both by e^(m₁ − m₂) with
  m₂ = max(m₁, max over the block's logits) and adds its own terms. The result is
  (acc₂ / l₂ + x)·Wo + bo. The logits here scale the query row alone by 1/64 (the 16-bit word
  `0x3C80`), where the plain formula scales query and key rows by ⅛ each.

  For real inputs every logit and every maximum is a real number, 1/64 = ⅛·⅛, and
  e^(m₁ − m₂)·e^(s − m₁) = e^(s − m₂) = e^(M − m₂)·e^(s − M) for the row maximum M (indeed for any real M):
  numerator and denominator carry the common positive factor e^(M − m₂), which cancels, and the
  two blocks together are the whole row.
-/
import proofs.«103585_j80161269612898_2_alg».proof.Proof.AttnSpec
import proofs.«103585_j80161269612898_2_alg».proof.Proof.LibOnlineSoftmax

noncomputable section

open scoped BigOperators

namespace Cert.Attn

open Idealize.ShloMosaic Cert.Lib.OnlineSoftmax

section
variable (x : Fin 8 → Fin 2048 → Fin 512 → EReal) (W : Fin 512 → Fin 1536 → EReal)

/-- The logit of query token `n` against key token `mk` with the whole scale 1/64 on the query row. -/
def kscore (b : Fin 8) (n mk : Fin 2048) : EReal :=
  ∑ d : Fin 512, (qkv x W b n (qcol d) * Ideal.ofBits .bf16 0x3C80#16) * qkv x W b mk (kcol d)

/-- The running maximum after the first key block (tokens 0 … 1023), from −∞. -/
def m1 (b : Fin 8) (n : Fin 2048) : EReal :=
  max (Ideal.ofBits .f32 0xFF800000#32)
    ((Finset.univ : Finset (Fin 1024)).fold max (Ideal.ofBits .f32 0xFF800000#32)
      (fun j => kscore x W b n (Fin.castAdd 1024 j)))

/-- The first block's rescaling factor: the previous maximum is −∞. -/
def a1 (b : Fin 8) (n : Fin 2048) : EReal :=
  Ideal.exp (Ideal.ofBits .f32 0xFF800000#32 - m1 x W b n)

/-- The denominator after the first block, from 0. -/
def l1 (b : Fin 8) (n : Fin 2048) : EReal :=
  a1 x W b n * Ideal.ofBits .f32 0x00000000#32
    + ∑ j : Fin 1024, Ideal.exp (kscore x W b n (Fin.castAdd 1024 j) - m1 x W b n)

/-- The accumulator after the first block, from 0. -/
def acc1 (b : Fin 8) (n : Fin 2048) (d : Fin 512) : EReal :=
  a1 x W b n * Ideal.ofBits .f32 0x00000000#32
    + ∑ j : Fin 1024, Ideal.exp (kscore x W b n (Fin.castAdd 1024 j) - m1 x W b n) * qkv x W b (Fin.castAdd 1024 j) (vcol d)

/-- The running maximum after the second key block (tokens 1024 … 2047). -/
def m2 (b : Fin 8) (n : Fin 2048) : EReal :=
  max (m1 x W b n)
    ((Finset.univ : Finset (Fin 1024)).fold max (Ideal.ofBits .f32 0xFF800000#32)
      (fun j => kscore x W b n (Fin.natAdd 1024 j)))

/-- The second block's rescaling factor. -/
def a2 (b : Fin 8) (n : Fin 2048) : EReal :=
  Ideal.exp (m1 x W b n - m2 x W b n)

/-- The denominator after both blocks. -/
def l2 (b : Fin 8) (n : Fin 2048) : EReal :=
  a2 x W b n * l1 x W b n
    + ∑ j : Fin 1024, Ideal.exp (kscore x W b n (Fin.natAdd 1024 j) - m2 x W b n)

/-- The accumulator after both blocks. -/
def acc2 (b : Fin 8) (n : Fin 2048) (d : Fin 512) : EReal :=
  a2 x W b n * acc1 x W b n d
    + ∑ j : Fin 1024, Ideal.exp (kscore x W b n (Fin.natAdd 1024 j) - m2 x W b n) * qkv x W b (Fin.natAdd 1024 j) (vcol d)

/-- The blockwise result: the normalised accumulator plus the residual `x`, projected by `Wo`, plus the bias. -/
def flashOut (Wo : Fin 512 → Fin 512 → EReal) (bo : Fin 512 → EReal) (b : Fin 8) (n : Fin 2048) (e : Fin 512) : EReal :=
  (∑ d : Fin 512, (Ideal.div (acc2 x W b n d) (l2 x W b n) + x b n d) * Wo d e) + bo e

end

/-! ## Real inputs -/

section Real
variable (xr : Fin 8 → Fin 2048 → Fin 512 → ℝ) (Wr : Fin 512 → Fin 1536 → ℝ)

/-- The fused projection of real inputs, as a real number. -/
def qkvR (b : Fin 8) (n : Fin 2048) (j : Fin 1536) : ℝ := ∑ d : Fin 512, xr b n d * Wr d j

/-- The logit of real inputs, as a real number: the inner product of the query and key rows over 64. -/
def scoreR (b : Fin 8) (n m : Fin 2048) : ℝ :=
  (∑ d : Fin 512, qkvR xr Wr b n (qcol d) * qkvR xr Wr b m (kcol d)) / 64

/-- The projection of real inputs is a real number. -/
theorem qkv_coe (b : Fin 8) (n : Fin 2048) (j : Fin 1536) :
    qkv (fun b n d => ((xr b n d : ℝ) : EReal)) (fun d j => ((Wr d j : ℝ) : EReal)) b n j = ((qkvR xr Wr b n j : ℝ) : EReal) := by
  show ∑ d : Fin 512, ((xr b n d : ℝ) : EReal) * ((Wr d j : ℝ) : EReal) = _
  exact coe_sum_mul (fun d => xr b n d) (fun d => Wr d j)

/-- The logit with 1/64 on the query row is the real logit. -/
theorem kscore_coe (b : Fin 8) (n mk : Fin 2048) :
    kscore (fun b n d => ((xr b n d : ℝ) : EReal)) (fun d j => ((Wr d j : ℝ) : EReal)) b n mk
      = ((scoreR xr Wr b n mk : ℝ) : EReal) := by
  unfold kscore
  simp only [qkv_coe, ofBits_bf16_3C80]
  exact scaled_dot_left (fun d => qkvR xr Wr b n (qcol d)) (fun d => qkvR xr Wr b mk (kcol d))

/-- The logit with ⅛ on both rows is the same real logit: ⅛ · ⅛ = 1/64. -/
theorem score_coe (b : Fin 8) (n m : Fin 2048) :
    score (fun b n d => ((xr b n d : ℝ) : EReal)) (fun d j => ((Wr d j : ℝ) : EReal)) b n m
      = ((scoreR xr Wr b n m : ℝ) : EReal) := by
  unfold score
  simp only [qkv_coe, ofBits_f32_3E000000]
  exact scaled_dot_right (fun d => qkvR xr Wr b n (qcol d)) (fun d => qkvR xr Wr b m (kcol d))

/-- For real inputs the two-block accumulation, normalised, is the softmax-weighted sum of the values. -/
theorem flash_attn_eq (b : Fin 8) (n : Fin 2048) (d : Fin 512) :
    Ideal.div (acc2 (fun b n d => ((xr b n d : ℝ) : EReal)) (fun d j => ((Wr d j : ℝ) : EReal)) b n d)
        (l2 (fun b n d => ((xr b n d : ℝ) : EReal)) (fun d j => ((Wr d j : ℝ) : EReal)) b n)
      = attnV (fun b n d => ((xr b n d : ℝ) : EReal)) (fun d j => ((Wr d j : ℝ) : EReal)) b n d := by
  haveI : Nonempty (Fin 1024) := ⟨⟨0, by decide⟩⟩
  haveI : Nonempty (Fin 2048) := ⟨⟨0, by decide⟩⟩
  have hk0 : ∀ j : Fin 1024, kscore (fun b n d => ((xr b n d : ℝ) : EReal)) (fun d j => ((Wr d j : ℝ) : EReal)) b n (Fin.castAdd 1024 j)
      = ((scoreR xr Wr b n (Fin.castAdd 1024 j) : ℝ) : EReal) := fun j => kscore_coe xr Wr b n _
  have hk1 : ∀ j : Fin 1024, kscore (fun b n d => ((xr b n d : ℝ) : EReal)) (fun d j => ((Wr d j : ℝ) : EReal)) b n (Fin.natAdd 1024 j)
      = ((scoreR xr Wr b n (Fin.natAdd 1024 j) : ℝ) : EReal) := fun j => kscore_coe xr Wr b n _
  have hv0 : ∀ j : Fin 1024, qkv (fun b n d => ((xr b n d : ℝ) : EReal)) (fun d j => ((Wr d j : ℝ) : EReal)) b (Fin.castAdd 1024 j) (vcol d)
      = ((qkvR xr Wr b (Fin.castAdd 1024 j) (vcol d) : ℝ) : EReal) := fun j => qkv_coe xr Wr b _ _
  have hv1 : ∀ j : Fin 1024, qkv (fun b n d => ((xr b n d : ℝ) : EReal)) (fun d j => ((Wr d j : ℝ) : EReal)) b (Fin.natAdd 1024 j) (vcol d)
      = ((qkvR xr Wr b (Fin.natAdd 1024 j) (vcol d) : ℝ) : EReal) := fun j => qkv_coe xr Wr b _ _
  -- the three maxima are real numbers
  obtain ⟨F1, hF1⟩ := exists_fold_max_ofBits_eq_coe
    (fun j : Fin 1024 => kscore (fun b n d => ((xr b n d : ℝ) : EReal)) (fun d j => ((Wr d j : ℝ) : EReal)) b n (Fin.castAdd 1024 j))
    (fun j => ⟨_, hk0 j⟩)
  obtain ⟨F2, hF2⟩ := exists_fold_max_ofBits_eq_coe
    (fun j : Fin 1024 => kscore (fun b n d => ((xr b n d : ℝ) : EReal)) (fun d j => ((Wr d j : ℝ) : EReal)) b n (Fin.natAdd 1024 j))
    (fun j => ⟨_, hk1 j⟩)
  obtain ⟨FM, hFM⟩ := exists_fold_max_ofBits_eq_coe
    (fun m : Fin 2048 => score (fun b n d => ((xr b n d : ℝ) : EReal)) (fun d j => ((Wr d j : ℝ) : EReal)) b n m)
    (fun m => ⟨_, score_coe xr Wr b n m⟩)
  have hm1 : m1 (fun b n d => ((xr b n d : ℝ) : EReal)) (fun d j => ((Wr d j : ℝ) : EReal)) b n = ((F1 : ℝ) : EReal) := by
    unfold m1
    refine (congrArg (max (Ideal.ofBits .f32 0xFF800000#32)) hF1).trans ?_
    rw [ofBits_f32_FF800000, max_bot_coe]
  have hm2 : m2 (fun b n d => ((xr b n d : ℝ) : EReal)) (fun d j => ((Wr d j : ℝ) : EReal)) b n = ((max F1 F2 : ℝ) : EReal) := by
    unfold m2
    rw [hm1]
    refine (congrArg (max ((F1 : ℝ) : EReal)) hF2).trans ?_
    rw [max_coe_coe]
  have hM : rowMax (fun b n d => ((xr b n d : ℝ) : EReal)) (fun d j => ((Wr d j : ℝ) : EReal)) b n = ((FM : ℝ) : EReal) := by
    unfold rowMax
    refine (congrArg (max (Ideal.ofBits .f32 0xFF800000#32)) hFM).trans ?_
    rw [ofBits_f32_FF800000, max_bot_coe]
  unfold acc2 l2 acc1 l1 a2 a1 attnV den ew
  rw [hm2, hm1, hM]
  simp only [hk0, hk1, hv0, hv1, score_coe, qkv_coe, ofBits_f32_FF800000, ofBits_f32_00000000, zero_add]
  exact two_blocks_1024
    (fun k => scoreR xr Wr b n (Fin.castAdd 1024 k)) (fun k => qkvR xr Wr b (Fin.castAdd 1024 k) (vcol d))
    (fun k => scoreR xr Wr b n (Fin.natAdd 1024 k)) (fun k => qkvR xr Wr b (Fin.natAdd 1024 k) (vcol d))
    (fun m => scoreR xr Wr b n m) (fun m => qkvR xr Wr b m (vcol d))
    (fun _ => rfl) (fun _ => rfl) (fun _ => rfl) (fun _ => rfl) F1 (max F1 F2) FM

end Real

/-- For real inputs the blockwise result is the attention formula. -/
theorem flash_eq_ref (x : Fin 8 → Fin 2048 → Fin 512 → EReal) (W : Fin 512 → Fin 1536 → EReal)
    (Wo : Fin 512 → Fin 512 → EReal) (bo : Fin 512 → EReal)
    (hx : ∀ b n d, ∃ r : ℝ, x b n d = (r : EReal)) (hW : ∀ d j, ∃ r : ℝ, W d j = (r : EReal))
    (b : Fin 8) (n : Fin 2048) (e : Fin 512) :
    flashOut x W Wo bo b n e = refOut x W Wo bo b n e := by
  choose xr hxr using hx
  choose Wr hWr using hW
  obtain rfl : x = fun b n d => ((xr b n d : ℝ) : EReal) := funext fun b => funext fun n => funext fun d => hxr b n d
  obtain rfl : W = fun d j => ((Wr d j : ℝ) : EReal) := funext fun d => funext fun j => hWr d j
  unfold flashOut refOut
  refine congrArg (· + bo e) (Finset.sum_congr rfl fun d _ => ?_)
  rw [flash_attn_eq xr Wr b n d]

end Cert.Attn

end
-- ==== Proof.KernelIdeal.AttnCompose.lean ====
/-
  The attention kernel's two key-block steps, composed, are the two-block formula. One query block
  of 512 tokens is held against the first key block (the running maximum, denominator and numerator
  start from −∞, 0 and 0) and then against the second (they start from what the first step left);
  the second step ends with the normalisation, the residual, the output projection and the bias.
  Read at a query row `r`, with the loaded blocks' entries named as the projections of the tokens
  they hold, each carried value is the corresponding quantity of `Cert.Attn`: the scores are
  `kscore`, the two maxima `m1` and `m2`, the denominators `l1` and `l2`, the numerators `acc1` and
  `acc2`, and the stored block is `flashOut`.
-/
import proofs.«103585_j80161269612898_2_alg».proof.Proof.KernelIdeal.AttnPayloads
import proofs.«103585_j80161269612898_2_alg».proof.Proof.AttnFlash

noncomputable section

open scoped BigOperators

namespace Cert.KernelIdeal.Hand

open Cert.KernelIdeal Cert.KernelIdeal.Gen Idealize.ShloMosaic Idealize.ShloMosaic.ValueIdx Cert.Attn

section
variable (x : Fin 8 → Fin 2048 → Fin 512 → EReal) (W : Fin 512 → Fin 1536 → EReal)
  (b : Fin 8) (nq : Fin 512 → Fin 2048) (q : Vec Ideal S1x512x512 .bf16)

/-! ### One key block -/

/-- The score block of a key block whose row `j` holds key token `kt j`. -/
theorem score_blk (hq : ∀ r d, q (ix3 (0 : Fin 1) r d) = qkv x W b (nq r) (qcol d))
    (k : Vec Ideal S1x1024x512 .bf16) (kt : Fin 1024 → Fin 2048)
    (hk : ∀ j d, k (ix3 (0 : Fin 1) j d) = qkv x W b (kt j) (kcol d)) (r : Fin 512) (j : Fin 1024) :
    k1_pay7 (F := Ideal) q k (ix2 r j) = kscore x W b (nq r) (kt j) := by
  refine (pay7_apply q k r j).trans ?_
  unfold kscore
  exact Finset.sum_congr rfl fun d _ => by rw [hq, hk]

/-- The running maximum after a key block, from the previous one `mp`. -/
theorem max_blk (hq : ∀ r d, q (ix3 (0 : Fin 1) r d) = qkv x W b (nq r) (qcol d))
    (k : Vec Ideal S1x1024x512 .bf16) (kt : Fin 1024 → Fin 2048)
    (hk : ∀ j d, k (ix3 (0 : Fin 1) j d) = qkv x W b (kt j) (kcol d)) (mp : Vec Ideal S512x1 .f32) (r : Fin 512) :
    k1_pay8 (F := Ideal) q k mp (ix2 r (0 : Fin 1))
      = max (mp (ix2 r (0 : Fin 1)))
          ((Finset.univ : Finset (Fin 1024)).fold max (Ideal.ofBits .f32 0xFF800000#32)
            (fun j => kscore x W b (nq r) (kt j))) := by
  refine (pay8_apply q k mp r).trans ?_
  exact congrArg (fun f => max (mp (ix2 r (0 : Fin 1)))
      (Finset.fold max (Ideal.ofBits .f32 0xFF800000#32) f (Finset.univ : Finset (Fin 1024))))
    (funext fun j => score_blk x W b nq q hq k kt hk r j)

/-! ### The first key block: from −∞, 0, 0 -/

section First
variable (hq : ∀ r d, q (ix3 (0 : Fin 1) r d) = qkv x W b (nq r) (qcol d))
  (k0 v0 : Vec Ideal S1x1024x512 .bf16)
  (hk0 : ∀ j d, k0 (ix3 (0 : Fin 1) j d) = qkv x W b (Fin.castAdd 1024 j) (kcol d))
  (hv0 : ∀ j d, v0 (ix3 (0 : Fin 1) j d) = qkv x W b (Fin.castAdd 1024 j) (vcol d))
include hq hk0

/-- The maximum the first step leaves. -/
theorem m_first (r : Fin 512) :
    k1_pay2 (F := Ideal) (k1_pay8 (F := Ideal) q k0 (k1_pay4 (F := Ideal))) (ix2 r (0 : Fin 1)) = m1 x W b (nq r) := by
  rw [pay2_apply, max_blk x W b nq q hq k0 (fun j => Fin.castAdd 1024 j) hk0, pay4_apply]
  rfl

/-- The first step's rescaling factor. -/
theorem a_first (r : Fin 512) :
    k1_pay9 (F := Ideal) q k0 (k1_pay4 (F := Ideal)) (k1_pay4 (F := Ideal)) (ix2 r (0 : Fin 1)) = a1 x W b (nq r) := by
  rw [pay9_apply, max_blk x W b nq q hq k0 (fun j => Fin.castAdd 1024 j) hk0, pay4_apply]
  rfl

/-- The first step's weights. -/
theorem p_first (r : Fin 512) (j : Fin 1024) :
    k1_pay10 (F := Ideal) q k0 (k1_pay4 (F := Ideal)) (ix2 r j)
      = Ideal.exp (kscore x W b (nq r) (Fin.castAdd 1024 j) - m1 x W b (nq r)) := by
  rw [pay10_apply, score_blk x W b nq q hq k0 (fun j => Fin.castAdd 1024 j) hk0,
    max_blk x W b nq q hq k0 (fun j => Fin.castAdd 1024 j) hk0, pay4_apply]
  rfl

/-- The denominator the first step leaves. -/
theorem l_first (r : Fin 512) :
    k1_pay11 (F := Ideal) q k0 (k1_pay4 (F := Ideal)) (k1_pay4 (F := Ideal)) (k1_pay5 (F := Ideal)) (ix2 r (0 : Fin 1))
      = l1 x W b (nq r) := by
  rw [pay11_apply, a_first x W b nq q hq k0 hk0, pay5_apply]
  unfold l1
  exact congrArg (a1 x W b (nq r) * Ideal.ofBits .f32 0x00000000#32 + ·)
    (Finset.sum_congr rfl fun j _ => p_first x W b nq q hq k0 hk0 r j)

include hv0 in
/-- The numerator the first step leaves. -/
theorem acc_first (r d : Fin 512) :
    k1_pay1 (F := Ideal) (k1_pay9 (F := Ideal) q k0 (k1_pay4 (F := Ideal)) (k1_pay4 (F := Ideal)))
        (k1_pay10 (F := Ideal) q k0 (k1_pay4 (F := Ideal))) (k1_pay12 (F := Ideal) v0) (k1_pay6 (F := Ideal)) (ix2 r d)
      = acc1 x W b (nq r) d := by
  rw [pay1_apply, a_first x W b nq q hq k0 hk0, pay6_apply]
  unfold acc1
  exact congrArg (a1 x W b (nq r) * Ideal.ofBits .f32 0x00000000#32 + ·)
    (Finset.sum_congr rfl fun j _ => by rw [p_first x W b nq q hq k0 hk0 r j, pay12_apply, hv0])

end First

/-! ### The second key block: from what the first left -/

section Second
variable (hq : ∀ r d, q (ix3 (0 : Fin 1) r d) = qkv x W b (nq r) (qcol d))
  (k1 v1 : Vec Ideal S1x1024x512 .bf16)
  (hk1 : ∀ j d, k1 (ix3 (0 : Fin 1) j d) = qkv x W b (Fin.natAdd 1024 j) (kcol d))
  (hv1 : ∀ j d, v1 (ix3 (0 : Fin 1) j d) = qkv x W b (Fin.natAdd 1024 j) (vcol d))
  (s0 s1 : Vec Ideal S512x1 .f32) (s2 : Vec Ideal S512x512 .f32)
  (hs0 : ∀ r, s0 (ix2 r (0 : Fin 1)) = m1 x W b (nq r))
  (hs1 : ∀ r, s1 (ix2 r (0 : Fin 1)) = l1 x W b (nq r))
  (hs2 : ∀ r d, s2 (ix2 r d) = acc1 x W b (nq r) d)
include hq hk1 hs0

/-- The maximum after the second step. -/
theorem m_second (r : Fin 512) :
    k1_pay8 (F := Ideal) q k1 s0 (ix2 r (0 : Fin 1)) = m2 x W b (nq r) := by
  rw [max_blk x W b nq q hq k1 (fun j => Fin.natAdd 1024 j) hk1, hs0]
  rfl

/-- The second step's rescaling factor. -/
theorem a_second (r : Fin 512) :
    k1_pay9 (F := Ideal) q k1 s0 s0 (ix2 r (0 : Fin 1)) = a2 x W b (nq r) := by
  rw [pay9_apply, m_second x W b nq q hq k1 hk1 s0 hs0, hs0]
  rfl

/-- The second step's weights. -/
theorem p_second (r : Fin 512) (j : Fin 1024) :
    k1_pay10 (F := Ideal) q k1 s0 (ix2 r j)
      = Ideal.exp (kscore x W b (nq r) (Fin.natAdd 1024 j) - m2 x W b (nq r)) := by
  rw [pay10_apply, score_blk x W b nq q hq k1 (fun j => Fin.natAdd 1024 j) hk1, m_second x W b nq q hq k1 hk1 s0 hs0]

include hs1 in
/-- The denominator after the second step. -/
theorem l_second (r : Fin 512) :
    k1_pay11 (F := Ideal) q k1 s0 s0 s1 (ix2 r (0 : Fin 1)) = l2 x W b (nq r) := by
  rw [pay11_apply, a_second x W b nq q hq k1 hk1 s0 hs0, hs1]
  unfold l2
  exact congrArg (a2 x W b (nq r) * l1 x W b (nq r) + ·)
    (Finset.sum_congr rfl fun j _ => p_second x W b nq q hq k1 hk1 s0 hs0 r j)

include hv1 hs2 in
/-- The numerator after the second step. -/
theorem acc_second (r d : Fin 512) :
    k1_pay1 (F := Ideal) (k1_pay9 (F := Ideal) q k1 s0 s0) (k1_pay10 (F := Ideal) q k1 s0) (k1_pay12 (F := Ideal) v1) s2 (ix2 r d)
      = acc2 x W b (nq r) d := by
  rw [pay1_apply, a_second x W b nq q hq k1 hk1 s0 hs0, hs2]
  unfold acc2
  exact congrArg (a2 x W b (nq r) * acc1 x W b (nq r) d + ·)
    (Finset.sum_congr rfl fun j _ => by rw [p_second x W b nq q hq k1 hk1 s0 hs0 r j, pay12_apply, hv1])

end Second

end

/-! ### The two steps and the epilogue -/

/-- The block the second step stores, at row `r` and column `e`, is the two-block formula at the
    query token `nq r`. -/
theorem compose_flash (x : Fin 8 → Fin 2048 → Fin 512 → EReal) (W : Fin 512 → Fin 1536 → EReal)
    (Wo : Fin 512 → Fin 512 → EReal) (bo : Fin 512 → EReal) (b : Fin 8) (nq : Fin 512 → Fin 2048)
    (q : Vec Ideal S1x512x512 .bf16) (k0 v0 k1 v1 : Vec Ideal S1x1024x512 .bf16)
    (xb : Vec Ideal S1x512x512 .f32) (wo : Vec Ideal S512x512 .f32) (bb : Vec Ideal S1x512 .f32)
    (hq : ∀ r d, q (ix3 (0 : Fin 1) r d) = qkv x W b (nq r) (qcol d))
    (hk0 : ∀ j d, k0 (ix3 (0 : Fin 1) j d) = qkv x W b (Fin.castAdd 1024 j) (kcol d))
    (hv0 : ∀ j d, v0 (ix3 (0 : Fin 1) j d) = qkv x W b (Fin.castAdd 1024 j) (vcol d))
    (hk1 : ∀ j d, k1 (ix3 (0 : Fin 1) j d) = qkv x W b (Fin.natAdd 1024 j) (kcol d))
    (hv1 : ∀ j d, v1 (ix3 (0 : Fin 1) j d) = qkv x W b (Fin.natAdd 1024 j) (vcol d))
    (hxb : ∀ r d, xb (ix3 (0 : Fin 1) r d) = x b (nq r) d) (hwo : ∀ d e, wo (ix2 d e) = Wo d e)
    (hbb : ∀ e, bb (ix2 (0 : Fin 1) e) = bo e) (r e : Fin 512) :
    k1_pay3 (F := Ideal)
        (k1_pay1 (F := Ideal)
          (k1_pay9 (F := Ideal) q k1 (k1_pay2 (F := Ideal) (k1_pay8 (F := Ideal) q k0 (k1_pay4 (F := Ideal))))
            (k1_pay2 (F := Ideal) (k1_pay8 (F := Ideal) q k0 (k1_pay4 (F := Ideal)))))
          (k1_pay10 (F := Ideal) q k1 (k1_pay2 (F := Ideal) (k1_pay8 (F := Ideal) q k0 (k1_pay4 (F := Ideal)))))
          (k1_pay12 (F := Ideal) v1)
          (k1_pay1 (F := Ideal) (k1_pay9 (F := Ideal) q k0 (k1_pay4 (F := Ideal)) (k1_pay4 (F := Ideal)))
            (k1_pay10 (F := Ideal) q k0 (k1_pay4 (F := Ideal))) (k1_pay12 (F := Ideal) v0) (k1_pay6 (F := Ideal))))
        (k1_pay11 (F := Ideal) q k1 (k1_pay2 (F := Ideal) (k1_pay8 (F := Ideal) q k0 (k1_pay4 (F := Ideal))))
          (k1_pay2 (F := Ideal) (k1_pay8 (F := Ideal) q k0 (k1_pay4 (F := Ideal))))
          (k1_pay11 (F := Ideal) q k0 (k1_pay4 (F := Ideal)) (k1_pay4 (F := Ideal)) (k1_pay5 (F := Ideal))))
        xb wo bb (ix3 (0 : Fin 1) r e)
      = flashOut x W Wo bo b (nq r) e := by
  have hs0 := m_first x W b nq q hq k0 hk0
  have hs1 := l_first x W b nq q hq k0 hk0
  have hs2 := acc_first x W b nq q hq k0 v0 hk0 hv0
  generalize k1_pay2 (F := Ideal) (k1_pay8 (F := Ideal) q k0 (k1_pay4 (F := Ideal))) = s0 at hs0 ⊢
  generalize k1_pay11 (F := Ideal) q k0 (k1_pay4 (F := Ideal)) (k1_pay4 (F := Ideal)) (k1_pay5 (F := Ideal)) = s1 at hs1 ⊢
  generalize k1_pay1 (F := Ideal) (k1_pay9 (F := Ideal) q k0 (k1_pay4 (F := Ideal)) (k1_pay4 (F := Ideal)))
    (k1_pay10 (F := Ideal) q k0 (k1_pay4 (F := Ideal))) (k1_pay12 (F := Ideal) v0) (k1_pay6 (F := Ideal)) = s2 at hs2 ⊢
  rw [pay3_apply, hbb]
  unfold flashOut
  refine congrArg (· + bo e) (Finset.sum_congr rfl fun d _ => ?_)
  rw [acc_second x W b nq q hq k1 v1 hk1 hv1 s0 s2 hs0 hs2, l_second x W b nq q hq k1 hk1 s0 s1 hs0 hs1, hxb, hwo]

end Cert.KernelIdeal.Hand

end
-- ==== Proof.KernelIdeal.Value.lean ====
/-
  What the kernel program leaves in its result array, index by index. The projection kernel leaves x·W (row 2048·b + n of
  the flat array is token n of sequence b); unflattened, its three column thirds are the queries, keys and values. The
  attention kernel's odd point (b, qi, 1) finishes the output block of query tokens 512·qi … 512·qi + 511 of sequence b
  from the two key blocks: the even point before it leaves the first block's running maximum, denominator and accumulator,
  the odd point folds in the second block, normalises, adds the residual, projects and adds the bias. So entry (b, n, e) of
  the result is the two-block formula of the arguments, which for real inputs is the softmax formula.
-/
import proofs.«103585_j80161269612898_2_alg».proof.Proof.KernelIdeal.Frame
import proofs.«103585_j80161269612898_2_alg».proof.Proof.KernelIdeal.ProjValue
import proofs.«103585_j80161269612898_2_alg».proof.Proof.KernelIdeal.AttnBlocks
import proofs.«103585_j80161269612898_2_alg».proof.Proof.KernelIdeal.HostReshapes
import proofs.«103585_j80161269612898_2_alg».proof.Proof.KernelIdeal.AttnPieces
import proofs.«103585_j80161269612898_2_alg».proof.Proof.KernelIdeal.AttnFinal
import proofs.«103585_j80161269612898_2_alg».proof.Proof.KernelIdeal.AttnCompose

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (m : (ℓ : Loc nD τ sig) → Buf (Elt Ideal) ℓ) (c : Dev nD)

/-! ## The arguments by coordinates -/

def xC : Fin 8 → Fin 2048 → Fin 512 → EReal := fun b n d => (m ((c : Thread nD τ).loc main_arg0) : S8x2048x512.Idx → Elt Ideal .f32) (ix3 b n d)
def wC : Fin 512 → Fin 1536 → EReal := fun d j => (m ((c : Thread nD τ).loc main_arg1) : S512x1536.Idx → Elt Ideal .f32) (ix2 d j)
def woC : Fin 512 → Fin 512 → EReal := fun d e => (m ((c : Thread nD τ).loc main_arg2) : S512x512.Idx → Elt Ideal .f32) (ix2 d e)
def boC : Fin 512 → EReal := fun e => (m ((c : Thread nD τ).loc main_arg3) : S512.Idx → Elt Ideal .f32) (ix1 e)

/-! ## The contents the two kernels are entered from -/

/-- The flattened input: row 2048·b + n is token n of sequence b. -/
theorem v1r_v0 (b : Fin 8) (n : Fin 2048) (d : Fin 512) :
    (V1r m c main_v0 : S16384x512.Idx → Elt Ideal .f32) (ix2 (flatRow b n) d) = xC m c b n d :=
  after0_main_v0_apply (Gen.V0 m c) b n d
theorem v1r_arg1 : V1r m c main_arg1 = m ((c : Thread nD τ).loc main_arg1) :=
  (Gen.V1_of m c main_arg1 (by decide)).trans rfl

/-- A row of the flattened input against a column of W is the fused projection's entry. -/
theorem sum_qkv (a0 : S16384x512.Idx → Elt Ideal .f32) (a1 : S512x1536.Idx → Elt Ideal .f32) (b : Fin 8) (n : Fin 2048) (j : Fin 1536)
    (h0 : ∀ d, a0 (ix2 (flatRow b n) d) = xC m c b n d) (h1 : ∀ d, a1 (ix2 d j) = wC m c d j) :
    (∑ d : Fin 512, a0 (ix2 (flatRow b n) d) * a1 (ix2 d j)) = qkv (xC m c) (wC m c) b n j := by
  unfold qkv
  exact Finset.sum_congr rfl fun d _ => by rw [h0 d, h1 d]

/-- The projection kernel's result: token n of sequence b against column j of W. -/
theorem x1_apply (b : Fin 8) (n : Fin 2048) (j : Fin 1536) :
    (X1 m c : S16384x1536.Idx → Elt Ideal .bf16) (ix2 (flatRow b n) j) = qkv (xC m c) (wC m c) b n j :=
  (proj_arrAt_of (V1r m) c _ _ rfl (v1r_arg1 m c) (flatRow b n) j).trans
    (sum_qkv m c _ _ b n j (v1r_v0 m c b n) (fun _ => rfl))

/-- Unflattened, as the attention kernel finds it. -/
theorem v3r_v2 (b : Fin 8) (n : Fin 2048) (j : Fin 1536) :
    (V3r m c main_v2 : S8x2048x1536.Idx → Elt Ideal .bf16) (ix3 b n j) = qkv (xC m c) (wC m c) b n j := by
  refine (after1_main_v2_apply (W2 m c) b n j).trans ?_
  refine Eq.trans ?_ (x1_apply m c b n j)
  exact congrFun (Function.update_self (Proc.devRef .tc main_v1) (X1 m c) (Gen.V1 m c)) (ix2 (flatRow b n) j)

/-- A buffer neither stretch writes and the projection kernel does not change reaches the attention kernel as launched. -/
theorem v3r_of_arg (r : Ref sig .tc) (h3 : r ∉ Gen.hostOps1_W) (h2 : r ∉ ([main_v1] : List (Ref sig .tc))) (h1 : r ∉ Gen.hostOps0_W) :
    V3r m c r = m ((c : Thread nD τ).loc r) :=
  (congrFun (V3_eq m c).symm _).trans ((Gen.V3_of m (outs m) c r h3).trans ((Gen.V2_of m (outs m) c r h2).trans ((Gen.V1_of m c r h1).trans rfl)))
theorem v3r_arg0 : V3r m c main_arg0 = m ((c : Thread nD τ).loc main_arg0) := v3r_of_arg m c main_arg0 (by decide) (by decide) (by decide)
theorem v3r_arg2 : V3r m c main_arg2 = m ((c : Thread nD τ).loc main_arg2) := v3r_of_arg m c main_arg2 (by decide) (by decide) (by decide)
/-- The bias as a row. -/
theorem v3r_v3 (e : Fin 512) : (V3r m c main_v3 : S1x512.Idx → Elt Ideal .f32) (ix2 (0 : Fin 1) e) = boC m c e := by
  refine (after1_main_v3_apply (W2 m c) e).trans ?_
  have h : W2 m c main_arg3 = m ((c : Thread nD τ).loc main_arg3) :=
    (Gen.V2_of m (outs m) c main_arg3 (by decide)).symm.symm.trans ?_ |>.trans rfl
  · exact congrFun h (ix1 e)
  · exact ((congrFun (V2_eq m c).symm _).trans (Gen.V2_of m (outs m) c main_arg3 (by decide))).trans ((Gen.V1_of m c main_arg3 (by decide)).trans rfl)

/-! ## The blocks of an odd point and of the even point before it -/

/-- The even point before the odd point of block (b, qi). -/
abbrev tA (b : Fin 8) (qi : Fin 4) : Fin cfg1.N := ⟨(tB b qi).val - 1, by have := (tB b qi).isLt; omega⟩
theorem tA_even (b : Fin 8) (qi : Fin 4) : (tA b qi).val % 2 = 0 := by
  show ((tB b qi).val - 1) % 2 = 0; have := tB_odd b qi; omega

theorem tB_batch (b : Fin 8) (qi : Fin 4) : b.val = (tB b qi).val / 8 := by
  show b.val = ((b.val * 4 + qi.val) * 2 + 1) / 8; have := qi.isLt; omega
theorem tA_batch (b : Fin 8) (qi : Fin 4) : b.val = (tA b qi).val / 8 := by
  show b.val = ((b.val * 4 + qi.val) * 2 + 1 - 1) / 8; have := qi.isLt; omega
theorem tB_qrow (b : Fin 8) (qi : Fin 4) (r : Fin 512) : (nqOf qi r).val = 512 * ((tB b qi).val / 2 % 4) + r.val := by
  show 512 * qi.val + r.val = 512 * (((b.val * 4 + qi.val) * 2 + 1) / 2 % 4) + r.val; have := qi.isLt; omega
theorem tA_qrow (b : Fin 8) (qi : Fin 4) (r : Fin 512) : (nqOf qi r).val = 512 * ((tA b qi).val / 2 % 4) + r.val := by
  show 512 * qi.val + r.val = 512 * (((b.val * 4 + qi.val) * 2 + 1 - 1) / 2 % 4) + r.val; have := qi.isLt; omega
theorem tB_krow (b : Fin 8) (qi : Fin 4) (j : Fin 1024) : (Fin.natAdd 1024 j : Fin 2048).val = 1024 * ((tB b qi).val % 2) + j.val := by
  show 1024 + j.val = 1024 * (((b.val * 4 + qi.val) * 2 + 1) % 2) + j.val; omega
theorem tA_krow (b : Fin 8) (qi : Fin 4) (j : Fin 1024) : (Fin.castAdd 1024 j : Fin 2048).val = 1024 * ((tA b qi).val % 2) + j.val := by
  show j.val = 1024 * (((b.val * 4 + qi.val) * 2 + 1 - 1) % 2) + j.val; omega

section Blocks
variable (b : Fin 8) (qi : Fin 4)

theorem hqB (r d : Fin 512) : (iblk1 (V3r m) c 0 (tB b qi) : Vec Ideal S1x512x512 .bf16) (ix3 (0 : Fin 1) r d) = qkv (xC m c) (wC m c) b (nqOf qi r) (qcol d) :=
  (iblk1_q_at (V3r m) c (tB b qi) r d b (nqOf qi r) (tB_batch b qi) (tB_qrow b qi r)).trans (v3r_v2 m c b (nqOf qi r) (qCol d))
theorem hqA (r d : Fin 512) : (iblk1 (V3r m) c 0 (tA b qi) : Vec Ideal S1x512x512 .bf16) (ix3 (0 : Fin 1) r d) = qkv (xC m c) (wC m c) b (nqOf qi r) (qcol d) :=
  (iblk1_q_at (V3r m) c (tA b qi) r d b (nqOf qi r) (tA_batch b qi) (tA_qrow b qi r)).trans (v3r_v2 m c b (nqOf qi r) (qCol d))
theorem hk1B (j : Fin 1024) (d : Fin 512) : (iblk1 (V3r m) c 1 (tB b qi) : Vec Ideal S1x1024x512 .bf16) (ix3 (0 : Fin 1) j d) = qkv (xC m c) (wC m c) b (Fin.natAdd 1024 j) (kcol d) :=
  (iblk1_k_at (V3r m) c (tB b qi) j d b (Fin.natAdd 1024 j) (tB_batch b qi) (tB_krow b qi j)).trans (v3r_v2 m c b (Fin.natAdd 1024 j) (kCol d))
theorem hv1B (j : Fin 1024) (d : Fin 512) : (iblk1 (V3r m) c 2 (tB b qi) : Vec Ideal S1x1024x512 .bf16) (ix3 (0 : Fin 1) j d) = qkv (xC m c) (wC m c) b (Fin.natAdd 1024 j) (vcol d) :=
  (iblk1_v_at (V3r m) c (tB b qi) j d b (Fin.natAdd 1024 j) (tB_batch b qi) (tB_krow b qi j)).trans (v3r_v2 m c b (Fin.natAdd 1024 j) (vCol d))
theorem hk0A (j : Fin 1024) (d : Fin 512) : (iblk1 (V3r m) c 1 (tA b qi) : Vec Ideal S1x1024x512 .bf16) (ix3 (0 : Fin 1) j d) = qkv (xC m c) (wC m c) b (Fin.castAdd 1024 j) (kcol d) :=
  (iblk1_k_at (V3r m) c (tA b qi) j d b (Fin.castAdd 1024 j) (tA_batch b qi) (tA_krow b qi j)).trans (v3r_v2 m c b (Fin.castAdd 1024 j) (kCol d))
theorem hv0A (j : Fin 1024) (d : Fin 512) : (iblk1 (V3r m) c 2 (tA b qi) : Vec Ideal S1x1024x512 .bf16) (ix3 (0 : Fin 1) j d) = qkv (xC m c) (wC m c) b (Fin.castAdd 1024 j) (vcol d) :=
  (iblk1_v_at (V3r m) c (tA b qi) j d b (Fin.castAdd 1024 j) (tA_batch b qi) (tA_krow b qi j)).trans (v3r_v2 m c b (Fin.castAdd 1024 j) (vCol d))
theorem hxbB (r d : Fin 512) : (iblk1 (V3r m) c 3 (tB b qi) : Vec Ideal S1x512x512 .f32) (ix3 (0 : Fin 1) r d) = xC m c b (nqOf qi r) d :=
  (iblk1_x_at (V3r m) c (tB b qi) r d b (nqOf qi r) (tB_batch b qi) (tB_qrow b qi r)).trans (congrFun (v3r_arg0 m c) (ix3 b (nqOf qi r) d))
theorem hwoB (d e : Fin 512) : (iblk1 (V3r m) c 4 (tB b qi) : Vec Ideal S512x512 .f32) (ix2 d e) = woC m c d e :=
  (iblk1_w (V3r m) c (tB b qi) d e).trans (congrFun (v3r_arg2 m c) (ix2 d e))
theorem hbbB (e : Fin 512) : (iblk1 (V3r m) c 5 (tB b qi) : Vec Ideal S1x512 .f32) (ix2 (0 : Fin 1) e) = boC m c e :=
  (iblk1_bias (V3r m) c (tB b qi) e).trans (v3r_v3 m c e)

/-- What the even point leaves in the scratch: the first key block's running maximum, denominator and accumulator. -/
theorem hs0A (r : Fin 512) : sA0 (V3r m) c (tA b qi) (tA_even b qi) (ix2 r (0 : Fin 1)) = m1 (xC m c) (wC m c) b (nqOf qi r) := by
  rw [sA0_eq]
  exact m_first (x := xC m c) (W := wC m c) (b := b) (nq := nqOf qi) (q := iblk1 (V3r m) c 0 (tA b qi)) (hq := hqA m c b qi)
    (k0 := iblk1 (V3r m) c 1 (tA b qi)) (hk0 := hk0A m c b qi) r
theorem hs1A (r : Fin 512) : sA1 (V3r m) c (tA b qi) (tA_even b qi) (ix2 r (0 : Fin 1)) = l1 (xC m c) (wC m c) b (nqOf qi r) := by
  rw [sA1_eq]
  exact l_first (x := xC m c) (W := wC m c) (b := b) (nq := nqOf qi) (q := iblk1 (V3r m) c 0 (tA b qi)) (hq := hqA m c b qi)
    (k0 := iblk1 (V3r m) c 1 (tA b qi)) (hk0 := hk0A m c b qi) r
theorem hs2A (r d : Fin 512) : sA2 (V3r m) c (tA b qi) (tA_even b qi) (ix2 r d) = acc1 (xC m c) (wC m c) b (nqOf qi r) d := by
  rw [sA2_eq]
  exact acc_first (x := xC m c) (W := wC m c) (b := b) (nq := nqOf qi) (q := iblk1 (V3r m) c 0 (tA b qi)) (hq := hqA m c b qi)
    (k0 := iblk1 (V3r m) c 1 (tA b qi)) (v0 := iblk1 (V3r m) c 2 (tA b qi)) (hk0 := hk0A m c b qi) (hv0 := hv0A m c b qi) r d

end Blocks

/-! ## The result array -/

/-- Entry (b, 512·qi + r, e) of the result is the two-block formula of the arguments. -/
theorem X4_apply (b : Fin 8) (qi : Fin 4) (r e : Fin 512) :
    (X4 m c : S8x2048x512.Idx → Elt Ideal .f32) (ix3 b (nqOf qi r) e)
      = flashOut (xC m c) (wC m c) (woC m c) (boC m c) b (nqOf qi r) e := by
  unfold X4
  refine (attn_arrAt (V3r m) c b qi r e).trans ?_
  rw [outB6_eq (V3r m) c (tB b qi) (tB_odd b qi)]
  refine (pay3_apply _ _ _ _ _ r e).trans ?_
  have hl := l_second (x := xC m c) (W := wC m c) (b := b) (nq := nqOf qi) (q := iblk1 (V3r m) c 0 (tB b qi)) (hq := hqB m c b qi)
    (k1 := iblk1 (V3r m) c 1 (tB b qi)) (hk1 := hk1B m c b qi)
    (s0 := sA0 (V3r m) c (tA b qi) (tA_even b qi)) (s1 := sA1 (V3r m) c (tA b qi) (tA_even b qi)) (hs0 := hs0A m c b qi) (hs1 := hs1A m c b qi) r
  have hacc := fun d => acc_second (x := xC m c) (W := wC m c) (b := b) (nq := nqOf qi) (q := iblk1 (V3r m) c 0 (tB b qi)) (hq := hqB m c b qi)
    (k1 := iblk1 (V3r m) c 1 (tB b qi)) (v1 := iblk1 (V3r m) c 2 (tB b qi)) (hk1 := hk1B m c b qi) (hv1 := hv1B m c b qi)
    (s0 := sA0 (V3r m) c (tA b qi) (tA_even b qi)) (s2 := sA2 (V3r m) c (tA b qi) (tA_even b qi)) (hs0 := hs0A m c b qi) (hs2 := hs2A m c b qi) r d
  unfold flashOut
  rw [hbbB m c b qi e]
  refine congrArg (· + boC m c e) (Finset.sum_congr rfl fun d _ => ?_)
  rw [hacc d, hl, hxbB m c b qi r d, hwoB m c b qi d e]

/-- For real inputs the result array is the softmax formula of the arguments. -/
theorem X4_outArr
    (hx : ∀ i, ∃ r : ℝ, (m ((c : Thread nD τ).loc main_arg0) : S8x2048x512.Idx → Elt Ideal .f32) i = (r : EReal))
    (hW : ∀ i, ∃ r : ℝ, (m ((c : Thread nD τ).loc main_arg1) : S512x1536.Idx → Elt Ideal .f32) i = (r : EReal)) :
    X4 m c = Cert.Attn.outArr (m ((c : Thread nD τ).loc main_arg0)) (m ((c : Thread nD τ).loc main_arg1)) (m ((c : Thread nD τ).loc main_arg2)) (m ((c : Thread nD τ).loc main_arg3)) := by
  funext i
  obtain ⟨b, n, e, rfl⟩ : ∃ (b : Fin 8) (n : Fin 2048) (e : Fin 512), i = ix3 b n e := ⟨i 0, i 1, i 2, eq_ix3 i⟩
  obtain ⟨qi, r, rfl⟩ : ∃ (qi : Fin 4) (r : Fin 512), n = nqOf qi r :=
    ⟨⟨n.val / 512, by have := n.isLt; omega⟩, ⟨n.val % 512, Nat.mod_lt _ (by decide)⟩, Fin.ext (by show n.val = 512 * (n.val / 512) + n.val % 512; omega)⟩
  refine (X4_apply m c b qi r e).trans ?_
  refine Eq.trans ?_ (outArr_apply _ _ _ _ b (nqOf qi r) e).symm
  exact flash_eq_ref (xC m c) (wC m c) (woC m c) (boC m c) (fun b n d => hx (ix3 b n d)) (fun d j => hW (ix2 d j)) b (nqOf qi r) e

end Cert.KernelIdeal.Hand

end
-- ==== Proof.RefModules.lean ====
/-
  The reference program's run and its stage-by-stage reading at an index, imported here so that the
  modules that identify the reference's result with the attention formula can build on them.
-/
import proofs.«103585_j80161269612898_2_alg».proof.Defs
import proofs.«103585_j80161269612898_2_alg».proof.Proof.Gen.ReferenceIdeal.Run
import proofs.«103585_j80161269612898_2_alg».proof.Proof.Gen.ReferenceIdeal.Read
-- ==== Proof.RefIsSpec.lean ====
/-
  The reference program computes the attention formula. Its thirty-one operations are read one
  stage at a time at an index given by coordinates: the fused projection is a sum over the 512
  input columns; its three slices read columns d, 512 + d and 1024 + d; the logits are the inner
  products of the scaled query and key rows; the row maximum is the fold of `max` from −∞ over
  the 2048 key tokens; the exponentials, their sum from 0, the quotients, the product with the
  values, the residual, the output projection and the bias follow entry by entry. Composed, the
  last stage at (b, n, e) is `Cert.Attn.refOut` of the argument arrays read by coordinates.
-/
import proofs.«103585_j80161269612898_2_alg».proof.Proof.RefModules
import proofs.«103585_j80161269612898_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

/-! ## The stages' index functions at coordinates -/

theorem lidx_v0 (b : Fin 8) (n : Fin 2048) (j : Fin 1536) (k : Fin 512) : lidx_main_v0 (ix3 b n j) k = ix3 b n k :=
  funext fun a => Fin.ext (by match a with | ⟨0, _⟩ => rfl | ⟨1, _⟩ => rfl | ⟨2, _⟩ => rfl)
theorem ridx_v0 (b : Fin 8) (n : Fin 2048) (j : Fin 1536) (k : Fin 512) : ridx_main_v0 (ix3 b n j) k = ix2 k j :=
  funext fun a => Fin.ext (by match a with | ⟨0, _⟩ => rfl | ⟨1, _⟩ => rfl)
theorem idx_v1 (b : Fin 8) (n : Fin 2048) (d : Fin 512) : idx_main_v1 (ix3 b n d) = ix3 b n (Cert.Attn.qcol d) :=
  funext fun a => Fin.ext (by match a with | ⟨0, _⟩ => rfl | ⟨1, _⟩ => rfl | ⟨2, _⟩ => rfl)
theorem idx_v2 (b : Fin 8) (n : Fin 2048) (d : Fin 512) : idx_main_v2 (ix3 b n d) = ix3 b n (Cert.Attn.kcol d) :=
  funext fun a => Fin.ext (by match a with | ⟨0, _⟩ => rfl | ⟨1, _⟩ => rfl | ⟨2, _⟩ => rfl)
theorem idx_v3 (b : Fin 8) (n : Fin 2048) (d : Fin 512) : idx_main_v3 (ix3 b n d) = ix3 b n (Cert.Attn.vcol d) :=
  funext fun a => Fin.ext (by match a with | ⟨0, _⟩ => rfl | ⟨1, _⟩ => rfl | ⟨2, _⟩ => rfl)
theorem lidx_v8 (b : Fin 8) (n m : Fin 2048) (k : Fin 512) : lidx_main_v8 (ix3 b n m) k = ix3 b n k :=
  funext fun a => Fin.ext (by match a with | ⟨0, _⟩ => rfl | ⟨1, _⟩ => rfl | ⟨2, _⟩ => rfl)
theorem ridx_v8 (b : Fin 8) (n m : Fin 2048) (k : Fin 512) : ridx_main_v8 (ix3 b n m) k = ix3 b m k :=
  funext fun a => Fin.ext (by match a with | ⟨0, _⟩ => rfl | ⟨1, _⟩ => rfl | ⟨2, _⟩ => rfl)
theorem idx_v12_v13 (b : Fin 8) (n m : Fin 2048) : idx_main_v12 (idx_main_v13 (ix3 b n m)) = ix2 b n :=
  funext fun a => Fin.ext (by match a with | ⟨0, _⟩ => rfl | ⟨1, _⟩ => rfl)
theorem idx_v16 (b : Fin 8) (n : Fin 2048) (k : Fin 2048) : idx_main_v16 (ix2 b n) k = ix3 b n k :=
  funext fun a => Fin.ext (by match a with | ⟨0, _⟩ => rfl | ⟨1, _⟩ => rfl | ⟨2, _⟩ => rfl)
theorem idx_v17_v18 (b : Fin 8) (n m : Fin 2048) : idx_main_v17 (idx_main_v18 (ix3 b n m)) = ix2 b n :=
  funext fun a => Fin.ext (by match a with | ⟨0, _⟩ => rfl | ⟨1, _⟩ => rfl)
theorem lidx_v20 (b : Fin 8) (n : Fin 2048) (d : Fin 512) (k : Fin 2048) : lidx_main_v20 (ix3 b n d) k = ix3 b n k :=
  funext fun a => Fin.ext (by match a with | ⟨0, _⟩ => rfl | ⟨1, _⟩ => rfl | ⟨2, _⟩ => rfl)
theorem ridx_v20 (b : Fin 8) (n : Fin 2048) (d : Fin 512) (k : Fin 2048) : ridx_main_v20 (ix3 b n d) k = ix3 b k d :=
  funext fun a => Fin.ext (by match a with | ⟨0, _⟩ => rfl | ⟨1, _⟩ => rfl | ⟨2, _⟩ => rfl)
theorem lidx_v22 (b : Fin 8) (n : Fin 2048) (e : Fin 512) (k : Fin 512) : lidx_main_v22 (ix3 b n e) k = ix3 b n k :=
  funext fun a => Fin.ext (by match a with | ⟨0, _⟩ => rfl | ⟨1, _⟩ => rfl | ⟨2, _⟩ => rfl)
theorem ridx_v22 (b : Fin 8) (n : Fin 2048) (e : Fin 512) (k : Fin 512) : ridx_main_v22 (ix3 b n e) k = ix2 k e :=
  funext fun a => Fin.ext (by match a with | ⟨0, _⟩ => rfl | ⟨1, _⟩ => rfl)
theorem idx_v23_v24 (b : Fin 8) (n : Fin 2048) (e : Fin 512) : idx_main_v23 (idx_main_v24 (ix3 b n e)) = ix1 e :=
  funext fun a => Fin.ext (by match a with | ⟨0, _⟩ => rfl)

/-! ## The stages at coordinates -/

section
variable (x0 : (⟨S8x2048x512, .f32⟩ : BufTy).Contents (Elt Ideal)) (x1 : (⟨S512x1536, .f32⟩ : BufTy).Contents (Elt Ideal))
  (x2 : (⟨S512x512, .f32⟩ : BufTy).Contents (Elt Ideal)) (x3 : (⟨S512, .f32⟩ : BufTy).Contents (Elt Ideal))

/-- The token array read by coordinates. -/
abbrev X : Fin 8 → Fin 2048 → Fin 512 → EReal := fun b n d => x0 (ix3 b n d)
/-- The fused projection matrix read by coordinates. -/
abbrev Wm : Fin 512 → Fin 1536 → EReal := fun d j => x1 (ix2 d j)

/-- The fused projection. -/
theorem v0_at (b : Fin 8) (n : Fin 2048) (j : Fin 1536) :
    val_main_v0 (F := Ideal) x0 x1 (ix3 b n j) = Cert.Attn.qkv (X x0) (Wm x1) b n j := by
  rw [val_main_v0_apply]
  unfold Cert.Attn.qkv
  refine Finset.sum_congr rfl fun k _ => ?_
  rw [lidx_v0, ridx_v0]

/-- The scaled query rows. -/
theorem v5_at (b : Fin 8) (n : Fin 2048) (d : Fin 512) :
    val_main_v5 (F := Ideal) x0 x1 (ix3 b n d)
      = Cert.Attn.qkv (X x0) (Wm x1) b n (Cert.Attn.qcol d) * Ideal.ofBits .f32 0x3E000000#32 := by
  rw [val_main_v5_apply, val_main_v1_apply, val_main_v4_apply, val_main_cst_apply, idx_v1, v0_at]
  rfl

/-- The scaled key rows. -/
theorem v7_at (b : Fin 8) (n : Fin 2048) (d : Fin 512) :
    val_main_v7 (F := Ideal) x0 x1 (ix3 b n d)
      = Cert.Attn.qkv (X x0) (Wm x1) b n (Cert.Attn.kcol d) * Ideal.ofBits .f32 0x3E000000#32 := by
  rw [val_main_v7_apply, val_main_v2_apply, val_main_v6_apply, val_main_cst_0_apply, idx_v2, v0_at]
  rfl

/-- The value rows. -/
theorem v3_at (b : Fin 8) (n : Fin 2048) (d : Fin 512) :
    val_main_v3 (F := Ideal) x0 x1 (ix3 b n d) = Cert.Attn.qkv (X x0) (Wm x1) b n (Cert.Attn.vcol d) := by
  rw [val_main_v3_apply, idx_v3, v0_at]

/-- The logits. -/
theorem v8_at (b : Fin 8) (n m : Fin 2048) :
    val_main_v8 (F := Ideal) x0 x1 (ix3 b n m) = Cert.Attn.score (X x0) (Wm x1) b n m := by
  rw [val_main_v8_apply]
  unfold Cert.Attn.score
  refine Finset.sum_congr rfl fun k _ => ?_
  rw [lidx_v8, ridx_v8, v5_at, v7_at]

/-- A row of the logits with a key token put back is that entry of the logits. -/
theorem lift_v9 (h : S8x2048x2048.Reduces [2] S8x2048) (b : Fin 8) (n : Fin 2048) (k : Fin 2048) :
    h.lift (ix2 b n) k = ix3 b n k := by
  funext c; apply Fin.ext
  match c with
  | ⟨0, _⟩ => rfl
  | ⟨1, _⟩ => rfl
  | ⟨2, _⟩ => rfl

/-- The fold of the maximum over a row of the logits, from −∞. -/
theorem v9_at (b : Fin 8) (n : Fin 2048) :
    val_main_v9 (F := Ideal) x0 x1 (ix2 b n)
      = (Finset.univ : Finset (Fin 2048)).fold max (Ideal.ofBits .f32 0xFF800000#32)
          (fun m => Cert.Attn.score (X x0) (Wm x1) b n m) := by
  have hy : ∀ m : Fin 2048, val_main_v8 (F := Ideal) x0 x1 (ix3 b n m) = Cert.Attn.score (X x0) (Wm x1) b n m :=
    v8_at x0 x1 b n
  unfold val_main_v9
  generalize val_main_v8 (F := Ideal) x0 x1 = y at hy ⊢
  have h : S8x2048x2048.Reduces [2] S8x2048 := by decide
  refine (Host.reduce_eq_fold_single (α := Ideal .f32) (s := S8x2048x2048) (t := S8x2048) (u := S_)
    (FloatOps.maximumf (F := Ideal) (φ := .f32)) y (val_main_cst_1 (F := Ideal))
    reducesTo_S8x2048x2048_S8x2048_d2 h h_S_ (ix2 b n)).trans ?_
  have hf : (y ∘ h.lift (ix2 b n)) = fun m : Fin 2048 => Cert.Attn.score (X x0) (Wm x1) b n m :=
    funext fun k => (congrArg y (lift_v9 h b n k)).trans (hy k)
  exact congrArg (fun f => Finset.fold max (Ideal.ofBits .f32 0xFF800000#32) f (Finset.univ : Finset (Fin 2048))) hf

/-- The row maximum. -/
theorem v11_at (b : Fin 8) (n : Fin 2048) :
    val_main_v11 (F := Ideal) x0 x1 (ix2 b n) = Cert.Attn.rowMax (X x0) (Wm x1) b n := by
  rw [val_main_v11_apply, val_main_v10_apply, val_main_cst_2_apply, v9_at]
  rfl

/-- The row maximum broadcast along the row. -/
theorem v13_at (b : Fin 8) (n m : Fin 2048) :
    val_main_v13 (F := Ideal) x0 x1 (ix3 b n m) = Cert.Attn.rowMax (X x0) (Wm x1) b n := by
  rw [val_main_v13_apply, val_main_v12_apply, idx_v12_v13, v11_at]

/-- The stabilised exponentials. -/
theorem v15_at (b : Fin 8) (n m : Fin 2048) :
    val_main_v15 (F := Ideal) x0 x1 (ix3 b n m) = Cert.Attn.ew (X x0) (Wm x1) b n m := by
  rw [val_main_v15_apply, val_main_v14_apply, v8_at, v13_at]
  rfl

/-- The softmax denominators. -/
theorem v16_at (b : Fin 8) (n : Fin 2048) :
    val_main_v16 (F := Ideal) x0 x1 (ix2 b n) = Cert.Attn.den (X x0) (Wm x1) b n := by
  rw [val_main_v16_apply, val_main_cst_3_apply]
  unfold Cert.Attn.den
  refine congrArg (_ + ·) (Finset.sum_congr rfl fun k _ => ?_)
  rw [idx_v16, v15_at]

/-- The denominators broadcast along the row. -/
theorem v18_at (b : Fin 8) (n m : Fin 2048) :
    val_main_v18 (F := Ideal) x0 x1 (ix3 b n m) = Cert.Attn.den (X x0) (Wm x1) b n := by
  rw [val_main_v18_apply, val_main_v17_apply, idx_v17_v18, v16_at]

/-- The softmax weights. -/
theorem v19_at (b : Fin 8) (n m : Fin 2048) :
    val_main_v19 (F := Ideal) x0 x1 (ix3 b n m)
      = Ideal.div (Cert.Attn.ew (X x0) (Wm x1) b n m) (Cert.Attn.den (X x0) (Wm x1) b n) := by
  rw [val_main_v19_apply, v15_at, v18_at]
  rfl

/-- The attention output. -/
theorem v20_at (b : Fin 8) (n : Fin 2048) (d : Fin 512) :
    val_main_v20 (F := Ideal) x0 x1 (ix3 b n d) = Cert.Attn.attnV (X x0) (Wm x1) b n d := by
  rw [val_main_v20_apply]
  unfold Cert.Attn.attnV
  refine Finset.sum_congr rfl fun k _ => ?_
  rw [lidx_v20, ridx_v20, v19_at, v3_at]

/-- The attention output plus the residual. -/
theorem v21_at (b : Fin 8) (n : Fin 2048) (d : Fin 512) :
    val_main_v21 (F := Ideal) x0 x1 (ix3 b n d) = Cert.Attn.attnV (X x0) (Wm x1) b n d + x0 (ix3 b n d) := by
  rw [val_main_v21_apply, v20_at]
  rfl

/-- The last stage at coordinates is the attention formula. -/
theorem v25_at (b : Fin 8) (n : Fin 2048) (e : Fin 512) :
    val_main_v25 (F := Ideal) x0 x1 x2 x3 (ix3 b n e)
      = Cert.Attn.refOut (fun b n d => x0 (ix3 b n d)) (fun d j => x1 (ix2 d j)) (fun d e => x2 (ix2 d e))
          (fun e => x3 (ix1 e)) b n e := by
  rw [val_main_v25_apply, val_main_v24_apply, val_main_v23_apply, idx_v23_v24, val_main_v22_apply]
  unfold Cert.Attn.refOut
  refine congrArg (· + x3 (ix1 e)) (Finset.sum_congr rfl fun k _ => ?_)
  rw [lidx_v22, ridx_v22, v21_at]

/-- The reference's result array is the attention formula's array of the argument arrays. -/
theorem ref_eq : val_main_v25 (F := Ideal) x0 x1 x2 x3 = Cert.Attn.outArr x0 x1 x2 x3 := by
  funext i
  obtain ⟨b, n, e, rfl⟩ : ∃ (b : Fin 8) (n : Fin 2048) (e : Fin 512), i = ix3 b n e := ⟨i 0, i 1, i 2, eq_ix3 i⟩
  exact v25_at x0 x1 x2 x3 b n e

end

/-! ## The run -/

/-- Every weakly fair execution of the reference terminates with its result array the attention
    formula's array of the arguments' launch contents, the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25)
        = Cert.Attn.outArr (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v25_eq m c).trans (ref_eq _ _ _ _)), (h c).2⟩)
    (Cert.ReferenceIdeal.Value.run (F := Ideal) m ρ)

end Cert.ReferenceIdeal.RefValue

end
-- ==== Proof.FiniteInputs.lean ====
/-
  The inputs are real numbers. The precondition says of each of the four argument arrays that
  every entry's absolute value is below +∞ (the word `0x7F800000`), all four conjoined. On the
  extended reals |x| = max x (−x), and max x (−x) < +∞ excludes exactly x = +∞ and x = −∞ (whose
  negation is +∞): what is left is a real number.
-/
import proofs.«103585_j80161269612898_2_alg».proof.Pre_finite_inputs
import Idealize.ShloMosaic.Lib.ReduceAll
import Idealize.ShloMosaic.Lib.ValueIdx
import Idealize.ShloMosaic.PureOps.Ideal.Laws

noncomputable section

namespace Cert.Attn

open Idealize.ShloMosaic

/-- The word `0x7F800000` denotes +∞. -/
theorem ofBits_posInf : Ideal.ofBits .f32 0x7F800000#32 = (⊤ : EReal) := by
  simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.cmpf_def, Ideal.hostAbsf_def, Ideal.absf_def, Ideal.ofBits_def, ofBits_posInf] at h
  induction x using EReal.rec with
  | bot => exact absurd h (by simp [Ideal.cmp])
  | coe r => exact ⟨r, rfl⟩
  | top => exact absurd h (by simp [Ideal.cmp])

/-- From the precondition (the printed predicate evaluates to the bit 1): every entry of every
    argument array is a real number. -/
theorem finite_of_pre [Cert.Pre_finite_inputs.Facts]
    (x0 : FVec Ideal Cert.Pre_finite_inputs.S8x2048x512 .f32) (x1 : FVec Ideal Cert.Pre_finite_inputs.S512x1536 .f32)
    (x2 : FVec Ideal Cert.Pre_finite_inputs.S512x512 .f32) (x3 : FVec Ideal Cert.Pre_finite_inputs.S512 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, andi] at h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Attn

end
-- ==== Proof.lean ====
/-
  A fused attention layer against its plain formula. For x : [8, 2048, 512], W : [512, 1536], Wo : [512, 512], bo : [512]:

      qkv = x · W,   (q, k, v) = the three 512-column thirds of qkv,
      out = (softmax((q/8)(k/8)ᵀ) · v + x) · Wo + bo.

  The kernel program computes qkv in one tiled matrix product, then walks each block of 512 query tokens over the key
  axis in two blocks of 1024 with a running maximum, denominator and accumulator (the scale 1/64 on q alone), divides,
  adds x, projects and adds the bias. Read on the extended reals both are the same function of finite inputs: the two
  scalings agree because (q·⅛)(k·⅛) = (q·1/64)k on reals, and the blockwise accumulation telescopes to the softmax
  because exp(m₁ − m₂)·exp(s − m₁) = exp(s − m₂) and a weighted sum may be normalised before or after it is taken; both
  need the scores and values finite, which they are as finite sums of products of the finite inputs.

  The three programs run to completion with their arguments unchanged: the kernel program as its four items (a
  reshape, the projection kernel, two reshapes, the attention kernel) one after the other, each kernel a pipeline
  whose body is run at every grid point; the reference as its host operations in order. No rewrite was applied when the
  kernel program was read on the extended reals, so there is nothing for the preservation conjunct to say.
-/
import proofs.«103585_j80161269612898_2_alg».proof.Defs
import proofs.«103585_j80161269612898_2_alg».proof.Proof.Gen.Kernel
import proofs.«103585_j80161269612898_2_alg».proof.Proof.Gen.KernelIdeal
import proofs.«103585_j80161269612898_2_alg».proof.Proof.Gen.ReferenceIdeal
import proofs.«103585_j80161269612898_2_alg».proof.Proof.Gen.Pre_finite_inputs
import proofs.«103585_j80161269612898_2_alg».proof.Proof.Kernel.Frame
import proofs.«103585_j80161269612898_2_alg».proof.Proof.KernelIdeal.Value
import proofs.«103585_j80161269612898_2_alg».proof.Proof.RefIsSpec
import proofs.«103585_j80161269612898_2_alg».proof.Proof.FiniteInputs
import Idealize.ShloMosaic.Adequacy
import Idealize.ShloMosaic.Init

noncomputable section

namespace Cert.Proof

open Idealize.ShloMosaic Idealize.SL.Sem

/-- The kernel program, read at the word level, runs and leaves its arguments unchanged. -/
theorem frame_p : Cert.frame_Kernel := fun m ρ _ => Cert.Kernel.Hand.frame (F := Bits) m ρ

/-- The kernel program, read on the extended reals, runs and leaves its arguments unchanged. -/
theorem frame_pi : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite separates the kernel program from its reading on the extended reals. -/
theorem preserves : Cert.preserves_Kernel_KernelIdeal := trivial

/-- On the extended reals, from memories agreeing on finite arguments, both programs end with the softmax formula of the
    arguments in their result arrays: the kernel's two-block accumulation equals it for real inputs, the reference's
    operations are it. -/
theorem algebraic : Cert.algebraic_KernelIdeal_ReferenceIdeal := by
  intro m ρ m' ρ' hpre hagree
  have hfin := fun c => Cert.Attn.finite_of_pre _ _ _ _ (hpre c)
  refine ⟨fun c => Cert.Attn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.X4_outArr m c (hfin c).1 (hfin c).2.1), (h c).2⟩)
      (Cert.KernelIdeal.Hand.run_all (F := Ideal) m ρ)
  · refine (θ_run Cert.ReferenceIdeal.defs _ _).mono (fun _ h c => ⟨?_, (h c).2⟩) (Cert.ReferenceIdeal.RefValue.run_ref m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
